-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S1 : Shape := ⟨1, ![1]⟩
abbrev S128 : Shape := ⟨1, ![128]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x128x64x64 .f32) (main_arg1 : FVec F S4x128x64x64 .f32) (main_arg2 : FVec F S1 .f32) (main_arg3 : FVec F S128 .f32) (main_arg4 : FVec F S128 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S4x128x64x64 .f32 := Host.absf main_arg1
  let main_cst_0 : FVec F S_ .f32 := constant S_ .f32 0x7F800000#32
  let main_v5 : FVec F S4x128x64x64 .f32 := broadcastInDim S4x128x64x64 ![] bcast_S_S4x128x64x64 main_cst_0
  let main_v6 : IVec S4x128x64x64 1 := cmpf .olt main_v4 main_v5
  let main_c_1 : IVec S_ 1 := constantI S_ 1 1#1
  let main_v7 : IVec S_ 1 := (fun x v => Host.reduce IntOp.andi x v reducesTo_S4x128x64x64_S_d0_1_2_3 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S4x128x64x64 : Shape := ⟨4, ![4, 128, 64, 64]⟩
abbrev S1 : Shape := ⟨1, ![1]⟩
abbrev S128 : Shape := ⟨1, ![128]⟩
abbrev S4x128x4096 : Shape := ⟨3, ![4, 128, 4096]⟩
abbrev S1x128x1024 : Shape := ⟨3, ![1, 128, 1024]⟩
abbrev S1x128x512 : Shape := ⟨3, ![1, 128, 512]⟩
abbrev S1024x1 : Shape := ⟨2, ![1024, 1]⟩
abbrev S128x1024 : Shape := ⟨2, ![128, 1024]⟩
abbrev S256x1024 : Shape := ⟨2, ![256, 1024]⟩
abbrev S128x512 : Shape := ⟨2, ![128, 512]⟩
abbrev S256x512 : Shape := ⟨2, ![256, 512]⟩
abbrev S1024x512 : Shape := ⟨2, ![1024, 512]⟩
abbrev S1024 : Shape := ⟨1, ![1024]⟩
abbrev S1x1024 : Shape := ⟨2, ![1, 1024]⟩
abbrev S1x1x1x1 : Shape := ⟨4, ![1, 1, 1, 1]⟩
abbrev S_ : Shape := ⟨0, ![]⟩
abbrev S1x128x1x1 : Shape := ⟨4, ![1, 128, 1, 1]⟩

abbrev nBuf : Space → Nat
  | .hbm => 60
  | .vmem => 14
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S1, .f32⟩
  | .hbm, ⟨3, _⟩ => ⟨S128, .f32⟩
  | .hbm, ⟨4, _⟩ => ⟨S128, .f32⟩
  | .hbm, ⟨5, _⟩ => ⟨S4x128x4096, .f32⟩
  | .hbm, ⟨6, _⟩ => ⟨S4x128x4096, .f32⟩
  | .hbm, ⟨7, _⟩ => ⟨S4x128x4096, .f32⟩
  | .hbm, ⟨8, _⟩ => ⟨S4x128x64x64, .f32⟩
  | .hbm, ⟨9, _⟩ => ⟨S1x1x1x1, .f32⟩
  | .hbm, ⟨10, _⟩ => ⟨S4x128x64x64, .f32⟩
  | .hbm, ⟨11, _⟩ => ⟨S4x128x64x64, .f32⟩
  | .hbm, ⟨12, _⟩ => ⟨S_, .f32⟩
  | .hbm, ⟨13, _⟩ => ⟨S128, .f32⟩
  | .hbm, ⟨14, _⟩ => ⟨S1x128x1x1, .f32⟩
  | .hbm, ⟨15, _⟩ => ⟨S_, .f32⟩
  | .hbm, ⟨16, _⟩ => ⟨S1x128x1x1, .f32⟩
  | .hbm, ⟨17, _⟩ => ⟨S1x128x1x1, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128x1x1, .f32⟩
  | .hbm, ⟨22, _⟩ => ⟨S_, .f32⟩
  | .hbm, ⟨23, _⟩ => ⟨S1x128x1x1, .f32⟩
  | .hbm, ⟨24, _⟩ => ⟨S1x128x1x1, .f32⟩
  | .hbm, ⟨25, _⟩ => ⟨S4x128x64x64, .f32⟩
  | .hbm, ⟨26, _⟩ => ⟨S4x128x64x64, .f32⟩
  | .hbm, ⟨27, _⟩ => ⟨S4x128x64x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S1x128x1x1, .f32⟩
  | .hbm, ⟨34, _⟩ => ⟨S1x128x1x1, .f32⟩
  | .hbm, ⟨35, _⟩ => ⟨S1x128x1x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S1x128x1x1, .f32⟩
  | .hbm, ⟨41, _⟩ => ⟨S1x128x1x1, .f32⟩
  | .hbm, ⟨42, _⟩ => ⟨S4x128x64x64, .f32⟩
  | .hbm, ⟨43, _⟩ => ⟨S4x128x64x64, .f32⟩
  | .hbm, ⟨44, _⟩ => ⟨S_, .f32⟩
  | .hbm, ⟨45, _⟩ => ⟨S1x128x1x1, .f32⟩
  | .hbm, ⟨46, _⟩ => ⟨S1x128x1x1, .f32⟩
  | .hbm, ⟨47, _⟩ => ⟨S1x128x1x1, .f32⟩
  | .hbm, ⟨48, _⟩ => ⟨S4x128x64x64, .f32⟩
  | .hbm, ⟨49, _⟩ => ⟨S4x128x64x64, .f32⟩
  | .hbm, ⟨50, _⟩ => ⟨S1x128x1x1, .f32⟩
  | .hbm, ⟨51, _⟩ => ⟨S4x128x64x64, .f32⟩
  | .hbm, ⟨52, _⟩ => ⟨S4x128x64x64, .f32⟩
  | .hbm, ⟨53, _⟩ => ⟨S1x128x1x1, .f32⟩
  | .hbm, ⟨54, _⟩ => ⟨S4x128x64x64, .f32⟩
  | .hbm, ⟨55, _⟩ => ⟨S4x128x64x64, .f32⟩
  | .hbm, ⟨56, _⟩ => ⟨S_, .f32⟩
  | .hbm, ⟨57, _⟩ => ⟨S4x128x64x64, .f32⟩
  | .hbm, ⟨58, _⟩ => ⟨S4x128x64x64, .f32⟩
  | .hbm, ⟨59, _⟩ => ⟨S4x128x64x64, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x1024, .f32⟩
  | .local _ .vmem, ⟨9, _⟩ => ⟨S1x128x1024, .f32⟩
  | .local _ .vmem, ⟨10, _⟩ => ⟨S1024x1, .f32⟩
  | .local _ .vmem, ⟨11, _⟩ => ⟨S1024x1, .f32⟩
  | .local _ .vmem, ⟨12, _⟩ => ⟨S128x1024, .f32⟩
  | .local _ .vmem, ⟨13, _⟩ => ⟨S256x1024, .bf16⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call1_cst : Ref sig .tc := ⟨.hbm, 56, rfl⟩
abbrev main_call1_v0 : Ref sig .tc := ⟨.hbm, 57, rfl⟩
abbrev main_v25 : Ref sig .tc := ⟨.hbm, 58, rfl⟩
abbrev main_v26 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v44 : BitVec 1 := Scalar.cmpi .eq arg2 c7_i32
  let v45 : BitVec 32 := Scalar.extui v44
  let c0_i32_23 : BitVec 32 := 0#32
  let v46 : BitVec 1 := Scalar.cmpi .ne v45 c0_i32_23
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x128x64x64_S4x128x4096 : S4x128x64x64.ShapeCasts S4x128x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  bitsLt_bf16_f32 : FTy.bits .bf16 < FTy.bits .f32
  concatenates_S128x1024_S128x1024_S256x1024_d0 : Shape.Concatenates [S128x1024, S128x1024] S256x1024 0
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  concatenates_S128x512_S128x512_S256x512_d0 : Shape.Concatenates [S128x512, S128x512] S256x512 0
  reduces_S1024x512_S1024 : S1024x512.Reduces [1] S1024
  shapeCasts_S1024_S1024x1 : S1024.ShapeCasts S1024x1
  broadcasts_S1024x1_S1024x512 : S1024x1.Broadcasts S1024x512
  transposes_S1024x1_p1_0_S1x1024 : S1024x1.Transposes [1, 0] S1x1024
  broadcasts_S1x1024_S128x1024 : S1x1024.Broadcasts S128x1024
  shapeCasts_S128x1024_S1x128x1024 : S128x1024.ShapeCasts S1x128x1024
  shapeCasts_S4x128x4096_S4x128x64x64 : S4x128x4096.ShapeCasts S4x128x64x64
  bcast_S1_S1x1x1x1_3 : S1.BroadcastsInDim S1x1x1x1 (![3] : Fin 1 → Fin S1x1x1x1.rank)
  bcast_S1x1x1x1_S4x128x64x64_0_1_2_3 : S1x1x1x1.BroadcastsInDim S4x128x64x64 (![0, 1, 2, 3] : Fin 4 → Fin S4x128x64x64.rank)
  reducesTo_S4x128x64x64_S128_d0_2_3 : S4x128x64x64.ReducesTo [0, 2, 3] S128
  h_S_ : 0 < S_.numel
  bcast_S128_S1x128x1x1_1 : S128.BroadcastsInDim S1x128x1x1 (![1] : Fin 1 → Fin S1x128x1x1.rank)
  bcast_S_S1x128x1x1 : S_.BroadcastsInDim S1x128x1x1 (![] : Fin 0 → Fin S1x128x1x1.rank)
  bcast_S1x128x1x1_S4x128x64x64_0_1_2_3 : S1x128x1x1.BroadcastsInDim S4x128x64x64 (![0, 1, 2, 3] : Fin 4 → Fin S4x128x64x64.rank)
  shapeCasts_S128_S1x128x1x1 : S128.ShapeCasts S1x128x1x1
  bcast_S_S4x128x64x64 : S_.BroadcastsInDim S4x128x64x64 (![] : Fin 0 → Fin S4x128x64x64.rank)
  dot_S256x1024_S256x512_S1024x512_0_0_1_1_n_n_wf : DotDims.WF S256x1024 S256x512 S1024x512 [0] [0] [1] [1] [] []
  dot_S128x512_S1024x512_S128x1024_1_1_0_0_n_n_wf : DotDims.WF S128x512 S1024x512 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x128x4096.size a
  hwx0_0 : ∀ i : grid0.Coords, EltTy.bits .f32 = 32 ∨ (Rect.block (s := S4x128x4096) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S4x128x4096.size a
  hwx0_1 : ∀ i : grid0.Coords, EltTy.bits .f32 = 32 ∨ (Rect.block (s := S4x128x4096) S1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S4x128x4096.size a
  hwx0_2 : ∀ i : grid0.Coords, EltTy.bits .f32 = 32 ∨ (Rect.block (s := S4x128x4096) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S4x128x4096.size a
  hwx0_3 : ∀ i : grid0.Coords, EltTy.bits .f32 = 32 ∨ (Rect.block (s := S4x128x4096) S1x128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S4x128x4096.size a
  hwx0_4 : ∀ i : grid0.Coords, EltTy.bits .f32 = 32 ∨ (Rect.block (s := S4x128x4096) S1x128x1024.size (cc0_transform_4 i) (hinb0_4 i)).WholeWords (EltTy.packing .f32)

variable [Facts₀]

def dot_S256x1024_S256x512_S1024x512_0_0_1_1_n_n : DotDims S256x1024 S256x512 S1024x512 where
  lhsContracting := [0]
  rhsContracting := [0]
  lhsNonContracting := [1]
  rhsNonContracting := [1]
  lhsBatch := []
  rhsBatch := []
  wf := dot_S256x1024_S256x512_S1024x512_0_0_1_1_n_n_wf
def dot_S128x512_S1024x512_S128x1024_1_1_0_0_n_n : DotDims S128x512 S1024x512 S128x1024 where
  lhsContracting := [1]
  rhsContracting := [1]
  lhsNonContracting := [0]
  rhsNonContracting := [0]
  lhsBatch := []
  rhsBatch := []
  wf := dot_S128x512_S1024x512_S128x1024_1_1_0_0_n_n_wf

abbrev win0_0 : Pipeline.Window sig grid0 :=
  Pipeline.Window.ofSpec (Memref.whole main_v0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x128x64x64 : Shape := ⟨4, ![4, 128, 64, 64]⟩
abbrev S1 : Shape := ⟨1, ![1]⟩
abbrev S128 : Shape := ⟨1, ![128]⟩
abbrev S4x128x4096 : Shape := ⟨3, ![4, 128, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x1x1 : Shape := ⟨4, ![1, 1, 1, 1]⟩
abbrev S1x128x1x1 : Shape := ⟨4, ![1, 128, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S1, .f32⟩
  | .hbm, ⟨3, _⟩ => ⟨S128, .f32⟩
  | .hbm, ⟨4, _⟩ => ⟨S128, .f32⟩
  | .hbm, ⟨5, _⟩ => ⟨S4x128x4096, .f32⟩
  | .hbm, ⟨6, _⟩ => ⟨S4x128x4096, .f32⟩
  | .hbm, ⟨7, _⟩ => ⟨S4x128x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x128x4096, .f32⟩
  | .hbm, ⟨26, _⟩ => ⟨S4x128x64x64, .f32⟩
  | .hbm, ⟨27, _⟩ => ⟨S1x1x1x1, .f32⟩
  | .hbm, ⟨28, _⟩ => ⟨S4x128x64x64, .f32⟩
  | .hbm, ⟨29, _⟩ => ⟨S4x128x64x64, .f32⟩
  | .hbm, ⟨30, _⟩ => ⟨S_, .f32⟩
  | .hbm, ⟨31, _⟩ => ⟨S128, .f32⟩
  | .hbm, ⟨32, _⟩ => ⟨S1x128x1x1, .f32⟩
  | .hbm, ⟨33, _⟩ => ⟨S_, .f32⟩
  | .hbm, ⟨34, _⟩ => ⟨S1x128x1x1, .f32⟩
  | .hbm, ⟨35, _⟩ => ⟨S1x128x1x1, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S1x128x1x1, .f32⟩
  | .hbm, ⟨40, _⟩ => ⟨S_, .f32⟩
  | .hbm, ⟨41, _⟩ => ⟨S1x128x1x1, .f32⟩
  | .hbm, ⟨42, _⟩ => ⟨S1x128x1x1, .f32⟩
  | .hbm, ⟨43, _⟩ => ⟨S4x128x64x64, .f32⟩
  | .hbm, ⟨44, _⟩ => ⟨S4x128x64x64, .f32⟩
  | .hbm, ⟨45, _⟩ => ⟨S4x128x64x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S128, .f32⟩
  | .hbm, ⟨51, _⟩ => ⟨S1x128x1x1, .f32⟩
  | .hbm, ⟨52, _⟩ => ⟨S1x128x1x1, .f32⟩
  | .hbm, ⟨53, _⟩ => ⟨S1x128x1x1, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S1x128x1x1, .f32⟩
  | .hbm, ⟨59, _⟩ => ⟨S1x128x1x1, .f32⟩
  | .hbm, ⟨60, _⟩ => ⟨S4x128x64x64, .f32⟩
  | .hbm, ⟨61, _⟩ => ⟨S4x128x64x64, .f32⟩
  | .hbm, ⟨62, _⟩ => ⟨S_, .f32⟩
  | .hbm, ⟨63, _⟩ => ⟨S1x128x1x1, .f32⟩
  | .hbm, ⟨64, _⟩ => ⟨S1x128x1x1, .f32⟩
  | .hbm, ⟨65, _⟩ => ⟨S1x128x1x1, .f32⟩
  | .hbm, ⟨66, _⟩ => ⟨S4x128x64x64, .f32⟩
  | .hbm, ⟨67, _⟩ => ⟨S4x128x64x64, .f32⟩
  | .hbm, ⟨68, _⟩ => ⟨S1x128x1x1, .f32⟩
  | .hbm, ⟨69, _⟩ => ⟨S4x128x64x64, .f32⟩
  | .hbm, ⟨70, _⟩ => ⟨S4x128x64x64, .f32⟩
  | .hbm, ⟨71, _⟩ => ⟨S1x128x1x1, .f32⟩
  | .hbm, ⟨72, _⟩ => ⟨S4x128x64x64, .f32⟩
  | .hbm, ⟨73, _⟩ => ⟨S4x128x64x64, .f32⟩
  | .hbm, ⟨74, _⟩ => ⟨S_, .f32⟩
  | .hbm, ⟨75, _⟩ => ⟨S4x128x64x64, .f32⟩
  | .hbm, ⟨76, _⟩ => ⟨S4x128x64x64, .f32⟩
  | .hbm, ⟨77, _⟩ => ⟨S4x128x64x64, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_cst_1 : Ref sig .tc := ⟨.hbm, 47, rfl⟩
abbrev main_call0_v8 : Ref sig .tc := ⟨.hbm, 48, rfl⟩
abbrev main_call0_cst_2 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_cst_3 : Ref sig .tc := ⟨.hbm, 54, rfl⟩
abbrev main_call0_v13 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_call1_cst : Ref sig .tc := ⟨.hbm, 74, rfl⟩
abbrev main_call1_v0 : Ref sig .tc := ⟨.hbm, 75, rfl⟩
abbrev main_v40 : Ref sig .tc := ⟨.hbm, 76, rfl⟩
abbrev main_v41 : Ref sig .tc := ⟨.hbm, 77, rfl⟩

abbrev nD : Nat := 1
abbrev τ : Topo := Topo.v7x

variable {F : FTy → Type} [FloatOps F]

class Facts₀ : Prop where
  shapeCasts_S4x128x64x64_S4x128x4096 : S4x128x64x64.ShapeCasts S4x128x4096
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  shapeCasts_S4x128x4096_S4x128x64x64 : S4x128x4096.ShapeCasts S4x128x64x64
  bcast_S1_S1x1x1x1_3 : S1.BroadcastsInDim S1x1x1x1 (![3] : Fin 1 → Fin S1x1x1x1.rank)
  bcast_S1x1x1x1_S4x128x64x64_0_1_2_3 : S1x1x1x1.BroadcastsInDim S4x128x64x64 (![0, 1, 2, 3] : Fin 4 → Fin S4x128x64x64.rank)
  reducesTo_S4x128x64x64_S128_d0_2_3 : S4x128x64x64.ReducesTo [0, 2, 3] S128
  bcast_S128_S1x128x1x1_1 : S128.BroadcastsInDim S1x128x1x1 (![1] : Fin 1 → Fin S1x128x1x1.rank)
  bcast_S_S1x128x1x1 : S_.BroadcastsInDim S1x128x1x1 (![] : Fin 0 → Fin S1x128x1x1.rank)
  bcast_S1x128x1x1_S4x128x64x64_0_1_2_3 : S1x128x1x1.BroadcastsInDim S4x128x64x64 (![0, 1, 2, 3] : Fin 4 → Fin S4x128x64x64.rank)
  shapeCasts_S128_S1x128x1x1 : S128.ShapeCasts S1x128x1x1
  bcast_S_S4x128x64x64 : S_.BroadcastsInDim S4x128x64x64 (![] : Fin 0 → Fin S4x128x64x64.rank)
  dot_S4x128x4096_S4x128x4096_S4x4096x4096_1_1_2_2_0_0_wf : DotDims.WF S4x128x4096 S4x128x4096 S4x4096x4096 [1] [1] [2] [2] [0] [0]
  dot_S4x128x4096_S4x4096x4096_S4x128x4096_2_2_1_1_0_0_wf : DotDims.WF S4x128x4096 S4x4096x4096 S4x128x4096 [2] [2] [1] [1] [0] [0]

variable [Facts₀]

def dot_S4x128x4096_S4x128x4096_S4x4096x4096_1_1_2_2_0_0 : DotDims S4x128x4096 S4x128x4096 S4x4096x4096 where
  lhsContracting := [1]
  rhsContracting := [1]
  lhsNonContracting := [2]
  rhsNonContracting := [2]
  lhsBatch := [0]
  rhsBatch := [0]
  wf := dot_S4x128x4096_S4x128x4096_S4x4096x4096_1_1_2_2_0_0_wf
def dot_S4x128x4096_S4x4096x4096_S4x128x4096_2_2_1_1_0_0 : DotDims S4x128x4096 S4x4096x4096 S4x128x4096 where
  lhsContracting := [2]
  rhsContracting := [2]
  lhsNonContracting := [1]
  rhsNonContracting := [1]
  lhsBatch := [0]
  rhsBatch := [0]
  wf := dot_S4x128x4096_S4x4096x4096_S4x128x4096_2_2_1_1_0_0_wf

class Facts : Prop extends Facts₀ where

variable [Facts]
-- ==== Proof.WRuns.lean ====
/-
  The attention kernel's launch, part one: what every later module is stated over.

  @main is two reshapes (the two [4,128,64,64] arguments seen as [4,128,4096] stacks P and Q), the region, and the
  batch-norm tail.  The region's grid has 4·4·8 = 128 points t = (b, qi, ki) with ki innermost.  Windows 0 and 1 are the
  query tiles of P and Q (1024 positions, fetched when ki = 0), windows 2 and 3 the key tiles of P and Q (512 positions,
  fetched at every point), window 4 the output tile, stored and written back only when ki = 7.  The body has three
  cases, decided by ki: the first point of a row of key tiles (ki = 0: the running maximum, sum and accumulator are
  reset and the query operand is assembled), the middle ones, and the last (ki = 7: the accumulator is divided by the
  sum and stored).  Here: the buffer contents at the region's entry, @main around the region, a window's block at a
  point, the closed forms of the two conditions, where the output window is idle, and names for the memrefs.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The five stretches of host operations after the region. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main reduces to the region continued by the tail, at the contents after the two reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps
    hostOps0_sub hostOps0_fresh main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions, in closed form -/

/-- "This is the first key tile of the row": ki = 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile of the row": ki = 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last key tile the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last key tile it is live. -/
theorem liveAt0_4 : ∀ t : Fin cfg0.N, cond0_1 (grid0.coords t) → cfg0.idle 4 (grid0.coords t) = false := by decide +kernel

/-! ## Names for the memrefs -/

/-- One staging buffer of the output window, through which its contents are stated. -/
abbrev VO4 : View sig .tc .vmem S1x128x1024 .f32 := (Memref.whole cc0_stg4_0 : Memref sig .tc .vmem S1x128x1024 .f32).view
abbrev ms0 (t : Fin cfg0.N) : Memref sig .tc .vmem S1x128x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128x1024 .f32 := win0_4.stage (cfg0.slots t 4)
abbrev hs4 (t : Fin cfg0.N) : (ms4 t).IsWhole := hstage0_4 ((cfg0.slots t 4).cast nbuf0_4)
/-- The four scratch buffers: the running maximum, the running sum, the accumulator, the assembled query operand. -/
abbrev scM : Memref sig .tc .vmem S1024x1 .f32 := Memref.whole cc0_scratch0
abbrev scL : Memref sig .tc .vmem S1024x1 .f32 := Memref.whole cc0_scratch1
abbrev scA : Memref sig .tc .vmem S128x1024 .f32 := Memref.whole cc0_scratch2
abbrev scQ : Memref sig .tc .vmem S256x1024 .bf16 := Memref.whole cc0_scratch3
abbrev VSM : View sig .tc .vmem S1024x1 .f32 := (scM).view
abbrev VSL : View sig .tc .vmem S1024x1 .f32 := (scL).view
abbrev VSA : View sig .tc .vmem S128x1024 .f32 := (scA).view
abbrev VSQ : View sig .tc .vmem S256x1024 .bf16 := (scQ).view

/-- The launch's invariant with the four scratch buffers as memrefs owned at some contents. -/
theorem PhiA0_eq (c : Dev nD) :
    (Pipeline.ΦA spec0 c : sProp 𝕄)
      = iprop(iprop((∃ d, owns (c : Thread nD τ) scM fullShare d) ∗ (∃ d, owns (c : Thread nD τ) scL fullShare d)
          ∗ (∃ d, owns (c : Thread nD τ) scA fullShare d) ∗ (∃ d, owns (c : Thread nD τ) scQ fullShare d)) ∗ (∃ r, prngReg c r)) := by
  unfold Pipeline.ΦA; rw [scopedRest0_eq]; simp only [scM, scL, scA, scQ, owns_whole]; try rfl

end Cert.Kernel.Hand

end
-- ==== Proof.WRunB.lean ====
/-
  The body at a MIDDLE key tile (neither the first nor the last of its row): it reads the two key tiles and the four
  scratch buffers as the point before left them, and stores a new running sum, a new accumulator and a new running
  maximum; the query operand, the query tiles and the output tile are left as they are.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import proofs.«143733_j15865609191815_2_alg».proof.Proof.WRuns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the running-maximum, running-sum and accumulator buffers at a middle key
    tile, with the proof that the body runs from the buffers at their contents to the continuation holding them so. -/
noncomputable def kernelRun0_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i)
    (x0 x1 : Vec F S1x128x1024 .f32) (x2 x3 : Vec F S1x128x512 .f32) (xsM xsL : Vec F S1024x1 .f32) (xsA : Vec F S128x1024 .f32) (xsQ : Vec F S256x1024 .bf16) :
    Σ' (LM : List (View.Piece (Elt F) S1024x1 .f32)) (LL : List (View.Piece (Elt F) S1024x1 .f32)), { LA : List (View.Piece (Elt F) S128x1024 .f32) //
      ∀ (xi4 : Vec F S1x128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xsM ∗ owns (c : Thread nD τ) arg9 fullShare xsL ∗ owns (c : Thread nD τ) arg10 fullShare xsA ∗ owns (c : Thread nD τ) arg11 fullShare xsQ
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA) ∗ owns (c : Thread nD τ) arg11 fullShare xsQ) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fM, %hfM, HM⟩, ⟨%fL, %hfL, HL⟩, ⟨%fA, %hfA, HA⟩, ⟨%fQ, %hfQ, HQ⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfM; obtain rfl := harg9.eq_unread hfL; obtain rfl := harg10.eq_unread hfA; obtain rfl := harg11.eq_unread hfQ
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HM]; · iexists _; iexact HM
    isplitl [HL]; · iexists _; iexact HL
    isplitl [HA]; · iexists _; iexact HA
    iexists _; isplitr; · ipureintro; exact harg11.read_unread _
    iexact HQ

end Cert.Kernel.Hand

end
-- ==== Proof.WRunA.lean ====
/-
  The body at the FIRST key tile of a row: whatever the four scratch buffers held, it resets the running maximum to −∞,
  the running sum and the accumulator to 0, assembles the query operand from the two query tiles, and then does a
  middle tile's work on top of that; the output tile is left as it is.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import proofs.«143733_j15865609191815_2_alg».proof.Proof.WRunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the four scratch buffers at the first key tile of a row, with the proof that
    the body runs from the scratch buffers at anything to the continuation holding them so. -/
noncomputable def kernelRun0_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i)
    (x0 x1 : Vec F S1x128x1024 .f32) (x2 x3 : Vec F S1x128x512 .f32) :
    Σ' (LM : List (View.Piece (Elt F) S1024x1 .f32)) (LL : List (View.Piece (Elt F) S1024x1 .f32)) (LA : List (View.Piece (Elt F) S128x1024 .f32)), { LQ : List (View.Piece (Elt F) S256x1024 .bf16) //
      ∀ (xi4 : Vec F S1x128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA) ∗ (∃ f, arg11.view.loc (c : Thread nD τ) ↦[arg11.view.set]{fullShare} arg11.view.writes (Elt F) f LQ)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dM, %fM, -, HM⟩, ⟨%dL, %fL, -, HL⟩, ⟨%dA, %fA, -, HA⟩, ⟨%dQ, %fQ, -, HQ⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HM]; · iexists _; iexact HM
    isplitl [HL]; · iexists _; iexact HL
    isplitl [HA]; · iexists _; iexact HA
    iexists _; iexact HQ

end Cert.Kernel.Hand

end
-- ==== Proof.WRunC.lean ====
/-
  The body at the LAST key tile of a row: a middle tile's work, and then the accumulator divided by the running sum is
  stored into the output tile, whatever that held.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import proofs.«143733_j15865609191815_2_alg».proof.Proof.WRunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output tile and in the running-maximum, running-sum and accumulator
    buffers at the last key tile of a row, with the proof that the body runs to the continuation holding them so. -/
noncomputable def kernelRun0_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i)
    (x0 x1 : Vec F S1x128x1024 .f32) (x2 x3 : Vec F S1x128x512 .f32) (xsM xsL : Vec F S1024x1 .f32) (xsA : Vec F S128x1024 .f32) (xsQ : Vec F S256x1024 .bf16) :
    Σ' (L4 : List (View.Piece (Elt F) S1x128x1024 .f32)) (LM : List (View.Piece (Elt F) S1024x1 .f32)) (LL : List (View.Piece (Elt F) S1024x1 .f32)), { LA : List (View.Piece (Elt F) S128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xsM ∗ owns (c : Thread nD τ) arg9 fullShare xsL ∗ owns (c : Thread nD τ) arg10 fullShare xsA ∗ owns (c : Thread nD τ) arg11 fullShare xsQ
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA) ∗ owns (c : Thread nD τ) arg11 fullShare xsQ) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fM, %hfM, HM⟩, ⟨%fL, %hfL, HL⟩, ⟨%fA, %hfA, HA⟩, ⟨%fQ, %hfQ, HQ⟩, Hk⟩
    obtain rfl := harg3.eq_unread hf0; obtain rfl := harg4.eq_unread hf1; obtain rfl := harg5.eq_unread hf2; obtain rfl := harg6.eq_unread hf3
    obtain rfl := harg8.eq_unread hfM; obtain rfl := harg9.eq_unread hfL; obtain rfl := harg10.eq_unread hfA; obtain rfl := harg11.eq_unread hfQ
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HM]; · iexists _; iexact HM
    isplitl [HL]; · iexists _; iexact HL
    isplitl [HA]; · iexists _; iexact HA
    iexists _; isplitr; · ipureintro; exact harg11.read_unread _
    iexact HQ

end Cert.Kernel.Hand

end
-- ==== Proof.WData.lean ====
/-
  The attention kernel's launch, part two: what the buffers hold after each grid point, and the body obligation.

  After the body at point t the running maximum, the running sum, the accumulator and the assembled query operand hold
  what the point's case stores there — at the first key tile of a row from nothing, at the others from what the point
  before left —, and at the last key tile of a row the output tile holds what that case stores.  These contents are
  named by recursion on the point; the launch's invariant carries the four scratch buffers at them from point to point.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import proofs.«143733_j15865609191815_2_alg».proof.Proof.WRunC
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its pieces -/

/-- What the case leaves in that buffer: its pieces read back. -/
def sM_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  : Vec F S1024x1 .f32 :=
  VSM.read (Elt F) (VSM.writes (Elt F) VSM.junk (kernelRun0_A c i arg3 harg3 arg4 harg4 arg5 harg5 arg6 harg6 arg7 harg7 arg8 harg8 arg9 harg9 arg10 harg10 arg11 harg11 hc0 hc1 x0 x1 x2 x3 ).1)
/-- Those pieces tile the buffer, so they cover it. -/
theorem cov_sM_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  (y : S1024x1.Idx) :
    ∃ pc ∈ (kernelRun0_A c i arg3 harg3 arg4 harg4 arg5 harg5 arg6 harg6 arg7 harg7 arg8 harg8 arg9 harg9 arg10 harg10 arg11 harg11 hc0 hc1 x0 x1 x2 x3 ).1, y ∈ pc.1.set :=
  View.cover_of_tiledL ((kernelRun0_A c i arg3 harg3 arg4 harg4 arg5 harg5 arg6 harg6 arg7 harg7 arg8 harg8 arg9 harg9 arg10 harg10 arg11 harg11 hc0 hc1 x0 x1 x2 x3 ).1) S1024x1.size (by sl_kernel_rfl) y

/-- What the case leaves in that buffer: its pieces read back. -/
def sL_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  : Vec F S1024x1 .f32 :=
  VSL.read (Elt F) (VSL.writes (Elt F) VSL.junk (kernelRun0_A c i arg3 harg3 arg4 harg4 arg5 harg5 arg6 harg6 arg7 harg7 arg8 harg8 arg9 harg9 arg10 harg10 arg11 harg11 hc0 hc1 x0 x1 x2 x3 ).2.1)
/-- Those pieces tile the buffer, so they cover it. -/
theorem cov_sL_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  (y : S1024x1.Idx) :
    ∃ pc ∈ (kernelRun0_A c i arg3 harg3 arg4 harg4 arg5 harg5 arg6 harg6 arg7 harg7 arg8 harg8 arg9 harg9 arg10 harg10 arg11 harg11 hc0 hc1 x0 x1 x2 x3 ).2.1, y ∈ pc.1.set :=
  View.cover_of_tiledL ((kernelRun0_A c i arg3 harg3 arg4 harg4 arg5 harg5 arg6 harg6 arg7 harg7 arg8 harg8 arg9 harg9 arg10 harg10 arg11 harg11 hc0 hc1 x0 x1 x2 x3 ).2.1) S1024x1.size (by sl_kernel_rfl) y

/-- What the case leaves in that buffer: its pieces read back. -/
def sA_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  : Vec F S128x1024 .f32 :=
  VSA.read (Elt F) (VSA.writes (Elt F) VSA.junk (kernelRun0_A c i arg3 harg3 arg4 harg4 arg5 harg5 arg6 harg6 arg7 harg7 arg8 harg8 arg9 harg9 arg10 harg10 arg11 harg11 hc0 hc1 x0 x1 x2 x3 ).2.2.1)
/-- Those pieces tile the buffer, so they cover it. -/
theorem cov_sA_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  (y : S128x1024.Idx) :
    ∃ pc ∈ (kernelRun0_A c i arg3 harg3 arg4 harg4 arg5 harg5 arg6 harg6 arg7 harg7 arg8 harg8 arg9 harg9 arg10 harg10 arg11 harg11 hc0 hc1 x0 x1 x2 x3 ).2.2.1, y ∈ pc.1.set :=
  View.cover_of_tiledL ((kernelRun0_A c i arg3 harg3 arg4 harg4 arg5 harg5 arg6 harg6 arg7 harg7 arg8 harg8 arg9 harg9 arg10 harg10 arg11 harg11 hc0 hc1 x0 x1 x2 x3 ).2.2.1) S128x1024.size (by sl_kernel_rfl) y

/-- What the case leaves in that buffer: its pieces read back. -/
def sQ_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  : Vec F S256x1024 .bf16 :=
  VSQ.read (Elt F) (VSQ.writes (Elt F) VSQ.junk (kernelRun0_A c i arg3 harg3 arg4 harg4 arg5 harg5 arg6 harg6 arg7 harg7 arg8 harg8 arg9 harg9 arg10 harg10 arg11 harg11 hc0 hc1 x0 x1 x2 x3 ).2.2.2.1)
/-- Those pieces tile the buffer, so they cover it. -/
theorem cov_sQ_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  (y : S256x1024.Idx) :
    ∃ pc ∈ (kernelRun0_A c i arg3 harg3 arg4 harg4 arg5 harg5 arg6 harg6 arg7 harg7 arg8 harg8 arg9 harg9 arg10 harg10 arg11 harg11 hc0 hc1 x0 x1 x2 x3 ).2.2.2.1, y ∈ pc.1.set :=
  View.cover_of_tiledL ((kernelRun0_A c i arg3 harg3 arg4 harg4 arg5 harg5 arg6 harg6 arg7 harg7 arg8 harg8 arg9 harg9 arg10 harg10 arg11 harg11 hc0 hc1 x0 x1 x2 x3 ).2.2.2.1) S256x1024.size (by sl_kernel_rfl) y

/-- What the case leaves in that buffer: its pieces read back. -/
def sM_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) : Vec F S1024x1 .f32 :=
  VSM.read (Elt F) (VSM.writes (Elt F) VSM.junk (kernelRun0_B c i arg3 harg3 arg4 harg4 arg5 harg5 arg6 harg6 arg7 harg7 arg8 harg8 arg9 harg9 arg10 harg10 arg11 harg11 hc0 hc1 x0 x1 x2 x3 xsM xsL xsA xsQ).1)
/-- Those pieces tile the buffer, so they cover it. -/
theorem cov_sM_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) (y : S1024x1.Idx) :
    ∃ pc ∈ (kernelRun0_B c i arg3 harg3 arg4 harg4 arg5 harg5 arg6 harg6 arg7 harg7 arg8 harg8 arg9 harg9 arg10 harg10 arg11 harg11 hc0 hc1 x0 x1 x2 x3 xsM xsL xsA xsQ).1, y ∈ pc.1.set :=
  View.cover_of_tiledL ((kernelRun0_B c i arg3 harg3 arg4 harg4 arg5 harg5 arg6 harg6 arg7 harg7 arg8 harg8 arg9 harg9 arg10 harg10 arg11 harg11 hc0 hc1 x0 x1 x2 x3 xsM xsL xsA xsQ).1) S1024x1.size (by sl_kernel_rfl) y

/-- What the case leaves in that buffer: its pieces read back. -/
def sL_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) : Vec F S1024x1 .f32 :=
  VSL.read (Elt F) (VSL.writes (Elt F) VSL.junk (kernelRun0_B c i arg3 harg3 arg4 harg4 arg5 harg5 arg6 harg6 arg7 harg7 arg8 harg8 arg9 harg9 arg10 harg10 arg11 harg11 hc0 hc1 x0 x1 x2 x3 xsM xsL xsA xsQ).2.1)
/-- Those pieces tile the buffer, so they cover it. -/
theorem cov_sL_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) (y : S1024x1.Idx) :
    ∃ pc ∈ (kernelRun0_B c i arg3 harg3 arg4 harg4 arg5 harg5 arg6 harg6 arg7 harg7 arg8 harg8 arg9 harg9 arg10 harg10 arg11 harg11 hc0 hc1 x0 x1 x2 x3 xsM xsL xsA xsQ).2.1, y ∈ pc.1.set :=
  View.cover_of_tiledL ((kernelRun0_B c i arg3 harg3 arg4 harg4 arg5 harg5 arg6 harg6 arg7 harg7 arg8 harg8 arg9 harg9 arg10 harg10 arg11 harg11 hc0 hc1 x0 x1 x2 x3 xsM xsL xsA xsQ).2.1) S1024x1.size (by sl_kernel_rfl) y

/-- What the case leaves in that buffer: its pieces read back. -/
def sA_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) : Vec F S128x1024 .f32 :=
  VSA.read (Elt F) (VSA.writes (Elt F) VSA.junk (kernelRun0_B c i arg3 harg3 arg4 harg4 arg5 harg5 arg6 harg6 arg7 harg7 arg8 harg8 arg9 harg9 arg10 harg10 arg11 harg11 hc0 hc1 x0 x1 x2 x3 xsM xsL xsA xsQ).2.2.1)
/-- Those pieces tile the buffer, so they cover it. -/
theorem cov_sA_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) (y : S128x1024.Idx) :
    ∃ pc ∈ (kernelRun0_B c i arg3 harg3 arg4 harg4 arg5 harg5 arg6 harg6 arg7 harg7 arg8 harg8 arg9 harg9 arg10 harg10 arg11 harg11 hc0 hc1 x0 x1 x2 x3 xsM xsL xsA xsQ).2.2.1, y ∈ pc.1.set :=
  View.cover_of_tiledL ((kernelRun0_B c i arg3 harg3 arg4 harg4 arg5 harg5 arg6 harg6 arg7 harg7 arg8 harg8 arg9 harg9 arg10 harg10 arg11 harg11 hc0 hc1 x0 x1 x2 x3 xsM xsL xsA xsQ).2.2.1) S128x1024.size (by sl_kernel_rfl) y

/-- What the case leaves in that buffer: its pieces read back. -/
def o4_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) : Vec F S1x128x1024 .f32 :=
  VO4.read (Elt F) (VO4.writes (Elt F) VO4.junk (kernelRun0_C c i arg3 harg3 arg4 harg4 arg5 harg5 arg6 harg6 arg7 harg7 arg8 harg8 arg9 harg9 arg10 harg10 arg11 harg11 hc0 hc1 x0 x1 x2 x3 xsM xsL xsA xsQ).1)
/-- Those pieces tile the buffer, so they cover it. -/
theorem cov_o4_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) (y : S1x128x1024.Idx) :
    ∃ pc ∈ (kernelRun0_C c i arg3 harg3 arg4 harg4 arg5 harg5 arg6 harg6 arg7 harg7 arg8 harg8 arg9 harg9 arg10 harg10 arg11 harg11 hc0 hc1 x0 x1 x2 x3 xsM xsL xsA xsQ).1, y ∈ pc.1.set :=
  View.cover_of_tiledL ((kernelRun0_C c i arg3 harg3 arg4 harg4 arg5 harg5 arg6 harg6 arg7 harg7 arg8 harg8 arg9 harg9 arg10 harg10 arg11 harg11 hc0 hc1 x0 x1 x2 x3 xsM xsL xsA xsQ).1) S1x128x1024.size (by sl_kernel_rfl) y

/-- What the case leaves in that buffer: its pieces read back. -/
def sM_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) : Vec F S1024x1 .f32 :=
  VSM.read (Elt F) (VSM.writes (Elt F) VSM.junk (kernelRun0_C c i arg3 harg3 arg4 harg4 arg5 harg5 arg6 harg6 arg7 harg7 arg8 harg8 arg9 harg9 arg10 harg10 arg11 harg11 hc0 hc1 x0 x1 x2 x3 xsM xsL xsA xsQ).2.1)
/-- Those pieces tile the buffer, so they cover it. -/
theorem cov_sM_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) (y : S1024x1.Idx) :
    ∃ pc ∈ (kernelRun0_C c i arg3 harg3 arg4 harg4 arg5 harg5 arg6 harg6 arg7 harg7 arg8 harg8 arg9 harg9 arg10 harg10 arg11 harg11 hc0 hc1 x0 x1 x2 x3 xsM xsL xsA xsQ).2.1, y ∈ pc.1.set :=
  View.cover_of_tiledL ((kernelRun0_C c i arg3 harg3 arg4 harg4 arg5 harg5 arg6 harg6 arg7 harg7 arg8 harg8 arg9 harg9 arg10 harg10 arg11 harg11 hc0 hc1 x0 x1 x2 x3 xsM xsL xsA xsQ).2.1) S1024x1.size (by sl_kernel_rfl) y

/-- What the case leaves in that buffer: its pieces read back. -/
def sL_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) : Vec F S1024x1 .f32 :=
  VSL.read (Elt F) (VSL.writes (Elt F) VSL.junk (kernelRun0_C c i arg3 harg3 arg4 harg4 arg5 harg5 arg6 harg6 arg7 harg7 arg8 harg8 arg9 harg9 arg10 harg10 arg11 harg11 hc0 hc1 x0 x1 x2 x3 xsM xsL xsA xsQ).2.2.1)
/-- Those pieces tile the buffer, so they cover it. -/
theorem cov_sL_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) (y : S1024x1.Idx) :
    ∃ pc ∈ (kernelRun0_C c i arg3 harg3 arg4 harg4 arg5 harg5 arg6 harg6 arg7 harg7 arg8 harg8 arg9 harg9 arg10 harg10 arg11 harg11 hc0 hc1 x0 x1 x2 x3 xsM xsL xsA xsQ).2.2.1, y ∈ pc.1.set :=
  View.cover_of_tiledL ((kernelRun0_C c i arg3 harg3 arg4 harg4 arg5 harg5 arg6 harg6 arg7 harg7 arg8 harg8 arg9 harg9 arg10 harg10 arg11 harg11 hc0 hc1 x0 x1 x2 x3 xsM xsL xsA xsQ).2.2.1) S1024x1.size (by sl_kernel_rfl) y

/-- What the case leaves in that buffer: its pieces read back. -/
def sA_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) : Vec F S128x1024 .f32 :=
  VSA.read (Elt F) (VSA.writes (Elt F) VSA.junk (kernelRun0_C c i arg3 harg3 arg4 harg4 arg5 harg5 arg6 harg6 arg7 harg7 arg8 harg8 arg9 harg9 arg10 harg10 arg11 harg11 hc0 hc1 x0 x1 x2 x3 xsM xsL xsA xsQ).2.2.2.1)
/-- Those pieces tile the buffer, so they cover it. -/
theorem cov_sA_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) (y : S128x1024.Idx) :
    ∃ pc ∈ (kernelRun0_C c i arg3 harg3 arg4 harg4 arg5 harg5 arg6 harg6 arg7 harg7 arg8 harg8 arg9 harg9 arg10 harg10 arg11 harg11 hc0 hc1 x0 x1 x2 x3 xsM xsL xsA xsQ).2.2.2.1, y ∈ pc.1.set :=
  View.cover_of_tiledL ((kernelRun0_C c i arg3 harg3 arg4 harg4 arg5 harg5 arg6 harg6 arg7 harg7 arg8 harg8 arg9 harg9 arg10 harg10 arg11 harg11 hc0 hc1 x0 x1 x2 x3 xsM xsL xsA xsQ).2.2.2.1) S128x1024.size (by sl_kernel_rfl) y

/-! ## What the buffers hold after each point -/

/-- The output tile, the running maximum, the running sum, the accumulator, the query operand. -/
abbrev St (F : FTy → Type) [FloatOps F] : Type :=
  Vec F S1x128x1024 .f32 × Vec F S1024x1 .f32 × Vec F S1024x1 .f32 × Vec F S128x1024 .f32 × Vec F S256x1024 .bf16

/-- An output tile nothing has stored into: a placeholder nothing consults. -/
def o4none : Vec F S1x128x1024 .f32 := VO4.read (Elt F) VO4.junk

/-- The first key tile of a row at point t. -/
def stA (c : Dev nD) (t : Fin cfg0.N) (h0 : cond0_0 (grid0.coords t)) (h1 : ¬cond0_1 (grid0.coords t)) : St F :=
  (o4none, sM_A c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t), sL_A c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t),
    sA_A c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t), sQ_A c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t))
/-- A middle key tile at point t, over what the point before left. -/
def stB (c : Dev nD) (t : Fin cfg0.N) (h0 : ¬cond0_0 (grid0.coords t)) (h1 : ¬cond0_1 (grid0.coords t)) (p : St F) : St F :=
  (o4none, sM_B c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, sL_B c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2,
    sA_B c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, p.2.2.2.2)
/-- The last key tile of a row at point t, over what the point before left. -/
def stC (c : Dev nD) (t : Fin cfg0.N) (h0 : ¬cond0_0 (grid0.coords t)) (h1 : cond0_1 (grid0.coords t)) (p : St F) : St F :=
  (o4_C c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, sM_C c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2,
    sL_C c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, sA_C c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, p.2.2.2.2)

/-- THE ACCUMULATION: the buffers after the body at position n, by recursion on n — the case the closed forms select,
    a case that reads the scratch buffers taking what the position before left. -/
def outsAt0 (c : Dev nD) : (n : ℕ) → n < cfg0.N → St F
  | 0, hn => stA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then False.elim (by omega)
      else stA m c ⟨n + 1, hn⟩ ((hcond0_0 ⟨n + 1, hn⟩).mpr h0) (fun h => h1 ((hcond0_1 ⟨n + 1, hn⟩).mp h))
    else
      if h1 : (n + 1) % 8 = 7 then
        stC m c ⟨n + 1, hn⟩ (fun h => h0 ((hcond0_0 ⟨n + 1, hn⟩).mp h)) ((hcond0_1 ⟨n + 1, hn⟩).mpr h1) (outsAt0 c n (Nat.lt_of_succ_lt hn))
      else
        stB m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 8 = 0) (h1 : ¬t.val % 8 = 7) :
    outsAt0 m c t.val t.isLt = stA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stB m c t (fun h => h0 ((hcond0_0 t).mp h)) (fun h => h1 ((hcond0_1 t).mp h))
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stC m c t (fun h => h0 ((hcond0_0 t).mp h)) ((hcond0_1 t).mpr h1)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant: the four scratch buffers at what the point before left -/

/-- The scratch buffers at a state's contents, and the generator register at some state. -/
def scratchAt (c : Dev nD) (p : St F) : sProp 𝕄 :=
  iprop(iprop(owns (c : Thread nD τ) scM fullShare p.2.1 ∗ owns (c : Thread nD τ) scL fullShare p.2.2.1
      ∗ owns (c : Thread nD τ) scA fullShare p.2.2.2.1 ∗ owns (c : Thread nD τ) scQ fullShare p.2.2.2.2) ∗ (∃ r, prngReg c r))

def PhiS (c : Dev nD) : (n : ℕ) → n ≤ cfg0.N → sProp 𝕄
  | 0, _ => Pipeline.ΦA spec0 c
  | n + 1, hn => scratchAt c (outsAt0 m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = scratchAt c (outsAt0 m c n hn) := rfl
theorem PhiS_pos (c : Dev nD) (n : ℕ) (h : n ≤ cfg0.N) (hz : n ≠ 0) :
    PhiS m c n h = scratchAt c (outsAt0 m c (n - 1) (by omega)) := by
  cases n with
  | zero => exact absurd rfl hz
  | succ n => rfl

/-! ## The proof data -/

/-- The share each window holds of its array: the two windows on P split P's buffer in halves, the two on Q likewise. -/
def qShare : Fin 5 → PosShare TreeShare := fun | 0 => fullShare.left | 1 => fullShare.left | 2 => fullShare.right | 3 => fullShare.right | _ => fullShare

/-- The proof data of the pipeline on core c: the arrays as the region finds them; after the body each input's buffer at
    its block and the output's at the accumulation's first component; the invariant above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.Kernel.Hand

end
-- ==== Proof.WBody.lean ====
/-
  The attention kernel's launch, part three: the body obligation.  At every grid point, from the invariant (the four
  scratch buffers at what the point before left, or at anything before the first point) and the windows' current
  staging buffers (each input at its block, the output tile at whatever it holds), the body runs to the invariant at
  the next point and the buffers at what the proof data say: by cases on the point's position in its row of key tiles.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import proofs.«143733_j15865609191815_2_alg».proof.Proof.WData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 = 7
    · exfalso; omega
    · -- the first key tile of a row
      rw [show (dats m 0 c).leavesExact 0 t = owns (c : Thread nD τ) (ms0 t) fullShare ((dats m 0 c).after 0 t) from by
        unfold Dat.leavesExact; rw [liveAt0_0 t], after0_0]
      rw [show (dats m 0 c).leavesExact 1 t = owns (c : Thread nD τ) (ms1 t) fullShare ((dats m 0 c).after 1 t) from by
        unfold Dat.leavesExact; rw [liveAt0_1 t], after0_1]
      rw [show (dats m 0 c).leavesExact 2 t = owns (c : Thread nD τ) (ms2 t) fullShare ((dats m 0 c).after 2 t) from by
        unfold Dat.leavesExact; rw [liveAt0_2 t], after0_2]
      rw [show (dats m 0 c).leavesExact 3 t = owns (c : Thread nD τ) (ms3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold scratchAt stA sM_A sL_A sA_A sQ_A; (try dsimp only)
      by_cases hz : t.val = 0
      ·
        rw [PhiS_castSucc m c t, PhiS_zero m c _ _ hz, PhiA0_eq]
        iintro ⟨⟨⟨HM, HL, HA, HQ⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HM]; · iexact HM
        isplitl [HL]; · iexact HL
        isplitl [HA]; · iexact HA
        isplitl [HQ]; · iexact HQ
        iintro ⟨H0, H1, H2, H3, H4, ⟨%eM, HM⟩, ⟨%eL, HL⟩, ⟨%eA, HA⟩, ⟨%eQ, HQ⟩⟩
        isplitl [HM HL HA HQ Hg]
        · isplitl [HM HL HA HQ]
          · isplitl [HM]
            · unfold owns; iexists _; isplitr
              swap; · iexact HM
              ipureintro; exact View.read_writes_of_cover _ _ _ _ _ (cov_sM_A c _ _ _ _ _ _ _ _ _ _ _ _ _ _ _ _ _ _ _ _ _ _ _ _ _)
            isplitl [HL]
            · unfold owns; iexists _; isplitr
              swap; · iexact HL
              ipureintro; exact View.read_writes_of_cover _ _ _ _ _ (cov_sL_A c _ _ _ _ _ _ _ _ _ _ _ _ _ _ _ _ _ _ _ _ _ _ _ _ _)
            isplitl [HA]
            · unfold owns; iexists _; isplitr
              swap; · iexact HA
              ipureintro; exact View.read_writes_of_cover _ _ _ _ _ (cov_sA_A c _ _ _ _ _ _ _ _ _ _ _ _ _ _ _ _ _ _ _ _ _ _ _ _ _)
            · unfold owns; iexists _; isplitr
              swap; · iexact HQ
              ipureintro; exact View.read_writes_of_cover _ _ _ _ _ (cov_sQ_A c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS_castSucc m c t, PhiS_pos m c _ _ hz]; unfold scratchAt
        iintro ⟨⟨⟨HM, HL, HA, HQ⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HM]; · iexists _; iexact HM
        isplitl [HL]; · iexists _; iexact HL
        isplitl [HA]; · iexists _; iexact HA
        isplitl [HQ]; · iexists _; iexact HQ
        iintro ⟨H0, H1, H2, H3, H4, ⟨%eM, HM⟩, ⟨%eL, HL⟩, ⟨%eA, HA⟩, ⟨%eQ, HQ⟩⟩
        isplitl [HM HL HA HQ Hg]
        · isplitl [HM HL HA HQ]
          · isplitl [HM]
            · unfold owns; iexists _; isplitr
              swap; · iexact HM
              ipureintro; exact View.read_writes_of_cover _ _ _ _ _ (cov_sM_A c _ _ _ _ _ _ _ _ _ _ _ _ _ _ _ _ _ _ _ _ _ _ _ _ _)
            isplitl [HL]
            · unfold owns; iexists _; isplitr
              swap; · iexact HL
              ipureintro; exact View.read_writes_of_cover _ _ _ _ _ (cov_sL_A c _ _ _ _ _ _ _ _ _ _ _ _ _ _ _ _ _ _ _ _ _ _ _ _ _)
            isplitl [HA]
            · unfold owns; iexists _; isplitr
              swap; · iexact HA
              ipureintro; exact View.read_writes_of_cover _ _ _ _ _ (cov_sA_A c _ _ _ _ _ _ _ _ _ _ _ _ _ _ _ _ _ _ _ _ _ _ _ _ _)
            · unfold owns; iexists _; isplitr
              swap; · iexact HQ
              ipureintro; exact View.read_writes_of_cover _ _ _ _ _ (cov_sQ_A c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · -- the last key tile of a row
      rw [show (dats m 0 c).leavesExact 0 t = owns (c : Thread nD τ) (ms0 t) fullShare ((dats m 0 c).after 0 t) from by
        unfold Dat.leavesExact; rw [liveAt0_0 t], after0_0]
      rw [show (dats m 0 c).leavesExact 1 t = owns (c : Thread nD τ) (ms1 t) fullShare ((dats m 0 c).after 1 t) from by
        unfold Dat.leavesExact; rw [liveAt0_1 t], after0_1]
      rw [show (dats m 0 c).leavesExact 2 t = owns (c : Thread nD τ) (ms2 t) fullShare ((dats m 0 c).after 2 t) from by
        unfold Dat.leavesExact; rw [liveAt0_2 t], after0_2]
      rw [show (dats m 0 c).leavesExact 3 t = owns (c : Thread nD τ) (ms3 t) fullShare ((dats m 0 c).after 3 t) from by
        unfold Dat.leavesExact; rw [liveAt0_3 t], after0_3]
      rw [show (dats m 0 c).leavesExact 4 t = owns (c : Thread nD τ) (ms4 t) fullShare ((dats m 0 c).after 4 t) from by
        unfold Dat.leavesExact; rw [liveAt0_4 t ((hcond0_1 t).mpr h1)], after0_4]
      rw [outsAt0_C m c t h0 h1]
      unfold scratchAt stC o4_C sM_C sL_C sA_C; (try dsimp only)
      have hz : t.val ≠ 0 := by omega
      rw [PhiS_castSucc m c t, PhiS_pos m c _ _ hz]; unfold scratchAt
      iintro ⟨⟨⟨HM, HL, HA, HQ⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HM]; · iexact HM
      isplitl [HL]; · iexact HL
      isplitl [HA]; · iexact HA
      isplitl [HQ]; · iexact HQ
      iintro ⟨H0, H1, H2, H3, ⟨%e4, H4⟩, ⟨%eM, HM⟩, ⟨%eL, HL⟩, ⟨%eA, HA⟩, HQ⟩
      isplitl [HM HL HA HQ Hg]
      · isplitl [HM HL HA HQ]
        · isplitl [HM]
          · unfold owns; iexists _; isplitr
            swap; · iexact HM
            ipureintro; exact View.read_writes_of_cover _ _ _ _ _ (cov_sM_C c _ _ _ _ _ _ _ _ _ _ _ _ _ _ _ _ _ _ _ _ _ _ _ _ _ _ _ _ _)
          isplitl [HL]
          · unfold owns; iexists _; isplitr
            swap; · iexact HL
            ipureintro; exact View.read_writes_of_cover _ _ _ _ _ (cov_sL_C c _ _ _ _ _ _ _ _ _ _ _ _ _ _ _ _ _ _ _ _ _ _ _ _ _ _ _ _ _)
          isplitl [HA]
          · unfold owns; iexists _; isplitr
            swap; · iexact HA
            ipureintro; exact View.read_writes_of_cover _ _ _ _ _ (cov_sA_C c _ _ _ _ _ _ _ _ _ _ _ _ _ _ _ _ _ _ _ _ _ _ _ _ _ _ _ _ _)
          iexact HQ
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cov_o4_C c _ _ _ _ _ _ _ _ _ _ _ _ _ _ _ _ _ _ _ _ _ _ _ _ _ _ _ _ _)
    · -- a middle key tile
      rw [show (dats m 0 c).leavesExact 0 t = owns (c : Thread nD τ) (ms0 t) fullShare ((dats m 0 c).after 0 t) from by
        unfold Dat.leavesExact; rw [liveAt0_0 t], after0_0]
      rw [show (dats m 0 c).leavesExact 1 t = owns (c : Thread nD τ) (ms1 t) fullShare ((dats m 0 c).after 1 t) from by
        unfold Dat.leavesExact; rw [liveAt0_1 t], after0_1]
      rw [show (dats m 0 c).leavesExact 2 t = owns (c : Thread nD τ) (ms2 t) fullShare ((dats m 0 c).after 2 t) from by
        unfold Dat.leavesExact; rw [liveAt0_2 t], after0_2]
      rw [show (dats m 0 c).leavesExact 3 t = owns (c : Thread nD τ) (ms3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold scratchAt stB sM_B sL_B sA_B; (try dsimp only)
      have hz : t.val ≠ 0 := by omega
      rw [PhiS_castSucc m c t, PhiS_pos m c _ _ hz]; unfold scratchAt
      iintro ⟨⟨⟨HM, HL, HA, HQ⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2 _ Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      isplitl [HQ]; · iexact HQ
      iintro ⟨H0, H1, H2, H3, H4, ⟨%eM, HM⟩, ⟨%eL, HL⟩, ⟨%eA, HA⟩, HQ⟩
      isplitl [HM HL HA HQ Hg]
      · isplitl [HM HL HA HQ]
        · isplitl [HM]
          · unfold owns; iexists _; isplitr
            swap; · iexact HM
            ipureintro; exact View.read_writes_of_cover _ _ _ _ _ (cov_sM_B c _ _ _ _ _ _ _ _ _ _ _ _ _ _ _ _ _ _ _ _ _ _ _ _ _ _ _ _ _)
          isplitl [HL]
          · unfold owns; iexists _; isplitr
            swap; · iexact HL
            ipureintro; exact View.read_writes_of_cover _ _ _ _ _ (cov_sL_B c _ _ _ _ _ _ _ _ _ _ _ _ _ _ _ _ _ _ _ _ _ _ _ _ _ _ _ _ _)
          isplitl [HA]
          · unfold owns; iexists _; isplitr
            swap; · iexact HA
            ipureintro; exact View.read_writes_of_cover _ _ _ _ _ (cov_sA_B c _ _ _ _ _ _ _ _ _ _ _ _ _ _ _ _ _ _ _ _ _ _ _ _ _ _ _ _ _)
          iexact HQ
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold scratchAt
  iintro ⟨⟨HM, HL, HA, HQ⟩, Hg⟩
  isplitr [Hg]
  · isplitl [HM]; · iexists _; iexact HM
    isplitl [HL]; · iexists _; iexact HL
    isplitl [HA]; · iexists _; iexact HA
    iexists _; iexact HQ
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.WShare.lean ====
/-
  Two windows on one array.  The key-tile windows and the query-tile windows read the same two arrays P and Q, so the
  pipeline holds P's buffer in two halves (one per window) and Q's likewise, and the output array whole.  Here: the
  five per-window holdings, at contents that are one valuation read at each window's array, are exactly the three
  distinct buffers held whole at that valuation — in both directions.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import proofs.«143733_j15865609191815_2_alg».proof.Proof.WData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays behind the windows, without repetition. -/
theorem arrRefs_eq : Finset.univ.image (Pipeline.arrRef spec0) = [main_v0, main_v1, main_v2].toFinset := by decide

/-- The pipeline's holdings, window by window, are the three buffers whole. -/
theorem arrays_iff (c : Dev nD) (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    ((dats m 0 c).arrays G : sProp 𝕄) ⊣⊢ Pipeline.arrBufs spec0 c W := by
  have hG' : G = fun w => W (Pipeline.arrRef spec0 w) := funext hG
  subst hG'
  have e1 : ((dats m 0 c).arrays (fun w => W (Pipeline.arrRef spec0 w)) : sProp 𝕄)
      = iprop((((c.tc : Thread nD τ).loc main_v0) ↦{fullShare.left} W main_v0) ∗ (((c.tc : Thread nD τ).loc main_v1) ↦{fullShare.left} W main_v1)
          ∗ (((c.tc : Thread nD τ).loc main_v0) ↦{fullShare.right} W main_v0) ∗ (((c.tc : Thread nD τ).loc main_v1) ↦{fullShare.right} W main_v1)
          ∗ (((c.tc : Thread nD τ).loc main_v2) ↦{fullShare} W main_v2)) := by
    unfold Dat.arrays
    rw [bigSep_W0]
    simp only [(arr_whole0 0).set_eq_univ, (arr_whole0 1).set_eq_univ, (arr_whole0 2).set_eq_univ, (arr_whole0 3).set_eq_univ, (arr_whole0 4).set_eq_univ]
    rfl
  have e2 : (Pipeline.arrBufs spec0 c W : sProp 𝕄)
      = iprop((((c.tc : Thread nD τ).loc main_v0) ↦{fullShare} W main_v0) ∗ (((c.tc : Thread nD τ).loc main_v1) ↦{fullShare} W main_v1)
          ∗ (((c.tc : Thread nD τ).loc main_v2) ↦{fullShare} W main_v2)) := by
    unfold Pipeline.arrBufs
    rw [bigSep_eq_bigSepL_of_eq [main_v0, main_v1, main_v2] arrRefs_eq (by decide)]
    rfl
  rw [e1, e2]
  constructor
  · iintro ⟨H0, H1, H2, H3, H4⟩
    isplitl [H0 H2]
    · iapply (pointsTo_share (PosShare.mem_left_op_right fullShare)).2
      isplitl [H0] <;> iassumption
    isplitl [H1 H3]
    · iapply (pointsTo_share (PosShare.mem_left_op_right fullShare)).2
      isplitl [H1] <;> iassumption
    iexact H4
  · iintro ⟨HP, HQ, HO⟩
    ihave HP := (pointsTo_share (PosShare.mem_left_op_right fullShare)).1 $$ HP
    ihave HQ := (pointsTo_share (PosShare.mem_left_op_right fullShare)).1 $$ HQ
    icases HP with ⟨HP1, HP2⟩
    icases HQ with ⟨HQ1, HQ2⟩
    isplitl [HP1]; · iexact HP1
    isplitl [HQ1]; · iexact HQ1
    isplitl [HP2]; · iexact HP2
    isplitl [HQ2]; · iexact HQ2
    iexact HO

end Cert.Kernel.Hand

end
-- ==== Proof.LibStraightLine.lean ====
/-
  Reading a straight line of host operations one operation at a time.

  A host program printed as a list of operations is in single-assignment form: every operation writes exactly one buffer,
  and no two write the same one.  Then the fold of the whole list, read at the buffer operation `k` writes, is that
  operation's function applied to the fold of the WHOLE list read at its operands — nothing after position `k` writes
  the result, and nothing from position `k` on writes an operand.  All side conditions are memberships in lists of
  references, which are decidable; the operations themselves are never inspected beyond their `writes`.

  Use: list the references the line's operations write, in order (`outs`); prove `WritesAre ops outs` once (each entry
  holds by `rfl`: `unfold WritesAre; repeat' constructor`); then for the operation at position `k` apply the lemma of its
  kind at `ops.take k` and `ops.drop (k + 1)`, with `(writesAre.drop k)` and the memberships by `decide`.
-/
import Idealize.ShloMosaic.Lib.StableHlo.Run

noncomputable section

namespace Idealize.ShloMosaic.StableHlo.StraightLine

open Idealize.ShloMosaic Idealize.ShloMosaic.StableHlo

variable {τ : Topo} {sig : RefSig} {Val : EltTy → Type}

/-- A line of operations run in two stretches. -/
theorem after_append (a b : List (HloOp τ sig Val)) (V : Valuation τ sig Val) :
    after (a ++ b) V = after b (after a V) := by
  induction a generalizing V with
  | nil => rfl
  | cons op a ih => exact ih _

/-- Operation by operation, `ops` writes exactly the buffers of the references `outs`. -/
def WritesAre (ops : List (HloOp τ sig Val)) (outs : List (Ref sig .tc)) : Prop :=
  List.Forall₂ (fun op r => op.writes = {Proc.devRef (τ := τ) .tc r}) ops outs

/-- A reference that is none of `outs` is written by no operation of the line. -/
theorem not_written {ops : List (HloOp τ sig Val)} {outs : List (Ref sig .tc)} (h : WritesAre ops outs)
    {b : Ref sig .tc} (hb : b ∉ outs) : ∀ op ∈ ops, Proc.devRef (τ := τ) .tc b ∉ op.writes := by
  induction h with
  | nil => intro op ho; cases ho
  | @cons op r ops outs hw _ ih =>
    intro o ho
    rcases List.mem_cons.mp ho with rfl | ho
    · rw [hw, Finset.mem_singleton]
      exact devRef_ne_of_ne fun e => hb (e ▸ List.mem_cons_self)
    · exact ih (fun hm => hb (List.mem_cons_of_mem _ hm)) o ho

/-- So the line leaves it as it was. -/
theorem after_kept {ops : List (HloOp τ sig Val)} {outs : List (Ref sig .tc)} (h : WritesAre ops outs)
    {b : Ref sig .tc} (hb : b ∉ outs) (V : Valuation τ sig Val) :
    after ops V (Proc.devRef .tc b) = V (Proc.devRef .tc b) :=
  after_of_forall_not_mem ops V (not_written h hb)

/-- The stretch after a position writes the references listed after it. -/
theorem WritesAre.drop {ops : List (HloOp τ sig Val)} {outs : List (Ref sig .tc)} (h : WritesAre ops outs) (k : Nat) :
    WritesAre (ops.drop k) (outs.drop k) := List.forall₂_drop k h

/-- THE READING LEMMA.  With the line cut at one operation, `ops = pre ++ op :: post`: a buffer `b` that `post` does not
    write holds after the whole line what `op` leaves in it after `pre`. -/
theorem after_cut (pre post : List (HloOp τ sig Val)) (op : HloOp τ sig Val) (V : Valuation τ sig Val) (b : DevRef τ sig)
    (hpost : ∀ o ∈ post, b ∉ o.writes) :
    after (pre ++ op :: post) V b = op.result (after pre V) b := by
  rw [after_append, after_cons, after_of_forall_not_mem post _ hpost]

/-- An operand of the operation at the cut — a reference neither the operation nor anything after it writes — holds
    after the whole line what it held after `pre`. -/
theorem after_cut_operand (pre post : List (HloOp τ sig Val)) (op : HloOp τ sig Val) (V : Valuation τ sig Val)
    {outs : List (Ref sig .tc)} (h : WritesAre (op :: post) outs) {x : Ref sig .tc} (hx : x ∉ outs) :
    after (pre ++ op :: post) V (Proc.devRef .tc x) = after pre V (Proc.devRef .tc x) := by
  rw [after_append]
  exact after_kept h hx _

/-- A one-operand operation at the cut: its result buffer holds its function of what the WHOLE line leaves in its
    operand. `outs` lists what the operation and everything after it write; the result is its head. -/
theorem unary_at (pre post : List (HloOp τ sig Val)) (x y : Ref sig .tc) (f : x.ty.Contents Val → y.ty.Contents Val) (hx hy)
    (V : Valuation τ sig Val) {outs : List (Ref sig .tc)} (h : WritesAre (unary (τ := τ) x y f hx hy :: post) (y :: outs))
    (hyo : y ∉ outs) (hxo : x ∉ y :: outs) :
    after (pre ++ unary x y f hx hy :: post) V (Proc.devRef .tc y)
      = f (after (pre ++ unary x y f hx hy :: post) V (Proc.devRef .tc x)) := by
  have hpost : WritesAre post outs := by cases h with | cons _ h' => exact h'
  rw [after_cut pre post _ V _ (not_written hpost hyo), unary_result, after_cut_operand pre post _ V h hxo]

/-- A two-operand operation at the cut. -/
theorem binary_at (pre post : List (HloOp τ sig Val)) (a b y : Ref sig .tc)
    (f : a.ty.Contents Val → b.ty.Contents Val → y.ty.Contents Val) (ha hb hy)
    (V : Valuation τ sig Val) {outs : List (Ref sig .tc)} (h : WritesAre (binary (τ := τ) a b y f ha hb hy :: post) (y :: outs))
    (hyo : y ∉ outs) (hao : a ∉ y :: outs) (hbo : b ∉ y :: outs) :
    after (pre ++ binary a b y f ha hb hy :: post) V (Proc.devRef .tc y)
      = f (after (pre ++ binary a b y f ha hb hy :: post) V (Proc.devRef .tc a))
          (after (pre ++ binary a b y f ha hb hy :: post) V (Proc.devRef .tc b)) := by
  have hpost : WritesAre post outs := by cases h with | cons _ h' => exact h'
  rw [after_cut pre post _ V _ (not_written hpost hyo), binary_result, after_cut_operand pre post _ V h hao,
    after_cut_operand pre post _ V h hbo]

/-- An operation with no operand at the cut. -/
theorem nullary_at (pre post : List (HloOp τ sig Val)) (y : Ref sig .tc) (v : y.ty.Contents Val) (hy)
    (V : Valuation τ sig Val) {outs : List (Ref sig .tc)} (h : WritesAre (nullary (τ := τ) y v hy :: post) (y :: outs))
    (hyo : y ∉ outs) :
    after (pre ++ nullary y v hy :: post) V (Proc.devRef .tc y) = v := by
  have hpost : WritesAre post outs := by cases h with | cons _ h' => exact h'
  rw [after_cut pre post _ V _ (not_written hpost hyo), nullary_result]

/-- A three-operand operation at the cut (a `select`, a `clamp`). -/
theorem ternary_at (pre post : List (HloOp τ sig Val)) (c a b y : Ref sig .tc)
    (f : c.ty.Contents Val → a.ty.Contents Val → b.ty.Contents Val → y.ty.Contents Val) (hc ha hb hy)
    (V : Valuation τ sig Val) {outs : List (Ref sig .tc)} (h : WritesAre (ternary (τ := τ) c a b y f hc ha hb hy :: post) (y :: outs))
    (hyo : y ∉ outs) (hco : c ∉ y :: outs) (hao : a ∉ y :: outs) (hbo : b ∉ y :: outs) :
    after (pre ++ ternary c a b y f hc ha hb hy :: post) V (Proc.devRef .tc y)
      = f (after (pre ++ ternary c a b y f hc ha hb hy :: post) V (Proc.devRef .tc c))
          (after (pre ++ ternary c a b y f hc ha hb hy :: post) V (Proc.devRef .tc a))
          (after (pre ++ ternary c a b y f hc ha hb hy :: post) V (Proc.devRef .tc b)) := by
  have hpost : WritesAre post outs := by cases h with | cons _ h' => exact h'
  rw [after_cut pre post _ V _ (not_written hpost hyo), ternary_result, after_cut_operand pre post _ V h hco,
    after_cut_operand pre post _ V h hao, after_cut_operand pre post _ V h hbo]

/-- A reshape at the cut: the operand's elements in row-major order at the result's shape. -/
theorem reshape_at (pre post : List (HloOp τ sig Val)) (x y : Ref sig .tc) (he : x.ty.elt = y.ty.elt)
    (hn : x.ty.shape.ShapeCasts y.ty.shape) (hx hy)
    (V : Valuation τ sig Val) {outs : List (Ref sig .tc)} (h : WritesAre (reshape (τ := τ) (Val := Val) x y he hn hx hy :: post) (y :: outs))
    (hyo : y ∉ outs) (hxo : x ∉ y :: outs) :
    after (pre ++ reshape x y he hn hx hy :: post) V (Proc.devRef .tc y)
      = fun i => he ▸ shapeCast y.ty.shape (after (pre ++ reshape x y he hn hx hy :: post) V (Proc.devRef .tc x)) hn i := by
  have hpost : WritesAre post outs := by cases h with | cons _ h' => exact h'
  rw [after_cut pre post _ V _ (not_written hpost hyo), reshape_result, after_cut_operand pre post _ V h hxo]

/-- An operation of any number of operands at the cut (a concatenation): its function of what the WHOLE line leaves in
    each operand. -/
theorem nary_at {n : Nat} (pre post : List (HloOp τ sig Val)) (xs : Fin n → Ref sig .tc) (y : Ref sig .tc)
    (f : ((k : Fin n) → (xs k).ty.Contents Val) → y.ty.Contents Val) (hxs hy)
    (V : Valuation τ sig Val) {outs : List (Ref sig .tc)} (h : WritesAre (nary (τ := τ) xs y f hxs hy :: post) (y :: outs))
    (hyo : y ∉ outs) (hxo : ∀ k, xs k ∉ y :: outs) :
    after (pre ++ nary xs y f hxs hy :: post) V (Proc.devRef .tc y)
      = f (fun k => after (pre ++ nary xs y f hxs hy :: post) V (Proc.devRef .tc (xs k))) := by
  have hpost : WritesAre post outs := by cases h with | cons _ h' => exact h'
  rw [after_cut pre post _ V _ (not_written hpost hyo), nary_result]
  congr 1
  funext k
  exact (after_cut_operand pre post _ V h (hxo k)).symm

/-- The line cut at a position: a reference written by none of the operations from position `k` on holds after the whole
    line what it holds after the first `k`. -/
theorem after_take {ops : List (HloOp τ sig Val)} {outs : List (Ref sig .tc)} (h : WritesAre ops outs) (k : Nat)
    {b : Ref sig .tc} (hb : b ∉ outs.drop k) (V : Valuation τ sig Val) :
    after ops V (Proc.devRef .tc b) = after (ops.take k) V (Proc.devRef .tc b) := by
  have e : after ops V = after (ops.drop k) (after (ops.take k) V) := by
    rw [← after_append, List.take_append_drop]
  rw [e]
  exact after_kept (h.drop k) hb _

/-- An argument of the program — a reference no operation writes — holds after the whole line what it held before. -/
theorem argument_kept {ops : List (HloOp τ sig Val)} {outs : List (Ref sig .tc)} (h : WritesAre ops outs)
    {b : Ref sig .tc} (hb : b ∉ outs) (V : Valuation τ sig Val) :
    after ops V (Proc.devRef .tc b) = V (Proc.devRef .tc b) := after_kept h hb V

end Idealize.ShloMosaic.StableHlo.StraightLine

end
-- ==== Proof.WTail.lean ====
/-
  The attention kernel's launch, part four: the run of @main.  The two reshapes, the region — 128 grid points, each
  the body obligation — and the batch-norm tail, which runs holding every unscoped buffer: the three arrays of the
  pipeline put back together from the windows' holdings, and everything that bypassed the region.  The final memory has
  the pipeline's output array at what the write-backs left and every other unscoped buffer at what the tail computes
  from that.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import proofs.«143733_j15865609191815_2_alg».proof.Proof.WBody
import proofs.«143733_j15865609191815_2_alg».proof.Proof.WShare
import proofs.«143733_j15865609191815_2_alg».proof.Proof.LibStraightLine
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (unscopedRest unscopedRestP arrBufs ucRefs restRefsP Prefetch)

/-- The buffers' contents when the region is left: the output array at what the write-backs made of it, everything
    else as the region found it. -/
def Wexit (c : Dev nD) : Valuation τ sig (Elt F) :=
  Function.update (V0 m c) (Proc.devRef .tc main_v2) ((dats m 0 c).arrAt 4 cfg0.N)

/-- The buffers' contents after the tail. -/
def Wfin (c : Dev nD) (b : Ref sig .tc) : Buf (Elt F) ((c.tc : Thread nD τ).loc b) :=
  StableHlo.after (tailOps (F := F)).flatten (Wexit m c) (Proc.devRef .tc b)

/-- At the region's exit each window's array holds what the exit contents say. -/
theorem arrAt_exit (c : Dev nD) (w : Fin cfg0.W) :
    (dats m 0 c).arrAt w cfg0.N = Wexit m c (Proc.devRef .tc (Pipeline.arrRef spec0 w)) := by
  unfold Wexit
  match w with
  | ⟨0, h⟩ =>
    have hne : Proc.devRef (τ := τ) (sig := sig) .tc main_v0 ≠ Proc.devRef .tc main_v2 := by decide
    exact ((dats m 0 c).arrAt_in ⟨0, h⟩ rfl _).trans ((A_eq m c _).trans (Function.update_of_ne hne _ _).symm)
  | ⟨1, h⟩ =>
    have hne : Proc.devRef (τ := τ) (sig := sig) .tc main_v1 ≠ Proc.devRef .tc main_v2 := by decide
    exact ((dats m 0 c).arrAt_in ⟨1, h⟩ rfl _).trans ((A_eq m c _).trans (Function.update_of_ne hne _ _).symm)
  | ⟨2, h⟩ =>
    have hne : Proc.devRef (τ := τ) (sig := sig) .tc main_v0 ≠ Proc.devRef .tc main_v2 := by decide
    exact ((dats m 0 c).arrAt_in ⟨2, h⟩ rfl _).trans ((A_eq m c _).trans (Function.update_of_ne hne _ _).symm)
  | ⟨3, h⟩ =>
    have hne : Proc.devRef (τ := τ) (sig := sig) .tc main_v1 ≠ Proc.devRef .tc main_v2 := by decide
    exact ((dats m 0 c).arrAt_in ⟨3, h⟩ rfl _).trans ((A_eq m c _).trans (Function.update_of_ne hne _ _).symm)
  | ⟨4, h⟩ => exact (Function.update_self (Proc.devRef .tc main_v2) ((dats m 0 c).arrAt ⟨4, h⟩ cfg0.N) (V0 m c)).symm

theorem tailOps_sub : ∀ ops ∈ (tailOps : List (List (HloOp τ sig (Elt F)))), ∀ op ∈ ops, op.bufs ⊆ ucRefs τ sig := by
  intro ops hops op hop
  simp only [tailOps, List.mem_cons, List.mem_nil_iff, _root_.or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tailOps_fresh : ∀ ops ∈ (tailOps : List (List (HloOp τ sig (Elt F)))), ∀ op ∈ ops, op.fresh = ∅ := by
  intro ops hops op hop
  simp only [tailOps, List.mem_cons, List.mem_nil_iff, _root_.or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

open Idealize.ShloMosaic.StableHlo.StraightLine (WritesAre after_kept)

/-- The buffers the tail's operations write, in order: one each, all different. -/
def tailOuts : List (Ref sig .tc) :=
  [main_v3, main_v4, main_v5, main_v6, main_cst, main_v7, main_v8, main_cst_0, main_v9, main_v10, main_c,
   main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_v12, main_call0_cst_3, main_call0_v13, main_call0_cst_4, main_call0_call0_v0, main_call0_call0_v1, main_v11,
   main_v12, main_v13, main_cst_1, main_v14, main_v15, main_v16, main_v17, main_v18, main_v19, main_v20, main_v21, main_v22,
   main_v23, main_v24, main_call1_cst, main_call1_v0, main_v25, main_v26]

theorem tail_writes : WritesAre (τ := τ) ((tailOps (F := F)).flatten) tailOuts := by
  unfold WritesAre tailOuts tailOps
  simp only [List.flatten_cons, List.flatten_nil, List.cons_append, List.nil_append, List.append_nil, hostOps1, hostOps1_1, hostOps1_2, hostOps1_3, hostOps1_4]
  repeat' constructor

/-- The two reshapes write the two stacks. -/
theorem head_writes : WritesAre (τ := τ) (List.flatten [(hostOps0 : List (HloOp τ sig (Elt F)))]) [main_v0, main_v1] := by
  unfold WritesAre
  simp only [List.flatten_cons, List.flatten_nil, List.append_nil, hostOps0]
  repeat' constructor

end Cert.Kernel.Hand

end
-- ==== Proof.WLaunch.lean ====
/-
  The attention kernel's launch, part five: the tail run from the region's exit, and the run of all of @main.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import proofs.«143733_j15865609191815_2_alg».proof.Proof.WTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (unscopedRest unscopedRestP arrBufs ucRefs restRefsP Prefetch)
open Idealize.ShloMosaic.StableHlo.StraightLine (WritesAre after_kept)

/-- No operation of the tail writes an array of the pipeline: after the tail each holds what it held at the exit. -/
theorem arrAt_fin (c : Dev nD) (w : Fin cfg0.W) :
    (dats m 0 c).arrAt w cfg0.N = Wfin m c (Pipeline.arrRef spec0 w) := by
  rw [arrAt_exit]; unfold Wfin
  refine (after_kept tail_writes ?_ _).symm
  fin_cases w <;> decide

set_option maxHeartbeats 4000000 in
set_option backward.isDefEq.respectTransparency.types false in
/-- THE TAIL, from the region's exit: holding the boundary, the windows' holdings of the three arrays and everything that
    bypassed the region, the tail's operations run and hand back the windows' holdings and the rest at what they computed. -/
theorem tail_run (c : Dev nD) (Q' : PUnit → sProp 𝕄) :
    iprop((iprop((dats m 0 c).arrays ((dats m 0 c).arrAt · cfg0.N)
            ∗ unscopedRestP (Ix := Unit) (Name := ℕ) (U := UR sig nD τ) (Lvl := ℕ) Prefetch.none spec0 c (Wfin m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Prefetch.none spec0 c (V m c))
      ⊢ wp frame (wpE (defs (F := F)) (Variants.lift Variants.none) (c.tc : Thread nD τ) none) Set.univ
          (Pipeline.chain ((tailOps (F := F)).map StableHlo.seq)) Q' := by
  classical
  have hA := arrays_iff m c (fun b => Wexit m c (Proc.devRef .tc b)) ((dats m 0 c).arrAt · cfg0.N) (fun w => arrAt_exit m c w)
  have hA' := arrays_iff m c (Wfin m c) ((dats m 0 c).arrAt · cfg0.N) (fun w => arrAt_fin m c w)
  have hR : (unscopedRestP (Ix := Unit) (Name := ℕ) (U := UR sig nD τ) (Lvl := ℕ) Prefetch.none spec0 c (V m c) : sProp 𝕄)
      = unscopedRest spec0 c (fun b => Wexit m c (Proc.devRef .tc b)) := by
    rw [Pipeline.unscopedRestP_none]; unfold unscopedRest
    exact bigSep_congr fun b hb => by
      have hne : b ≠ main_v2 := fun e => (Finset.mem_sdiff.mp hb).2 (e ▸ (by decide : main_v2 ∈ Finset.univ.image (Pipeline.arrRef spec0)))
      unfold Wexit V
      exact congrArg (fun f => (((c.tc : Thread nD τ).loc b) ↦{fullShare} f : sProp 𝕄)) (Function.update_of_ne (fun e => hne (Proc.devRef_injective _ e)) _ _).symm
  have hW : (StableHlo.held (c.tc : Thread nD τ) (ucRefs τ sig) (Wexit m c) : sProp 𝕄)
      = iprop(arrBufs spec0 c (fun b => Wexit m c (Proc.devRef .tc b)) ∗ unscopedRest spec0 c (fun b => Wexit m c (Proc.devRef .tc b))) := by
    rw [← Pipeline.unscopedBufs_held (Ix := Unit) (Name := ℕ) (U := UR sig nD τ) (Lvl := ℕ) c (Wexit m c), Pipeline.unscopedBufs_split₀ cfgs 0 winFacts₀0.arr_unscoped]
  have hW' : (StableHlo.held (c.tc : Thread nD τ) (ucRefs τ sig) (StableHlo.after (tailOps (F := F)).flatten (Wexit m c)) : sProp 𝕄)
      = iprop(arrBufs spec0 c (Wfin m c) ∗ unscopedRest spec0 c (Wfin m c)) := by
    rw [← Pipeline.unscopedBufs_held (Ix := Unit) (Name := ℕ) (U := UR sig nD τ) (Lvl := ℕ) c (StableHlo.after (tailOps (F := F)).flatten (Wexit m c)), Pipeline.unscopedBufs_split₀ cfgs 0 winFacts₀0.arr_unscoped]
    rfl
  have step1 : iprop(boundary (c.tc : Thread nD τ) ∗ (dats m 0 c).arrays ((dats m 0 c).arrAt · cfg0.N)
        ∗ unscopedRestP (Ix := Unit) (Name := ℕ) (U := UR sig nD τ) (Lvl := ℕ) Prefetch.none spec0 c (V m c))
      ⊢ iprop(boundary (c.tc : Thread nD τ) ∗ (StableHlo.held (c.tc : Thread nD τ) (ucRefs τ sig) (Wexit m c) : sProp 𝕄)) := by
    rw [hR, hW]
    iintro ⟨Hb, Ha, Hr⟩
    isplitl [Hb]; · iexact Hb
    isplitl [Ha]
    · iapply hA.1; iexact Ha
    iexact Hr
  rw [← List.append_nil ((tailOps (F := F)).map StableHlo.seq)]
  iintro ⟨Hk, Hrest⟩
  ihave Hb := step1 $$ Hrest
  iapply (Pipeline.wp_seqs_then (fun q => (cfgs q).toPCfg (Val := Elt F)) defs₀ Variants.none c (ucRefs τ sig) [] tailOps tailOps_sub tailOps_fresh (Wexit m c)) $$ Hb
  iintro Hb
  rw [Pipeline.chain_nil, wp_pure, hW']
  imodintro
  iapply Hk
  icases Hb with ⟨-, Ha, Hr⟩
  isplitl [Ha]
  · iapply hA'.2; iexact Ha
  rw [Pipeline.unscopedRestP_none]; iexact Hr

/-- What the run of @main ends with: each window's array at what the write-backs left, every other unscoped buffer at
    what the tail computed. -/
def Post : PUnit × MemSt nD τ sig (Elt F) → Prop := fun r => ∀ c : Dev nD,
  (∀ w, r.2.mem (((cfg0).spec w).arr.view.loc (c.tc : Thread nD τ)) = (dats m 0 c).arrAt w cfg0.N)
    ∧ ∀ b ∈ restRefsP sig Prefetch.none spec0, r.2.mem ((c.tc : Thread nD τ).loc b) = Wfin m c b

set_option maxHeartbeats 8000000 in
set_option backward.isDefEq.respectTransparency.types false in
/-- THE RUN: from any memory with zero counters every weakly fair execution of @main terminates, nothing faulting, in
    a state as above. -/
theorem run_main : θ_run (defs (F := F)) (onTc (τ := τ) (main (F := F))) ⟨m, fun _ => 0, ρ⟩ (Post m) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain ((tailOps (F := F)).map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c) _ (fun w => A_eq m c w)).2)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (Wfin m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ restRefsP sig Prefetch.none spec0, s.mem ((c.tc : Thread nD τ).loc b) = Wfin m c b)
    (hY := fun c s' => by
      iintro ⟨-, HU, HSI⟩
      unfold unscopedRestP
      imodintro
      iapply (pointsTo_read_all (restRefsP sig Prefetch.none spec0) (fun b => (c.tc : Thread nD τ).loc b) (Wfin m c) s')
      isplitl [HU] <;> iassumption)
    (hQ := fun s h c => ⟨(h c).1, (h c).2.2⟩)

end Cert.Kernel.Hand

end
-- ==== Proof.WFrame.lean ====
/-
  The attention kernel's launch, part six: what the run says of the argument arrays and of the result.  No operation
  of @main writes an argument, so each ends as it began; the result buffer ends at what the tail computes from the
  pipeline's output array.
-/
import proofs.«143733_j15865609191815_2_alg».proof.Proof.Gen.Kernel.Launch
import proofs.«143733_j15865609191815_2_alg».proof.Proof.Gen.Kernel.Skeleton
import proofs.«143733_j15865609191815_2_alg».proof.Proof.Gen.Kernel.Points
import proofs.«143733_j15865609191815_2_alg».proof.Proof.WLaunch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (restRefsP Prefetch)
open Idealize.ShloMosaic.StableHlo.StraightLine (WritesAre after_kept)

/-- A buffer that neither the reshapes nor the region nor the tail writes ends as it began. -/
theorem Wfin_arg (c : Dev nD) (b : Ref sig .tc) (h1 : b ∉ tailOuts) (h2 : b ≠ main_v2) (h3 : b ∉ [main_v0, main_v1]) :
    Wfin m c b = m ((c.tc : Thread nD τ).loc b) := by
  unfold Wfin
  rw [after_kept tail_writes h1]
  unfold Wexit
  rw [Function.update_of_ne (fun e => h2 (Proc.devRef_injective _ e))]
  exact after_kept head_writes h3 _

/-- THE FRAME: @main runs, faults nowhere, and leaves its five arguments as they were. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun r h c => ⟨((h c).2 main_arg0 (by decide)).trans (Wfin_arg m c main_arg0 (by decide) (by decide) (by decide)),
    ((h c).2 main_arg1 (by decide)).trans (Wfin_arg m c main_arg1 (by decide) (by decide) (by decide)),
    ((h c).2 main_arg2 (by decide)).trans (Wfin_arg m c main_arg2 (by decide) (by decide) (by decide)),
    ((h c).2 main_arg3 (by decide)).trans (Wfin_arg m c main_arg3 (by decide) (by decide) (by decide)),
    ((h c).2 main_arg4 (by decide)).trans (Wfin_arg m c main_arg4 (by decide) (by decide) (by decide))⟩) (run_main m ρ)

/-- The run with the result named: the result buffer at what the tail computes, the arguments as they were. -/
theorem run_result : θ_run (defs (F := F)) (onTc (τ := τ) (main (F := F))) ⟨m, fun _ => 0, ρ⟩ (fun r => ∀ c : Dev nD,
      r.2.mem ((c.tc : Thread nD τ).loc main_v26) = Wfin m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun r h c => ⟨(h c).2 main_v26 (by decide), ((h c).2 main_arg0 (by decide)).trans (Wfin_arg m c main_arg0 (by decide) (by decide) (by decide)),
    ((h c).2 main_arg1 (by decide)).trans (Wfin_arg m c main_arg1 (by decide) (by decide) (by decide)),
    ((h c).2 main_arg2 (by decide)).trans (Wfin_arg m c main_arg2 (by decide) (by decide) (by decide)),
    ((h c).2 main_arg3 (by decide)).trans (Wfin_arg m c main_arg3 (by decide) (by decide) (by decide)),
    ((h c).2 main_arg4 (by decide)).trans (Wfin_arg m c main_arg4 (by decide) (by decide) (by decide))⟩) (run_main m ρ)

end Cert.Kernel.Hand

end
-- ==== Proof.KRuns.lean ====
/-
  The attention kernel's launch, part one: what every later module is stated over.

  @main is two reshapes (the two [4,128,64,64] arguments seen as [4,128,4096] stacks P and Q), the region, and the
  batch-norm tail.  The region's grid has 4·4·8 = 128 points t = (b, qi, ki) with ki innermost.  Windows 0 and 1 are the
  query tiles of P and Q (1024 positions, fetched when ki = 0), windows 2 and 3 the key tiles of P and Q (512 positions,
  fetched at every point), window 4 the output tile, stored and written back only when ki = 7.  The body has three
  cases, decided by ki: the first point of a row of key tiles (ki = 0: the running maximum, sum and accumulator are
  reset and the query operand is assembled), the middle ones, and the last (ki = 7: the accumulator is divided by the
  sum and stored).  Here: the buffer contents at the region's entry, @main around the region, a window's block at a
  point, the closed forms of the two conditions, where the output window is idle, and names for the memrefs.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The five stretches of host operations after the region. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main reduces to the region continued by the tail, at the contents after the two reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps
    hostOps0_sub hostOps0_fresh main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions, in closed form -/

/-- "This is the first key tile of the row": ki = 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile of the row": ki = 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last key tile the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last key tile it is live. -/
theorem liveAt0_4 : ∀ t : Fin cfg0.N, cond0_1 (grid0.coords t) → cfg0.idle 4 (grid0.coords t) = false := by decide +kernel

/-! ## Names for the memrefs -/

/-- One staging buffer of the output window, through which its contents are stated. -/
abbrev VO4 : View sig .tc .vmem S1x128x1024 .f32 := (Memref.whole cc0_stg4_0 : Memref sig .tc .vmem S1x128x1024 .f32).view
abbrev ms0 (t : Fin cfg0.N) : Memref sig .tc .vmem S1x128x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128x1024 .f32 := win0_4.stage (cfg0.slots t 4)
abbrev hs4 (t : Fin cfg0.N) : (ms4 t).IsWhole := hstage0_4 ((cfg0.slots t 4).cast nbuf0_4)
/-- The four scratch buffers: the running maximum, the running sum, the accumulator, the assembled query operand. -/
abbrev scM : Memref sig .tc .vmem S1024x1 .f32 := Memref.whole cc0_scratch0
abbrev scL : Memref sig .tc .vmem S1024x1 .f32 := Memref.whole cc0_scratch1
abbrev scA : Memref sig .tc .vmem S128x1024 .f32 := Memref.whole cc0_scratch2
abbrev scQ : Memref sig .tc .vmem S256x1024 .bf16 := Memref.whole cc0_scratch3
abbrev VSM : View sig .tc .vmem S1024x1 .f32 := (scM).view
abbrev VSL : View sig .tc .vmem S1024x1 .f32 := (scL).view
abbrev VSA : View sig .tc .vmem S128x1024 .f32 := (scA).view
abbrev VSQ : View sig .tc .vmem S256x1024 .bf16 := (scQ).view

/-- The launch's invariant with the four scratch buffers as memrefs owned at some contents. -/
theorem PhiA0_eq (c : Dev nD) :
    (Pipeline.ΦA spec0 c : sProp 𝕄)
      = iprop(iprop((∃ d, owns (c : Thread nD τ) scM fullShare d) ∗ (∃ d, owns (c : Thread nD τ) scL fullShare d)
          ∗ (∃ d, owns (c : Thread nD τ) scA fullShare d) ∗ (∃ d, owns (c : Thread nD τ) scQ fullShare d)) ∗ (∃ r, prngReg c r)) := by
  unfold Pipeline.ΦA; rw [scopedRest0_eq]; simp only [scM, scL, scA, scQ, owns_whole]; try rfl

end Cert.KernelIdeal.Hand

end
-- ==== Proof.KRunB.lean ====
/-
  The body at a MIDDLE key tile (neither the first nor the last of its row): it reads the two key tiles and the four
  scratch buffers as the point before left them, and stores a new running sum, a new accumulator and a new running
  maximum; the query operand, the query tiles and the output tile are left as they are.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KRuns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the running-maximum, running-sum and accumulator buffers at a middle key
    tile, with the proof that the body runs from the buffers at their contents to the continuation holding them so. -/
noncomputable def kernelRun0_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i)
    (x0 x1 : Vec F S1x128x1024 .f32) (x2 x3 : Vec F S1x128x512 .f32) (xsM xsL : Vec F S1024x1 .f32) (xsA : Vec F S128x1024 .f32) (xsQ : Vec F S256x1024 .bf16) :
    Σ' (LM : List (View.Piece (Elt F) S1024x1 .f32)) (LL : List (View.Piece (Elt F) S1024x1 .f32)), { LA : List (View.Piece (Elt F) S128x1024 .f32) //
      ∀ (xi4 : Vec F S1x128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xsM ∗ owns (c : Thread nD τ) arg9 fullShare xsL ∗ owns (c : Thread nD τ) arg10 fullShare xsA ∗ owns (c : Thread nD τ) arg11 fullShare xsQ
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA) ∗ owns (c : Thread nD τ) arg11 fullShare xsQ) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fM, %hfM, HM⟩, ⟨%fL, %hfL, HL⟩, ⟨%fA, %hfA, HA⟩, ⟨%fQ, %hfQ, HQ⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfM; obtain rfl := harg9.eq_unread hfL; obtain rfl := harg10.eq_unread hfA; obtain rfl := harg11.eq_unread hfQ
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HM]; · iexists _; iexact HM
    isplitl [HL]; · iexists _; iexact HL
    isplitl [HA]; · iexists _; iexact HA
    iexists _; isplitr; · ipureintro; exact harg11.read_unread _
    iexact HQ

end Cert.KernelIdeal.Hand

end
-- ==== Proof.KRunA.lean ====
/-
  The body at the FIRST key tile of a row: whatever the four scratch buffers held, it resets the running maximum to −∞,
  the running sum and the accumulator to 0, assembles the query operand from the two query tiles, and then does a
  middle tile's work on top of that; the output tile is left as it is.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KRunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the four scratch buffers at the first key tile of a row, with the proof that
    the body runs from the scratch buffers at anything to the continuation holding them so. -/
noncomputable def kernelRun0_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i)
    (x0 x1 : Vec F S1x128x1024 .f32) (x2 x3 : Vec F S1x128x512 .f32) :
    Σ' (LM : List (View.Piece (Elt F) S1024x1 .f32)) (LL : List (View.Piece (Elt F) S1024x1 .f32)) (LA : List (View.Piece (Elt F) S128x1024 .f32)), { LQ : List (View.Piece (Elt F) S256x1024 .bf16) //
      ∀ (xi4 : Vec F S1x128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA) ∗ (∃ f, arg11.view.loc (c : Thread nD τ) ↦[arg11.view.set]{fullShare} arg11.view.writes (Elt F) f LQ)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dM, %fM, -, HM⟩, ⟨%dL, %fL, -, HL⟩, ⟨%dA, %fA, -, HA⟩, ⟨%dQ, %fQ, -, HQ⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HM]; · iexists _; iexact HM
    isplitl [HL]; · iexists _; iexact HL
    isplitl [HA]; · iexists _; iexact HA
    iexists _; iexact HQ

end Cert.KernelIdeal.Hand

end
-- ==== Proof.KRunC.lean ====
/-
  The body at the LAST key tile of a row: a middle tile's work, and then the accumulator divided by the running sum is
  stored into the output tile, whatever that held.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KRunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output tile and in the running-maximum, running-sum and accumulator
    buffers at the last key tile of a row, with the proof that the body runs to the continuation holding them so. -/
noncomputable def kernelRun0_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i)
    (x0 x1 : Vec F S1x128x1024 .f32) (x2 x3 : Vec F S1x128x512 .f32) (xsM xsL : Vec F S1024x1 .f32) (xsA : Vec F S128x1024 .f32) (xsQ : Vec F S256x1024 .bf16) :
    Σ' (L4 : List (View.Piece (Elt F) S1x128x1024 .f32)) (LM : List (View.Piece (Elt F) S1024x1 .f32)) (LL : List (View.Piece (Elt F) S1024x1 .f32)), { LA : List (View.Piece (Elt F) S128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xsM ∗ owns (c : Thread nD τ) arg9 fullShare xsL ∗ owns (c : Thread nD τ) arg10 fullShare xsA ∗ owns (c : Thread nD τ) arg11 fullShare xsQ
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA) ∗ owns (c : Thread nD τ) arg11 fullShare xsQ) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fM, %hfM, HM⟩, ⟨%fL, %hfL, HL⟩, ⟨%fA, %hfA, HA⟩, ⟨%fQ, %hfQ, HQ⟩, Hk⟩
    obtain rfl := harg3.eq_unread hf0; obtain rfl := harg4.eq_unread hf1; obtain rfl := harg5.eq_unread hf2; obtain rfl := harg6.eq_unread hf3
    obtain rfl := harg8.eq_unread hfM; obtain rfl := harg9.eq_unread hfL; obtain rfl := harg10.eq_unread hfA; obtain rfl := harg11.eq_unread hfQ
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HM]; · iexists _; iexact HM
    isplitl [HL]; · iexists _; iexact HL
    isplitl [HA]; · iexists _; iexact HA
    iexists _; isplitr; · ipureintro; exact harg11.read_unread _
    iexact HQ

end Cert.KernelIdeal.Hand

end
-- ==== Proof.KData.lean ====
/-
  The attention kernel's launch, part two: what the buffers hold after each grid point, and the body obligation.

  After the body at point t the running maximum, the running sum, the accumulator and the assembled query operand hold
  what the point's case stores there — at the first key tile of a row from nothing, at the others from what the point
  before left —, and at the last key tile of a row the output tile holds what that case stores.  These contents are
  named by recursion on the point; the launch's invariant carries the four scratch buffers at them from point to point.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KRunC
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its pieces -/

/-- What the case leaves in that buffer: its pieces read back. -/
def sM_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  : Vec F S1024x1 .f32 :=
  VSM.read (Elt F) (VSM.writes (Elt F) VSM.junk (kernelRun0_A c i arg3 harg3 arg4 harg4 arg5 harg5 arg6 harg6 arg7 harg7 arg8 harg8 arg9 harg9 arg10 harg10 arg11 harg11 hc0 hc1 x0 x1 x2 x3 ).1)
/-- Those pieces tile the buffer, so they cover it. -/
theorem cov_sM_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  (y : S1024x1.Idx) :
    ∃ pc ∈ (kernelRun0_A c i arg3 harg3 arg4 harg4 arg5 harg5 arg6 harg6 arg7 harg7 arg8 harg8 arg9 harg9 arg10 harg10 arg11 harg11 hc0 hc1 x0 x1 x2 x3 ).1, y ∈ pc.1.set :=
  View.cover_of_tiledL ((kernelRun0_A c i arg3 harg3 arg4 harg4 arg5 harg5 arg6 harg6 arg7 harg7 arg8 harg8 arg9 harg9 arg10 harg10 arg11 harg11 hc0 hc1 x0 x1 x2 x3 ).1) S1024x1.size (by sl_kernel_rfl) y

/-- What the case leaves in that buffer: its pieces read back. -/
def sL_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  : Vec F S1024x1 .f32 :=
  VSL.read (Elt F) (VSL.writes (Elt F) VSL.junk (kernelRun0_A c i arg3 harg3 arg4 harg4 arg5 harg5 arg6 harg6 arg7 harg7 arg8 harg8 arg9 harg9 arg10 harg10 arg11 harg11 hc0 hc1 x0 x1 x2 x3 ).2.1)
/-- Those pieces tile the buffer, so they cover it. -/
theorem cov_sL_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  (y : S1024x1.Idx) :
    ∃ pc ∈ (kernelRun0_A c i arg3 harg3 arg4 harg4 arg5 harg5 arg6 harg6 arg7 harg7 arg8 harg8 arg9 harg9 arg10 harg10 arg11 harg11 hc0 hc1 x0 x1 x2 x3 ).2.1, y ∈ pc.1.set :=
  View.cover_of_tiledL ((kernelRun0_A c i arg3 harg3 arg4 harg4 arg5 harg5 arg6 harg6 arg7 harg7 arg8 harg8 arg9 harg9 arg10 harg10 arg11 harg11 hc0 hc1 x0 x1 x2 x3 ).2.1) S1024x1.size (by sl_kernel_rfl) y

/-- What the case leaves in that buffer: its pieces read back. -/
def sA_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  : Vec F S128x1024 .f32 :=
  VSA.read (Elt F) (VSA.writes (Elt F) VSA.junk (kernelRun0_A c i arg3 harg3 arg4 harg4 arg5 harg5 arg6 harg6 arg7 harg7 arg8 harg8 arg9 harg9 arg10 harg10 arg11 harg11 hc0 hc1 x0 x1 x2 x3 ).2.2.1)
/-- Those pieces tile the buffer, so they cover it. -/
theorem cov_sA_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  (y : S128x1024.Idx) :
    ∃ pc ∈ (kernelRun0_A c i arg3 harg3 arg4 harg4 arg5 harg5 arg6 harg6 arg7 harg7 arg8 harg8 arg9 harg9 arg10 harg10 arg11 harg11 hc0 hc1 x0 x1 x2 x3 ).2.2.1, y ∈ pc.1.set :=
  View.cover_of_tiledL ((kernelRun0_A c i arg3 harg3 arg4 harg4 arg5 harg5 arg6 harg6 arg7 harg7 arg8 harg8 arg9 harg9 arg10 harg10 arg11 harg11 hc0 hc1 x0 x1 x2 x3 ).2.2.1) S128x1024.size (by sl_kernel_rfl) y

/-- What the case leaves in that buffer: its pieces read back. -/
def sQ_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  : Vec F S256x1024 .bf16 :=
  VSQ.read (Elt F) (VSQ.writes (Elt F) VSQ.junk (kernelRun0_A c i arg3 harg3 arg4 harg4 arg5 harg5 arg6 harg6 arg7 harg7 arg8 harg8 arg9 harg9 arg10 harg10 arg11 harg11 hc0 hc1 x0 x1 x2 x3 ).2.2.2.1)
/-- Those pieces tile the buffer, so they cover it. -/
theorem cov_sQ_A (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  (y : S256x1024.Idx) :
    ∃ pc ∈ (kernelRun0_A c i arg3 harg3 arg4 harg4 arg5 harg5 arg6 harg6 arg7 harg7 arg8 harg8 arg9 harg9 arg10 harg10 arg11 harg11 hc0 hc1 x0 x1 x2 x3 ).2.2.2.1, y ∈ pc.1.set :=
  View.cover_of_tiledL ((kernelRun0_A c i arg3 harg3 arg4 harg4 arg5 harg5 arg6 harg6 arg7 harg7 arg8 harg8 arg9 harg9 arg10 harg10 arg11 harg11 hc0 hc1 x0 x1 x2 x3 ).2.2.2.1) S256x1024.size (by sl_kernel_rfl) y

/-- What the case leaves in that buffer: its pieces read back. -/
def sM_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) : Vec F S1024x1 .f32 :=
  VSM.read (Elt F) (VSM.writes (Elt F) VSM.junk (kernelRun0_B c i arg3 harg3 arg4 harg4 arg5 harg5 arg6 harg6 arg7 harg7 arg8 harg8 arg9 harg9 arg10 harg10 arg11 harg11 hc0 hc1 x0 x1 x2 x3 xsM xsL xsA xsQ).1)
/-- Those pieces tile the buffer, so they cover it. -/
theorem cov_sM_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) (y : S1024x1.Idx) :
    ∃ pc ∈ (kernelRun0_B c i arg3 harg3 arg4 harg4 arg5 harg5 arg6 harg6 arg7 harg7 arg8 harg8 arg9 harg9 arg10 harg10 arg11 harg11 hc0 hc1 x0 x1 x2 x3 xsM xsL xsA xsQ).1, y ∈ pc.1.set :=
  View.cover_of_tiledL ((kernelRun0_B c i arg3 harg3 arg4 harg4 arg5 harg5 arg6 harg6 arg7 harg7 arg8 harg8 arg9 harg9 arg10 harg10 arg11 harg11 hc0 hc1 x0 x1 x2 x3 xsM xsL xsA xsQ).1) S1024x1.size (by sl_kernel_rfl) y

/-- What the case leaves in that buffer: its pieces read back. -/
def sL_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) : Vec F S1024x1 .f32 :=
  VSL.read (Elt F) (VSL.writes (Elt F) VSL.junk (kernelRun0_B c i arg3 harg3 arg4 harg4 arg5 harg5 arg6 harg6 arg7 harg7 arg8 harg8 arg9 harg9 arg10 harg10 arg11 harg11 hc0 hc1 x0 x1 x2 x3 xsM xsL xsA xsQ).2.1)
/-- Those pieces tile the buffer, so they cover it. -/
theorem cov_sL_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) (y : S1024x1.Idx) :
    ∃ pc ∈ (kernelRun0_B c i arg3 harg3 arg4 harg4 arg5 harg5 arg6 harg6 arg7 harg7 arg8 harg8 arg9 harg9 arg10 harg10 arg11 harg11 hc0 hc1 x0 x1 x2 x3 xsM xsL xsA xsQ).2.1, y ∈ pc.1.set :=
  View.cover_of_tiledL ((kernelRun0_B c i arg3 harg3 arg4 harg4 arg5 harg5 arg6 harg6 arg7 harg7 arg8 harg8 arg9 harg9 arg10 harg10 arg11 harg11 hc0 hc1 x0 x1 x2 x3 xsM xsL xsA xsQ).2.1) S1024x1.size (by sl_kernel_rfl) y

/-- What the case leaves in that buffer: its pieces read back. -/
def sA_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) : Vec F S128x1024 .f32 :=
  VSA.read (Elt F) (VSA.writes (Elt F) VSA.junk (kernelRun0_B c i arg3 harg3 arg4 harg4 arg5 harg5 arg6 harg6 arg7 harg7 arg8 harg8 arg9 harg9 arg10 harg10 arg11 harg11 hc0 hc1 x0 x1 x2 x3 xsM xsL xsA xsQ).2.2.1)
/-- Those pieces tile the buffer, so they cover it. -/
theorem cov_sA_B (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) (y : S128x1024.Idx) :
    ∃ pc ∈ (kernelRun0_B c i arg3 harg3 arg4 harg4 arg5 harg5 arg6 harg6 arg7 harg7 arg8 harg8 arg9 harg9 arg10 harg10 arg11 harg11 hc0 hc1 x0 x1 x2 x3 xsM xsL xsA xsQ).2.2.1, y ∈ pc.1.set :=
  View.cover_of_tiledL ((kernelRun0_B c i arg3 harg3 arg4 harg4 arg5 harg5 arg6 harg6 arg7 harg7 arg8 harg8 arg9 harg9 arg10 harg10 arg11 harg11 hc0 hc1 x0 x1 x2 x3 xsM xsL xsA xsQ).2.2.1) S128x1024.size (by sl_kernel_rfl) y

/-- What the case leaves in that buffer: its pieces read back. -/
def o4_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) : Vec F S1x128x1024 .f32 :=
  VO4.read (Elt F) (VO4.writes (Elt F) VO4.junk (kernelRun0_C c i arg3 harg3 arg4 harg4 arg5 harg5 arg6 harg6 arg7 harg7 arg8 harg8 arg9 harg9 arg10 harg10 arg11 harg11 hc0 hc1 x0 x1 x2 x3 xsM xsL xsA xsQ).1)
/-- Those pieces tile the buffer, so they cover it. -/
theorem cov_o4_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) (y : S1x128x1024.Idx) :
    ∃ pc ∈ (kernelRun0_C c i arg3 harg3 arg4 harg4 arg5 harg5 arg6 harg6 arg7 harg7 arg8 harg8 arg9 harg9 arg10 harg10 arg11 harg11 hc0 hc1 x0 x1 x2 x3 xsM xsL xsA xsQ).1, y ∈ pc.1.set :=
  View.cover_of_tiledL ((kernelRun0_C c i arg3 harg3 arg4 harg4 arg5 harg5 arg6 harg6 arg7 harg7 arg8 harg8 arg9 harg9 arg10 harg10 arg11 harg11 hc0 hc1 x0 x1 x2 x3 xsM xsL xsA xsQ).1) S1x128x1024.size (by sl_kernel_rfl) y

/-- What the case leaves in that buffer: its pieces read back. -/
def sM_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) : Vec F S1024x1 .f32 :=
  VSM.read (Elt F) (VSM.writes (Elt F) VSM.junk (kernelRun0_C c i arg3 harg3 arg4 harg4 arg5 harg5 arg6 harg6 arg7 harg7 arg8 harg8 arg9 harg9 arg10 harg10 arg11 harg11 hc0 hc1 x0 x1 x2 x3 xsM xsL xsA xsQ).2.1)
/-- Those pieces tile the buffer, so they cover it. -/
theorem cov_sM_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) (y : S1024x1.Idx) :
    ∃ pc ∈ (kernelRun0_C c i arg3 harg3 arg4 harg4 arg5 harg5 arg6 harg6 arg7 harg7 arg8 harg8 arg9 harg9 arg10 harg10 arg11 harg11 hc0 hc1 x0 x1 x2 x3 xsM xsL xsA xsQ).2.1, y ∈ pc.1.set :=
  View.cover_of_tiledL ((kernelRun0_C c i arg3 harg3 arg4 harg4 arg5 harg5 arg6 harg6 arg7 harg7 arg8 harg8 arg9 harg9 arg10 harg10 arg11 harg11 hc0 hc1 x0 x1 x2 x3 xsM xsL xsA xsQ).2.1) S1024x1.size (by sl_kernel_rfl) y

/-- What the case leaves in that buffer: its pieces read back. -/
def sL_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) : Vec F S1024x1 .f32 :=
  VSL.read (Elt F) (VSL.writes (Elt F) VSL.junk (kernelRun0_C c i arg3 harg3 arg4 harg4 arg5 harg5 arg6 harg6 arg7 harg7 arg8 harg8 arg9 harg9 arg10 harg10 arg11 harg11 hc0 hc1 x0 x1 x2 x3 xsM xsL xsA xsQ).2.2.1)
/-- Those pieces tile the buffer, so they cover it. -/
theorem cov_sL_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) (y : S1024x1.Idx) :
    ∃ pc ∈ (kernelRun0_C c i arg3 harg3 arg4 harg4 arg5 harg5 arg6 harg6 arg7 harg7 arg8 harg8 arg9 harg9 arg10 harg10 arg11 harg11 hc0 hc1 x0 x1 x2 x3 xsM xsL xsA xsQ).2.2.1, y ∈ pc.1.set :=
  View.cover_of_tiledL ((kernelRun0_C c i arg3 harg3 arg4 harg4 arg5 harg5 arg6 harg6 arg7 harg7 arg8 harg8 arg9 harg9 arg10 harg10 arg11 harg11 hc0 hc1 x0 x1 x2 x3 xsM xsL xsA xsQ).2.2.1) S1024x1.size (by sl_kernel_rfl) y

/-- What the case leaves in that buffer: its pieces read back. -/
def sA_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) : Vec F S128x1024 .f32 :=
  VSA.read (Elt F) (VSA.writes (Elt F) VSA.junk (kernelRun0_C c i arg3 harg3 arg4 harg4 arg5 harg5 arg6 harg6 arg7 harg7 arg8 harg8 arg9 harg9 arg10 harg10 arg11 harg11 hc0 hc1 x0 x1 x2 x3 xsM xsL xsA xsQ).2.2.2.1)
/-- Those pieces tile the buffer, so they cover it. -/
theorem cov_sA_C (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) (y : S128x1024.Idx) :
    ∃ pc ∈ (kernelRun0_C c i arg3 harg3 arg4 harg4 arg5 harg5 arg6 harg6 arg7 harg7 arg8 harg8 arg9 harg9 arg10 harg10 arg11 harg11 hc0 hc1 x0 x1 x2 x3 xsM xsL xsA xsQ).2.2.2.1, y ∈ pc.1.set :=
  View.cover_of_tiledL ((kernelRun0_C c i arg3 harg3 arg4 harg4 arg5 harg5 arg6 harg6 arg7 harg7 arg8 harg8 arg9 harg9 arg10 harg10 arg11 harg11 hc0 hc1 x0 x1 x2 x3 xsM xsL xsA xsQ).2.2.2.1) S128x1024.size (by sl_kernel_rfl) y

/-! ## What the buffers hold after each point -/

/-- The output tile, the running maximum, the running sum, the accumulator, the query operand. -/
abbrev St (F : FTy → Type) [FloatOps F] : Type :=
  Vec F S1x128x1024 .f32 × Vec F S1024x1 .f32 × Vec F S1024x1 .f32 × Vec F S128x1024 .f32 × Vec F S256x1024 .bf16

/-- An output tile nothing has stored into: a placeholder nothing consults. -/
def o4none : Vec F S1x128x1024 .f32 := VO4.read (Elt F) VO4.junk

/-- The first key tile of a row at point t. -/
def stA (c : Dev nD) (t : Fin cfg0.N) (h0 : cond0_0 (grid0.coords t)) (h1 : ¬cond0_1 (grid0.coords t)) : St F :=
  (o4none, sM_A c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t), sL_A c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t),
    sA_A c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t), sQ_A c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t))
/-- A middle key tile at point t, over what the point before left. -/
def stB (c : Dev nD) (t : Fin cfg0.N) (h0 : ¬cond0_0 (grid0.coords t)) (h1 : ¬cond0_1 (grid0.coords t)) (p : St F) : St F :=
  (o4none, sM_B c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, sL_B c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2,
    sA_B c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, p.2.2.2.2)
/-- The last key tile of a row at point t, over what the point before left. -/
def stC (c : Dev nD) (t : Fin cfg0.N) (h0 : ¬cond0_0 (grid0.coords t)) (h1 : cond0_1 (grid0.coords t)) (p : St F) : St F :=
  (o4_C c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, sM_C c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2,
    sL_C c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, sA_C c (grid0.coords t) (ms0 t) (hs0 t) (ms1 t) (hs1 t) (ms2 t) (hs2 t) (ms3 t) (hs3 t) (ms4 t) (hs4 t) scM (Memref.isWhole_whole _) scL (Memref.isWhole_whole _) scA (Memref.isWhole_whole _) scQ (Memref.isWhole_whole _) h0 h1 (iblk m c 0 t) (iblk m c 1 t) (iblk m c 2 t) (iblk m c 3 t) p.2.1 p.2.2.1 p.2.2.2.1 p.2.2.2.2, p.2.2.2.2)

/-- THE ACCUMULATION: the buffers after the body at position n, by recursion on n — the case the closed forms select,
    a case that reads the scratch buffers taking what the position before left. -/
def outsAt0 (c : Dev nD) : (n : ℕ) → n < cfg0.N → St F
  | 0, hn => stA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then False.elim (by omega)
      else stA m c ⟨n + 1, hn⟩ ((hcond0_0 ⟨n + 1, hn⟩).mpr h0) (fun h => h1 ((hcond0_1 ⟨n + 1, hn⟩).mp h))
    else
      if h1 : (n + 1) % 8 = 7 then
        stC m c ⟨n + 1, hn⟩ (fun h => h0 ((hcond0_0 ⟨n + 1, hn⟩).mp h)) ((hcond0_1 ⟨n + 1, hn⟩).mpr h1) (outsAt0 c n (Nat.lt_of_succ_lt hn))
      else
        stB m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 8 = 0) (h1 : ¬t.val % 8 = 7) :
    outsAt0 m c t.val t.isLt = stA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stB m c t (fun h => h0 ((hcond0_0 t).mp h)) (fun h => h1 ((hcond0_1 t).mp h))
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stC m c t (fun h => h0 ((hcond0_0 t).mp h)) ((hcond0_1 t).mpr h1)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant: the four scratch buffers at what the point before left -/

/-- The scratch buffers at a state's contents, and the generator register at some state. -/
def scratchAt (c : Dev nD) (p : St F) : sProp 𝕄 :=
  iprop(iprop(owns (c : Thread nD τ) scM fullShare p.2.1 ∗ owns (c : Thread nD τ) scL fullShare p.2.2.1
      ∗ owns (c : Thread nD τ) scA fullShare p.2.2.2.1 ∗ owns (c : Thread nD τ) scQ fullShare p.2.2.2.2) ∗ (∃ r, prngReg c r))

def PhiS (c : Dev nD) : (n : ℕ) → n ≤ cfg0.N → sProp 𝕄
  | 0, _ => Pipeline.ΦA spec0 c
  | n + 1, hn => scratchAt c (outsAt0 m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = scratchAt c (outsAt0 m c n hn) := rfl
theorem PhiS_pos (c : Dev nD) (n : ℕ) (h : n ≤ cfg0.N) (hz : n ≠ 0) :
    PhiS m c n h = scratchAt c (outsAt0 m c (n - 1) (by omega)) := by
  cases n with
  | zero => exact absurd rfl hz
  | succ n => rfl

/-! ## The proof data -/

/-- The share each window holds of its array: the two windows on P split P's buffer in halves, the two on Q likewise. -/
def qShare : Fin 5 → PosShare TreeShare := fun | 0 => fullShare.left | 1 => fullShare.left | 2 => fullShare.right | 3 => fullShare.right | _ => fullShare

/-- The proof data of the pipeline on core c: the arrays as the region finds them; after the body each input's buffer at
    its block and the output's at the accumulation's first component; the invariant above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.KernelIdeal.Hand

end
-- ==== Proof.KBody.lean ====
/-
  The attention kernel's launch, part three: the body obligation.  At every grid point, from the invariant (the four
  scratch buffers at what the point before left, or at anything before the first point) and the windows' current
  staging buffers (each input at its block, the output tile at whatever it holds), the body runs to the invariant at
  the next point and the buffers at what the proof data say: by cases on the point's position in its row of key tiles.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 = 7
    · exfalso; omega
    · -- the first key tile of a row
      rw [show (dats m 0 c).leavesExact 0 t = owns (c : Thread nD τ) (ms0 t) fullShare ((dats m 0 c).after 0 t) from by
        unfold Dat.leavesExact; rw [liveAt0_0 t], after0_0]
      rw [show (dats m 0 c).leavesExact 1 t = owns (c : Thread nD τ) (ms1 t) fullShare ((dats m 0 c).after 1 t) from by
        unfold Dat.leavesExact; rw [liveAt0_1 t], after0_1]
      rw [show (dats m 0 c).leavesExact 2 t = owns (c : Thread nD τ) (ms2 t) fullShare ((dats m 0 c).after 2 t) from by
        unfold Dat.leavesExact; rw [liveAt0_2 t], after0_2]
      rw [show (dats m 0 c).leavesExact 3 t = owns (c : Thread nD τ) (ms3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold scratchAt stA sM_A sL_A sA_A sQ_A; (try dsimp only)
      by_cases hz : t.val = 0
      ·
        rw [PhiS_castSucc m c t, PhiS_zero m c _ _ hz, PhiA0_eq]
        iintro ⟨⟨⟨HM, HL, HA, HQ⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HM]; · iexact HM
        isplitl [HL]; · iexact HL
        isplitl [HA]; · iexact HA
        isplitl [HQ]; · iexact HQ
        iintro ⟨H0, H1, H2, H3, H4, ⟨%eM, HM⟩, ⟨%eL, HL⟩, ⟨%eA, HA⟩, ⟨%eQ, HQ⟩⟩
        isplitl [HM HL HA HQ Hg]
        · isplitl [HM HL HA HQ]
          · isplitl [HM]
            · unfold owns; iexists _; isplitr
              swap; · iexact HM
              ipureintro; exact View.read_writes_of_cover _ _ _ _ _ (cov_sM_A c _ _ _ _ _ _ _ _ _ _ _ _ _ _ _ _ _ _ _ _ _ _ _ _ _)
            isplitl [HL]
            · unfold owns; iexists _; isplitr
              swap; · iexact HL
              ipureintro; exact View.read_writes_of_cover _ _ _ _ _ (cov_sL_A c _ _ _ _ _ _ _ _ _ _ _ _ _ _ _ _ _ _ _ _ _ _ _ _ _)
            isplitl [HA]
            · unfold owns; iexists _; isplitr
              swap; · iexact HA
              ipureintro; exact View.read_writes_of_cover _ _ _ _ _ (cov_sA_A c _ _ _ _ _ _ _ _ _ _ _ _ _ _ _ _ _ _ _ _ _ _ _ _ _)
            · unfold owns; iexists _; isplitr
              swap; · iexact HQ
              ipureintro; exact View.read_writes_of_cover _ _ _ _ _ (cov_sQ_A c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS_castSucc m c t, PhiS_pos m c _ _ hz]; unfold scratchAt
        iintro ⟨⟨⟨HM, HL, HA, HQ⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HM]; · iexists _; iexact HM
        isplitl [HL]; · iexists _; iexact HL
        isplitl [HA]; · iexists _; iexact HA
        isplitl [HQ]; · iexists _; iexact HQ
        iintro ⟨H0, H1, H2, H3, H4, ⟨%eM, HM⟩, ⟨%eL, HL⟩, ⟨%eA, HA⟩, ⟨%eQ, HQ⟩⟩
        isplitl [HM HL HA HQ Hg]
        · isplitl [HM HL HA HQ]
          · isplitl [HM]
            · unfold owns; iexists _; isplitr
              swap; · iexact HM
              ipureintro; exact View.read_writes_of_cover _ _ _ _ _ (cov_sM_A c _ _ _ _ _ _ _ _ _ _ _ _ _ _ _ _ _ _ _ _ _ _ _ _ _)
            isplitl [HL]
            · unfold owns; iexists _; isplitr
              swap; · iexact HL
              ipureintro; exact View.read_writes_of_cover _ _ _ _ _ (cov_sL_A c _ _ _ _ _ _ _ _ _ _ _ _ _ _ _ _ _ _ _ _ _ _ _ _ _)
            isplitl [HA]
            · unfold owns; iexists _; isplitr
              swap; · iexact HA
              ipureintro; exact View.read_writes_of_cover _ _ _ _ _ (cov_sA_A c _ _ _ _ _ _ _ _ _ _ _ _ _ _ _ _ _ _ _ _ _ _ _ _ _)
            · unfold owns; iexists _; isplitr
              swap; · iexact HQ
              ipureintro; exact View.read_writes_of_cover _ _ _ _ _ (cov_sQ_A c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · -- the last key tile of a row
      rw [show (dats m 0 c).leavesExact 0 t = owns (c : Thread nD τ) (ms0 t) fullShare ((dats m 0 c).after 0 t) from by
        unfold Dat.leavesExact; rw [liveAt0_0 t], after0_0]
      rw [show (dats m 0 c).leavesExact 1 t = owns (c : Thread nD τ) (ms1 t) fullShare ((dats m 0 c).after 1 t) from by
        unfold Dat.leavesExact; rw [liveAt0_1 t], after0_1]
      rw [show (dats m 0 c).leavesExact 2 t = owns (c : Thread nD τ) (ms2 t) fullShare ((dats m 0 c).after 2 t) from by
        unfold Dat.leavesExact; rw [liveAt0_2 t], after0_2]
      rw [show (dats m 0 c).leavesExact 3 t = owns (c : Thread nD τ) (ms3 t) fullShare ((dats m 0 c).after 3 t) from by
        unfold Dat.leavesExact; rw [liveAt0_3 t], after0_3]
      rw [show (dats m 0 c).leavesExact 4 t = owns (c : Thread nD τ) (ms4 t) fullShare ((dats m 0 c).after 4 t) from by
        unfold Dat.leavesExact; rw [liveAt0_4 t ((hcond0_1 t).mpr h1)], after0_4]
      rw [outsAt0_C m c t h0 h1]
      unfold scratchAt stC o4_C sM_C sL_C sA_C; (try dsimp only)
      have hz : t.val ≠ 0 := by omega
      rw [PhiS_castSucc m c t, PhiS_pos m c _ _ hz]; unfold scratchAt
      iintro ⟨⟨⟨HM, HL, HA, HQ⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HM]; · iexact HM
      isplitl [HL]; · iexact HL
      isplitl [HA]; · iexact HA
      isplitl [HQ]; · iexact HQ
      iintro ⟨H0, H1, H2, H3, ⟨%e4, H4⟩, ⟨%eM, HM⟩, ⟨%eL, HL⟩, ⟨%eA, HA⟩, HQ⟩
      isplitl [HM HL HA HQ Hg]
      · isplitl [HM HL HA HQ]
        · isplitl [HM]
          · unfold owns; iexists _; isplitr
            swap; · iexact HM
            ipureintro; exact View.read_writes_of_cover _ _ _ _ _ (cov_sM_C c _ _ _ _ _ _ _ _ _ _ _ _ _ _ _ _ _ _ _ _ _ _ _ _ _ _ _ _ _)
          isplitl [HL]
          · unfold owns; iexists _; isplitr
            swap; · iexact HL
            ipureintro; exact View.read_writes_of_cover _ _ _ _ _ (cov_sL_C c _ _ _ _ _ _ _ _ _ _ _ _ _ _ _ _ _ _ _ _ _ _ _ _ _ _ _ _ _)
          isplitl [HA]
          · unfold owns; iexists _; isplitr
            swap; · iexact HA
            ipureintro; exact View.read_writes_of_cover _ _ _ _ _ (cov_sA_C c _ _ _ _ _ _ _ _ _ _ _ _ _ _ _ _ _ _ _ _ _ _ _ _ _ _ _ _ _)
          iexact HQ
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cov_o4_C c _ _ _ _ _ _ _ _ _ _ _ _ _ _ _ _ _ _ _ _ _ _ _ _ _ _ _ _ _)
    · -- a middle key tile
      rw [show (dats m 0 c).leavesExact 0 t = owns (c : Thread nD τ) (ms0 t) fullShare ((dats m 0 c).after 0 t) from by
        unfold Dat.leavesExact; rw [liveAt0_0 t], after0_0]
      rw [show (dats m 0 c).leavesExact 1 t = owns (c : Thread nD τ) (ms1 t) fullShare ((dats m 0 c).after 1 t) from by
        unfold Dat.leavesExact; rw [liveAt0_1 t], after0_1]
      rw [show (dats m 0 c).leavesExact 2 t = owns (c : Thread nD τ) (ms2 t) fullShare ((dats m 0 c).after 2 t) from by
        unfold Dat.leavesExact; rw [liveAt0_2 t], after0_2]
      rw [show (dats m 0 c).leavesExact 3 t = owns (c : Thread nD τ) (ms3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold scratchAt stB sM_B sL_B sA_B; (try dsimp only)
      have hz : t.val ≠ 0 := by omega
      rw [PhiS_castSucc m c t, PhiS_pos m c _ _ hz]; unfold scratchAt
      iintro ⟨⟨⟨HM, HL, HA, HQ⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2 _ Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      isplitl [HQ]; · iexact HQ
      iintro ⟨H0, H1, H2, H3, H4, ⟨%eM, HM⟩, ⟨%eL, HL⟩, ⟨%eA, HA⟩, HQ⟩
      isplitl [HM HL HA HQ Hg]
      · isplitl [HM HL HA HQ]
        · isplitl [HM]
          · unfold owns; iexists _; isplitr
            swap; · iexact HM
            ipureintro; exact View.read_writes_of_cover _ _ _ _ _ (cov_sM_B c _ _ _ _ _ _ _ _ _ _ _ _ _ _ _ _ _ _ _ _ _ _ _ _ _ _ _ _ _)
          isplitl [HL]
          · unfold owns; iexists _; isplitr
            swap; · iexact HL
            ipureintro; exact View.read_writes_of_cover _ _ _ _ _ (cov_sL_B c _ _ _ _ _ _ _ _ _ _ _ _ _ _ _ _ _ _ _ _ _ _ _ _ _ _ _ _ _)
          isplitl [HA]
          · unfold owns; iexists _; isplitr
            swap; · iexact HA
            ipureintro; exact View.read_writes_of_cover _ _ _ _ _ (cov_sA_B c _ _ _ _ _ _ _ _ _ _ _ _ _ _ _ _ _ _ _ _ _ _ _ _ _ _ _ _ _)
          iexact HQ
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold scratchAt
  iintro ⟨⟨HM, HL, HA, HQ⟩, Hg⟩
  isplitr [Hg]
  · isplitl [HM]; · iexists _; iexact HM
    isplitl [HL]; · iexists _; iexact HL
    isplitl [HA]; · iexists _; iexact HA
    iexists _; iexact HQ
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KShare.lean ====
/-
  Two windows on one array.  The key-tile windows and the query-tile windows read the same two arrays P and Q, so the
  pipeline holds P's buffer in two halves (one per window) and Q's likewise, and the output array whole.  Here: the
  five per-window holdings, at contents that are one valuation read at each window's array, are exactly the three
  distinct buffers held whole at that valuation — in both directions.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays behind the windows, without repetition. -/
theorem arrRefs_eq : Finset.univ.image (Pipeline.arrRef spec0) = [main_v0, main_v1, main_v2].toFinset := by decide

/-- The pipeline's holdings, window by window, are the three buffers whole. -/
theorem arrays_iff (c : Dev nD) (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    ((dats m 0 c).arrays G : sProp 𝕄) ⊣⊢ Pipeline.arrBufs spec0 c W := by
  have hG' : G = fun w => W (Pipeline.arrRef spec0 w) := funext hG
  subst hG'
  have e1 : ((dats m 0 c).arrays (fun w => W (Pipeline.arrRef spec0 w)) : sProp 𝕄)
      = iprop((((c.tc : Thread nD τ).loc main_v0) ↦{fullShare.left} W main_v0) ∗ (((c.tc : Thread nD τ).loc main_v1) ↦{fullShare.left} W main_v1)
          ∗ (((c.tc : Thread nD τ).loc main_v0) ↦{fullShare.right} W main_v0) ∗ (((c.tc : Thread nD τ).loc main_v1) ↦{fullShare.right} W main_v1)
          ∗ (((c.tc : Thread nD τ).loc main_v2) ↦{fullShare} W main_v2)) := by
    unfold Dat.arrays
    rw [bigSep_W0]
    simp only [(arr_whole0 0).set_eq_univ, (arr_whole0 1).set_eq_univ, (arr_whole0 2).set_eq_univ, (arr_whole0 3).set_eq_univ, (arr_whole0 4).set_eq_univ]
    rfl
  have e2 : (Pipeline.arrBufs spec0 c W : sProp 𝕄)
      = iprop((((c.tc : Thread nD τ).loc main_v0) ↦{fullShare} W main_v0) ∗ (((c.tc : Thread nD τ).loc main_v1) ↦{fullShare} W main_v1)
          ∗ (((c.tc : Thread nD τ).loc main_v2) ↦{fullShare} W main_v2)) := by
    unfold Pipeline.arrBufs
    rw [bigSep_eq_bigSepL_of_eq [main_v0, main_v1, main_v2] arrRefs_eq (by decide)]
    rfl
  rw [e1, e2]
  constructor
  · iintro ⟨H0, H1, H2, H3, H4⟩
    isplitl [H0 H2]
    · iapply (pointsTo_share (PosShare.mem_left_op_right fullShare)).2
      isplitl [H0] <;> iassumption
    isplitl [H1 H3]
    · iapply (pointsTo_share (PosShare.mem_left_op_right fullShare)).2
      isplitl [H1] <;> iassumption
    iexact H4
  · iintro ⟨HP, HQ, HO⟩
    ihave HP := (pointsTo_share (PosShare.mem_left_op_right fullShare)).1 $$ HP
    ihave HQ := (pointsTo_share (PosShare.mem_left_op_right fullShare)).1 $$ HQ
    icases HP with ⟨HP1, HP2⟩
    icases HQ with ⟨HQ1, HQ2⟩
    isplitl [HP1]; · iexact HP1
    isplitl [HQ1]; · iexact HQ1
    isplitl [HP2]; · iexact HP2
    isplitl [HQ2]; · iexact HQ2
    iexact HO

end Cert.KernelIdeal.Hand

end
-- ==== Proof.KTail.lean ====
/-
  The attention kernel's launch, part four: the run of @main.  The two reshapes, the region — 128 grid points, each
  the body obligation — and the batch-norm tail, which runs holding every unscoped buffer: the three arrays of the
  pipeline put back together from the windows' holdings, and everything that bypassed the region.  The final memory has
  the pipeline's output array at what the write-backs left and every other unscoped buffer at what the tail computes
  from that.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KBody
import proofs.«143733_j15865609191815_2_alg».proof.Proof.KShare
import proofs.«143733_j15865609191815_2_alg».proof.Proof.LibStraightLine
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (unscopedRest unscopedRestP arrBufs ucRefs restRefsP Prefetch)

/-- The buffers' contents when the region is left: the output array at what the write-backs made of it, everything
    else as the region found it. -/
def Wexit (c : Dev nD) : Valuation τ sig (Elt F) :=
  Function.update (V0 m c) (Proc.devRef .tc main_v2) ((dats m 0 c).arrAt 4 cfg0.N)

/-- The buffers' contents after the tail. -/
def Wfin (c : Dev nD) (b : Ref sig .tc) : Buf (Elt F) ((c.tc : Thread nD τ).loc b) :=
  StableHlo.after (tailOps (F := F)).flatten (Wexit m c) (Proc.devRef .tc b)

/-- At the region's exit each window's array holds what the exit contents say. -/
theorem arrAt_exit (c : Dev nD) (w : Fin cfg0.W) :
    (dats m 0 c).arrAt w cfg0.N = Wexit m c (Proc.devRef .tc (Pipeline.arrRef spec0 w)) := by
  unfold Wexit
  match w with
  | ⟨0, h⟩ =>
    have hne : Proc.devRef (τ := τ) (sig := sig) .tc main_v0 ≠ Proc.devRef .tc main_v2 := by decide
    exact ((dats m 0 c).arrAt_in ⟨0, h⟩ rfl _).trans ((A_eq m c _).trans (Function.update_of_ne hne _ _).symm)
  | ⟨1, h⟩ =>
    have hne : Proc.devRef (τ := τ) (sig := sig) .tc main_v1 ≠ Proc.devRef .tc main_v2 := by decide
    exact ((dats m 0 c).arrAt_in ⟨1, h⟩ rfl _).trans ((A_eq m c _).trans (Function.update_of_ne hne _ _).symm)
  | ⟨2, h⟩ =>
    have hne : Proc.devRef (τ := τ) (sig := sig) .tc main_v0 ≠ Proc.devRef .tc main_v2 := by decide
    exact ((dats m 0 c).arrAt_in ⟨2, h⟩ rfl _).trans ((A_eq m c _).trans (Function.update_of_ne hne _ _).symm)
  | ⟨3, h⟩ =>
    have hne : Proc.devRef (τ := τ) (sig := sig) .tc main_v1 ≠ Proc.devRef .tc main_v2 := by decide
    exact ((dats m 0 c).arrAt_in ⟨3, h⟩ rfl _).trans ((A_eq m c _).trans (Function.update_of_ne hne _ _).symm)
  | ⟨4, h⟩ => exact (Function.update_self (Proc.devRef .tc main_v2) ((dats m 0 c).arrAt ⟨4, h⟩ cfg0.N) (V0 m c)).symm

theorem tailOps_sub : ∀ ops ∈ (tailOps : List (List (HloOp τ sig (Elt F)))), ∀ op ∈ ops, op.bufs ⊆ ucRefs τ sig := by
  intro ops hops op hop
  simp only [tailOps, List.mem_cons, List.mem_nil_iff, _root_.or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tailOps_fresh : ∀ ops ∈ (tailOps : List (List (HloOp τ sig (Elt F)))), ∀ op ∈ ops, op.fresh = ∅ := by
  intro ops hops op hop
  simp only [tailOps, List.mem_cons, List.mem_nil_iff, _root_.or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

open Idealize.ShloMosaic.StableHlo.StraightLine (WritesAre after_kept)

/-- The buffers the tail's operations write, in order: one each, all different. -/
def tailOuts : List (Ref sig .tc) :=
  [main_v3, main_v4, main_v5, main_v6, main_cst, main_v7, main_v8, main_cst_0, main_v9, main_v10, main_c,
   main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_v12, main_call0_cst_3, main_call0_v13, main_call0_cst_4, main_call0_call0_v0, main_call0_call0_v1, main_v11,
   main_v12, main_v13, main_cst_1, main_v14, main_v15, main_v16, main_v17, main_v18, main_v19, main_v20, main_v21, main_v22,
   main_v23, main_v24, main_call1_cst, main_call1_v0, main_v25, main_v26]

theorem tail_writes : WritesAre (τ := τ) ((tailOps (F := F)).flatten) tailOuts := by
  unfold WritesAre tailOuts tailOps
  simp only [List.flatten_cons, List.flatten_nil, List.cons_append, List.nil_append, List.append_nil, hostOps1, hostOps1_1, hostOps1_2, hostOps1_3, hostOps1_4]
  repeat' constructor

/-- The two reshapes write the two stacks. -/
theorem head_writes : WritesAre (τ := τ) (List.flatten [(hostOps0 : List (HloOp τ sig (Elt F)))]) [main_v0, main_v1] := by
  unfold WritesAre
  simp only [List.flatten_cons, List.flatten_nil, List.append_nil, hostOps0]
  repeat' constructor

end Cert.KernelIdeal.Hand

end
-- ==== Proof.KLaunch.lean ====
/-
  The attention kernel's launch, part five: the tail run from the region's exit, and the run of all of @main.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (unscopedRest unscopedRestP arrBufs ucRefs restRefsP Prefetch)
open Idealize.ShloMosaic.StableHlo.StraightLine (WritesAre after_kept)

/-- No operation of the tail writes an array of the pipeline: after the tail each holds what it held at the exit. -/
theorem arrAt_fin (c : Dev nD) (w : Fin cfg0.W) :
    (dats m 0 c).arrAt w cfg0.N = Wfin m c (Pipeline.arrRef spec0 w) := by
  rw [arrAt_exit]; unfold Wfin
  refine (after_kept tail_writes ?_ _).symm
  fin_cases w <;> decide

set_option maxHeartbeats 4000000 in
set_option backward.isDefEq.respectTransparency.types false in
/-- THE TAIL, from the region's exit: holding the boundary, the windows' holdings of the three arrays and everything that
    bypassed the region, the tail's operations run and hand back the windows' holdings and the rest at what they computed. -/
theorem tail_run (c : Dev nD) (Q' : PUnit → sProp 𝕄) :
    iprop((iprop((dats m 0 c).arrays ((dats m 0 c).arrAt · cfg0.N)
            ∗ unscopedRestP (Ix := Unit) (Name := ℕ) (U := UR sig nD τ) (Lvl := ℕ) Prefetch.none spec0 c (Wfin m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Prefetch.none spec0 c (V m c))
      ⊢ wp frame (wpE (defs (F := F)) (Variants.lift Variants.none) (c.tc : Thread nD τ) none) Set.univ
          (Pipeline.chain ((tailOps (F := F)).map StableHlo.seq)) Q' := by
  classical
  have hA := arrays_iff m c (fun b => Wexit m c (Proc.devRef .tc b)) ((dats m 0 c).arrAt · cfg0.N) (fun w => arrAt_exit m c w)
  have hA' := arrays_iff m c (Wfin m c) ((dats m 0 c).arrAt · cfg0.N) (fun w => arrAt_fin m c w)
  have hR : (unscopedRestP (Ix := Unit) (Name := ℕ) (U := UR sig nD τ) (Lvl := ℕ) Prefetch.none spec0 c (V m c) : sProp 𝕄)
      = unscopedRest spec0 c (fun b => Wexit m c (Proc.devRef .tc b)) := by
    rw [Pipeline.unscopedRestP_none]; unfold unscopedRest
    exact bigSep_congr fun b hb => by
      have hne : b ≠ main_v2 := fun e => (Finset.mem_sdiff.mp hb).2 (e ▸ (by decide : main_v2 ∈ Finset.univ.image (Pipeline.arrRef spec0)))
      unfold Wexit V
      exact congrArg (fun f => (((c.tc : Thread nD τ).loc b) ↦{fullShare} f : sProp 𝕄)) (Function.update_of_ne (fun e => hne (Proc.devRef_injective _ e)) _ _).symm
  have hW : (StableHlo.held (c.tc : Thread nD τ) (ucRefs τ sig) (Wexit m c) : sProp 𝕄)
      = iprop(arrBufs spec0 c (fun b => Wexit m c (Proc.devRef .tc b)) ∗ unscopedRest spec0 c (fun b => Wexit m c (Proc.devRef .tc b))) := by
    rw [← Pipeline.unscopedBufs_held (Ix := Unit) (Name := ℕ) (U := UR sig nD τ) (Lvl := ℕ) c (Wexit m c), Pipeline.unscopedBufs_split₀ cfgs 0 winFacts₀0.arr_unscoped]
  have hW' : (StableHlo.held (c.tc : Thread nD τ) (ucRefs τ sig) (StableHlo.after (tailOps (F := F)).flatten (Wexit m c)) : sProp 𝕄)
      = iprop(arrBufs spec0 c (Wfin m c) ∗ unscopedRest spec0 c (Wfin m c)) := by
    rw [← Pipeline.unscopedBufs_held (Ix := Unit) (Name := ℕ) (U := UR sig nD τ) (Lvl := ℕ) c (StableHlo.after (tailOps (F := F)).flatten (Wexit m c)), Pipeline.unscopedBufs_split₀ cfgs 0 winFacts₀0.arr_unscoped]
    rfl
  have step1 : iprop(boundary (c.tc : Thread nD τ) ∗ (dats m 0 c).arrays ((dats m 0 c).arrAt · cfg0.N)
        ∗ unscopedRestP (Ix := Unit) (Name := ℕ) (U := UR sig nD τ) (Lvl := ℕ) Prefetch.none spec0 c (V m c))
      ⊢ iprop(boundary (c.tc : Thread nD τ) ∗ (StableHlo.held (c.tc : Thread nD τ) (ucRefs τ sig) (Wexit m c) : sProp 𝕄)) := by
    rw [hR, hW]
    iintro ⟨Hb, Ha, Hr⟩
    isplitl [Hb]; · iexact Hb
    isplitl [Ha]
    · iapply hA.1; iexact Ha
    iexact Hr
  rw [← List.append_nil ((tailOps (F := F)).map StableHlo.seq)]
  iintro ⟨Hk, Hrest⟩
  ihave Hb := step1 $$ Hrest
  iapply (Pipeline.wp_seqs_then (fun q => (cfgs q).toPCfg (Val := Elt F)) defs₀ Variants.none c (ucRefs τ sig) [] tailOps tailOps_sub tailOps_fresh (Wexit m c)) $$ Hb
  iintro Hb
  rw [Pipeline.chain_nil, wp_pure, hW']
  imodintro
  iapply Hk
  icases Hb with ⟨-, Ha, Hr⟩
  isplitl [Ha]
  · iapply hA'.2; iexact Ha
  rw [Pipeline.unscopedRestP_none]; iexact Hr

/-- What the run of @main ends with: each window's array at what the write-backs left, every other unscoped buffer at
    what the tail computed. -/
def Post : PUnit × MemSt nD τ sig (Elt F) → Prop := fun r => ∀ c : Dev nD,
  (∀ w, r.2.mem (((cfg0).spec w).arr.view.loc (c.tc : Thread nD τ)) = (dats m 0 c).arrAt w cfg0.N)
    ∧ ∀ b ∈ restRefsP sig Prefetch.none spec0, r.2.mem ((c.tc : Thread nD τ).loc b) = Wfin m c b

set_option maxHeartbeats 8000000 in
set_option backward.isDefEq.respectTransparency.types false in
/-- THE RUN: from any memory with zero counters every weakly fair execution of @main terminates, nothing faulting, in
    a state as above. -/
theorem run_main : θ_run (defs (F := F)) (onTc (τ := τ) (main (F := F))) ⟨m, fun _ => 0, ρ⟩ (Post m) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain ((tailOps (F := F)).map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c) _ (fun w => A_eq m c w)).2)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (Wfin m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ restRefsP sig Prefetch.none spec0, s.mem ((c.tc : Thread nD τ).loc b) = Wfin m c b)
    (hY := fun c s' => by
      iintro ⟨-, HU, HSI⟩
      unfold unscopedRestP
      imodintro
      iapply (pointsTo_read_all (restRefsP sig Prefetch.none spec0) (fun b => (c.tc : Thread nD τ).loc b) (Wfin m c) s')
      isplitl [HU] <;> iassumption)
    (hQ := fun s h c => ⟨(h c).1, (h c).2.2⟩)

end Cert.KernelIdeal.Hand

end
-- ==== Proof.KFrame.lean ====
/-
  The attention kernel's launch, part six: what the run says of the argument arrays and of the result.  No operation
  of @main writes an argument, so each ends as it began; the result buffer ends at what the tail computes from the
  pipeline's output array.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KLaunch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (restRefsP Prefetch)
open Idealize.ShloMosaic.StableHlo.StraightLine (WritesAre after_kept)

/-- A buffer that neither the reshapes nor the region nor the tail writes ends as it began. -/
theorem Wfin_arg (c : Dev nD) (b : Ref sig .tc) (h1 : b ∉ tailOuts) (h2 : b ≠ main_v2) (h3 : b ∉ [main_v0, main_v1]) :
    Wfin m c b = m ((c.tc : Thread nD τ).loc b) := by
  unfold Wfin
  rw [after_kept tail_writes h1]
  unfold Wexit
  rw [Function.update_of_ne (fun e => h2 (Proc.devRef_injective _ e))]
  exact after_kept head_writes h3 _

/-- THE FRAME: @main runs, faults nowhere, and leaves its five arguments as they were. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun r h c => ⟨((h c).2 main_arg0 (by decide)).trans (Wfin_arg m c main_arg0 (by decide) (by decide) (by decide)),
    ((h c).2 main_arg1 (by decide)).trans (Wfin_arg m c main_arg1 (by decide) (by decide) (by decide)),
    ((h c).2 main_arg2 (by decide)).trans (Wfin_arg m c main_arg2 (by decide) (by decide) (by decide)),
    ((h c).2 main_arg3 (by decide)).trans (Wfin_arg m c main_arg3 (by decide) (by decide) (by decide)),
    ((h c).2 main_arg4 (by decide)).trans (Wfin_arg m c main_arg4 (by decide) (by decide) (by decide))⟩) (run_main m ρ)

/-- The run with the result named: the result buffer at what the tail computes, the arguments as they were. -/
theorem run_result : θ_run (defs (F := F)) (onTc (τ := τ) (main (F := F))) ⟨m, fun _ => 0, ρ⟩ (fun r => ∀ c : Dev nD,
      r.2.mem ((c.tc : Thread nD τ).loc main_v26) = Wfin m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun r h c => ⟨(h c).2 main_v26 (by decide), ((h c).2 main_arg0 (by decide)).trans (Wfin_arg m c main_arg0 (by decide) (by decide) (by decide)),
    ((h c).2 main_arg1 (by decide)).trans (Wfin_arg m c main_arg1 (by decide) (by decide) (by decide)),
    ((h c).2 main_arg2 (by decide)).trans (Wfin_arg m c main_arg2 (by decide) (by decide) (by decide)),
    ((h c).2 main_arg3 (by decide)).trans (Wfin_arg m c main_arg3 (by decide) (by decide) (by decide)),
    ((h c).2 main_arg4 (by decide)).trans (Wfin_arg m c main_arg4 (by decide) (by decide) (by decide))⟩) (run_main m ρ)

end Cert.KernelIdeal.Hand

end
-- ==== Proof.KRead.lean ====
/-
  What each case of the body leaves in each buffer, as the body's arithmetic: the pieces the runs found, read back.
  At the first key tile of a row the running maximum, sum and accumulator are the middle tile's formulas applied to the
  reset values −∞, 0, 0 and the freshly assembled query operand; at the last the output tile is the new accumulator
  divided by the new running sum.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KData
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem sM_B_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) :
    sM_B c i arg3 harg3 arg4 harg4 arg5 harg5 arg6 harg6 arg7 harg7 arg8 harg8 arg9 harg9 arg10 harg10 arg11 harg11 hc0 hc1 x0 x1 x2 x3 xsM xsL xsA xsQ = k0_pay2 (k0_pay10 x2 x3 xsQ xsM) := by
  unfold sM_B
  rw [View.read_writes_eq_canon _ _ _ (cov_sM_B c i arg3 harg3 arg4 harg4 arg5 harg5 arg6 harg6 arg7 harg7 arg8 harg8 arg9 harg9 arg10 harg10 arg11 harg11 hc0 hc1 x0 x1 x2 x3 xsM xsL xsA xsQ)]
  unfold kernelRun0_B
  dsimp only
  sl_unfold_words
  rw [View.canon_unit_zero (S := S1024x1) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem sL_B_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) :
    sL_B c i arg3 harg3 arg4 harg4 arg5 harg5 arg6 harg6 arg7 harg7 arg8 harg8 arg9 harg9 arg10 harg10 arg11 harg11 hc0 hc1 x0 x1 x2 x3 xsM xsL xsA xsQ = k0_pay13 x2 x3 xsQ xsM xsL := by
  unfold sL_B
  rw [View.read_writes_eq_canon _ _ _ (cov_sL_B c i arg3 harg3 arg4 harg4 arg5 harg5 arg6 harg6 arg7 harg7 arg8 harg8 arg9 harg9 arg10 harg10 arg11 harg11 hc0 hc1 x0 x1 x2 x3 xsM xsL xsA xsQ)]
  unfold kernelRun0_B
  dsimp only
  sl_unfold_words
  rw [View.canon_unit_zero (S := S1024x1) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem sA_B_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : ¬cond0_1 i) (x0 x1 : Vec F S1x128x1024 .f32) (x2 x3 : Vec F S1x128x512 .f32) (xsM xsL : Vec F S1024x1 .f32) (xsA : Vec F S128x1024 .f32) (xsQ : Vec F S256x1024 .bf16) :
    sA_B c i arg3 harg3 arg4 harg4 arg5 harg5 arg6 harg6 arg7 harg7 arg8 harg8 arg9 harg9 arg10 harg10 arg11 harg11 hc0 hc1 x0 x1 x2 x3 xsM xsL xsA xsQ = k0_pay1 (k0_pay14 x2 x3 xsQ xsM) (k0_pay15 x2 x3 xsQ xsM) xsA := by
  unfold sA_B
  rw [View.read_writes_eq_canon _ _ _ (cov_sA_B c i arg3 harg3 arg4 harg4 arg5 harg5 arg6 harg6 arg7 harg7 arg8 harg8 arg9 harg9 arg10 harg10 arg11 harg11 hc0 hc1 x0 x1 x2 x3 xsM xsL xsA xsQ)]
  unfold kernelRun0_B
  dsimp only
  sl_unfold_words
  rw [View.canon_unit_zero (S := S128x1024) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem sM_C_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) :
    sM_C c i arg3 harg3 arg4 harg4 arg5 harg5 arg6 harg6 arg7 harg7 arg8 harg8 arg9 harg9 arg10 harg10 arg11 harg11 hc0 hc1 x0 x1 x2 x3 xsM xsL xsA xsQ = k0_pay2 (k0_pay10 x2 x3 xsQ xsM) := by
  unfold sM_C
  rw [View.read_writes_eq_canon _ _ _ (cov_sM_C c i arg3 harg3 arg4 harg4 arg5 harg5 arg6 harg6 arg7 harg7 arg8 harg8 arg9 harg9 arg10 harg10 arg11 harg11 hc0 hc1 x0 x1 x2 x3 xsM xsL xsA xsQ)]
  unfold kernelRun0_C
  dsimp only
  sl_unfold_words
  rw [View.canon_unit_zero (S := S1024x1) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem sL_C_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) :
    sL_C c i arg3 harg3 arg4 harg4 arg5 harg5 arg6 harg6 arg7 harg7 arg8 harg8 arg9 harg9 arg10 harg10 arg11 harg11 hc0 hc1 x0 x1 x2 x3 xsM xsL xsA xsQ = k0_pay13 x2 x3 xsQ xsM xsL := by
  unfold sL_C
  rw [View.read_writes_eq_canon _ _ _ (cov_sL_C c i arg3 harg3 arg4 harg4 arg5 harg5 arg6 harg6 arg7 harg7 arg8 harg8 arg9 harg9 arg10 harg10 arg11 harg11 hc0 hc1 x0 x1 x2 x3 xsM xsL xsA xsQ)]
  unfold kernelRun0_C
  dsimp only
  sl_unfold_words
  rw [View.canon_unit_zero (S := S1024x1) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem sA_C_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) :
    sA_C c i arg3 harg3 arg4 harg4 arg5 harg5 arg6 harg6 arg7 harg7 arg8 harg8 arg9 harg9 arg10 harg10 arg11 harg11 hc0 hc1 x0 x1 x2 x3 xsM xsL xsA xsQ = k0_pay1 (k0_pay14 x2 x3 xsQ xsM) (k0_pay15 x2 x3 xsQ xsM) xsA := by
  unfold sA_C
  rw [View.read_writes_eq_canon _ _ _ (cov_sA_C c i arg3 harg3 arg4 harg4 arg5 harg5 arg6 harg6 arg7 harg7 arg8 harg8 arg9 harg9 arg10 harg10 arg11 harg11 hc0 hc1 x0 x1 x2 x3 xsM xsL xsA xsQ)]
  unfold kernelRun0_C
  dsimp only
  sl_unfold_words
  rw [View.canon_unit_zero (S := S128x1024) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem o4_C_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : ¬cond0_0 i) (hc1 : cond0_1 i) (x0 x1 : Vec F S1x128x1024 .f32) (x2 x3 : Vec F S1x128x512 .f32) (xsM xsL : Vec F S1024x1 .f32) (xsA : Vec F S128x1024 .f32) (xsQ : Vec F S256x1024 .bf16) :
    o4_C c i arg3 harg3 arg4 harg4 arg5 harg5 arg6 harg6 arg7 harg7 arg8 harg8 arg9 harg9 arg10 harg10 arg11 harg11 hc0 hc1 x0 x1 x2 x3 xsM xsL xsA xsQ = k0_pay3 (k0_pay13 x2 x3 xsQ xsM xsL) (k0_pay1 (k0_pay14 x2 x3 xsQ xsM) (k0_pay15 x2 x3 xsQ xsM) xsA) := by
  unfold o4_C
  rw [View.read_writes_eq_canon _ _ _ (cov_o4_C c i arg3 harg3 arg4 harg4 arg5 harg5 arg6 harg6 arg7 harg7 arg8 harg8 arg9 harg9 arg10 harg10 arg11 harg11 hc0 hc1 x0 x1 x2 x3 xsM xsL xsA xsQ)]
  unfold kernelRun0_C
  dsimp only
  sl_unfold_words
  rw [View.canon_unit_zero (S := S1x128x1024) hz3]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem sQ_A_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  :
    sQ_A c i arg3 harg3 arg4 harg4 arg5 harg5 arg6 harg6 arg7 harg7 arg8 harg8 arg9 harg9 arg10 harg10 arg11 harg11 hc0 hc1 x0 x1 x2 x3  = k0_pay7 x1 x0 := by
  unfold sQ_A
  rw [View.read_writes_eq_canon _ _ _ (cov_sQ_A c i arg3 harg3 arg4 harg4 arg5 harg5 arg6 harg6 arg7 harg7 arg8 harg8 arg9 harg9 arg10 harg10 arg11 harg11 hc0 hc1 x0 x1 x2 x3 )]
  unfold kernelRun0_A
  dsimp only
  sl_unfold_words
  rw [View.canon_unit_zero (S := S256x1024) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem sM_A_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  :
    sM_A c i arg3 harg3 arg4 harg4 arg5 harg5 arg6 harg6 arg7 harg7 arg8 harg8 arg9 harg9 arg10 harg10 arg11 harg11 hc0 hc1 x0 x1 x2 x3  = k0_pay2 (k0_pay10 x2 x3 (k0_pay7 x1 x0) (k0_pay4 (F := F))) := by
  unfold sM_A
  rw [View.read_writes_eq_canon _ _ _ (cov_sM_A c i arg3 harg3 arg4 harg4 arg5 harg5 arg6 harg6 arg7 harg7 arg8 harg8 arg9 harg9 arg10 harg10 arg11 harg11 hc0 hc1 x0 x1 x2 x3 )]
  unfold kernelRun0_A
  dsimp only
  sl_unfold_words
  rw [View.canon_cons_unit_zero (S := S1024x1) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem sL_A_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  :
    sL_A c i arg3 harg3 arg4 harg4 arg5 harg5 arg6 harg6 arg7 harg7 arg8 harg8 arg9 harg9 arg10 harg10 arg11 harg11 hc0 hc1 x0 x1 x2 x3  = k0_pay13 x2 x3 (k0_pay7 x1 x0) (k0_pay4 (F := F)) (k0_pay5 (F := F)) := by
  unfold sL_A
  rw [View.read_writes_eq_canon _ _ _ (cov_sL_A c i arg3 harg3 arg4 harg4 arg5 harg5 arg6 harg6 arg7 harg7 arg8 harg8 arg9 harg9 arg10 harg10 arg11 harg11 hc0 hc1 x0 x1 x2 x3 )]
  unfold kernelRun0_A
  dsimp only
  sl_unfold_words
  rw [View.canon_cons_unit_zero (S := S1024x1) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

theorem sA_A_eq (c : Dev nD) (i : grid0.Coords) (arg3 : Memref sig .tc .vmem S1x128x1024 .f32) (harg3 : arg3.IsWhole) (arg4 : Memref sig .tc .vmem S1x128x1024 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S128x1024 .f32) (harg10 : arg10.IsWhole) (arg11 : Memref sig .tc .vmem S256x1024 .bf16) (harg11 : arg11.IsWhole) (hc0 : cond0_0 i) (hc1 : ¬cond0_1 i) (x0 x1 : Vec F S1x128x1024 .f32) (x2 x3 : Vec F S1x128x512 .f32)  :
    sA_A c i arg3 harg3 arg4 harg4 arg5 harg5 arg6 harg6 arg7 harg7 arg8 harg8 arg9 harg9 arg10 harg10 arg11 harg11 hc0 hc1 x0 x1 x2 x3  = k0_pay1 (k0_pay14 x2 x3 (k0_pay7 x1 x0) (k0_pay4 (F := F))) (k0_pay15 x2 x3 (k0_pay7 x1 x0) (k0_pay4 (F := F))) (k0_pay6 (F := F)) := by
  unfold sA_A
  rw [View.read_writes_eq_canon _ _ _ (cov_sA_A c i arg3 harg3 arg4 harg4 arg5 harg5 arg6 harg6 arg7 harg7 arg8 harg8 arg9 harg9 arg10 harg10 arg11 harg11 hc0 hc1 x0 x1 x2 x3 )]
  unfold kernelRun0_A
  dsimp only
  sl_unfold_words
  rw [View.canon_cons_unit_zero (S := S128x1024) hz2]
  simp only [View.readAt_eq_ld, harg3.read_unread, harg4.read_unread, harg5.read_unread, harg6.read_unread, harg7.read_unread,
    harg8.read_unread, harg9.read_unread, harg10.read_unread, harg11.read_unread,
    View.ld_unit_zero (S := S1x128x1024) hz3, View.ld_unit_zero (S := S1x128x512) hz3, View.ld_unit_zero (S := S1024x1) hz2,
    View.ld_unit_zero (S := S128x1024) hz2, View.ld_unit_zero (S := S256x1024) hz2,
    View.readCov_unit_zero (S := S1024x1) _ hz2, View.readCov_unit_zero (S := S128x1024) _ hz2, View.readCov_unit_zero (S := S256x1024) _ hz2]

end Cert.KernelIdeal.Hand

end
-- ==== Proof.KBlocks.lean ====
/-
  The windows' blocks, entry by entry.  A grid point t is (b, qi, ki) = (t / 32, t / 8 mod 4, t mod 8).  The query-tile
  windows read positions qi·1024 + n of batch b, the key-tile windows positions ki·512 + j, the output window writes
  positions qi·1024 + n.
-/
import proofs.«143733_j15865609191815_2_alg».proof.Proof.Gen.KernelIdeal.Launch
import proofs.«143733_j15865609191815_2_alg».proof.Proof.Gen.KernelIdeal.Skeleton
import proofs.«143733_j15865609191815_2_alg».proof.Proof.Gen.KernelIdeal.Points
import proofs.«143733_j15865609191815_2_alg».proof.Proof.KData
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps in closed form, decided over the grid. -/
theorem idx_facts : ∀ t : Fin cfg0.N,
    win0_0.index t (0 : Fin 3) = t.val / 32 ∧ win0_0.index t (1 : Fin 3) = 0 ∧ win0_0.index t (2 : Fin 3) = t.val / 8 % 4
    ∧ win0_1.index t (0 : Fin 3) = t.val / 32 ∧ win0_1.index t (1 : Fin 3) = 0 ∧ win0_1.index t (2 : Fin 3) = t.val / 8 % 4
    ∧ win0_2.index t (0 : Fin 3) = t.val / 32 ∧ win0_2.index t (1 : Fin 3) = 0 ∧ win0_2.index t (2 : Fin 3) = t.val % 8
    ∧ win0_3.index t (0 : Fin 3) = t.val / 32 ∧ win0_3.index t (1 : Fin 3) = 0 ∧ win0_3.index t (2 : Fin 3) = t.val % 8
    ∧ win0_4.index t (0 : Fin 3) = t.val / 32 ∧ win0_4.index t (1 : Fin 3) = 0 ∧ win0_4.index t (2 : Fin 3) = t.val / 8 % 4 :=
  (by decide +kernel : ∀ t : Fin grid0.N, _)

/-- Window 0's block at point t, entry (channel cc, position j): the query tile of P. -/
theorem iblk0_apply (c : Dev nD) (t : Fin cfg0.N) (cc : Fin 128) (j : Fin 1024)
    (hb : t.val / 32 < 4) (hp : (t.val / 8 % 4) * 1024 + j.val < 4096) :
    iblk m c 0 t (ix3 (0 : Fin 1) cc j) = V m c main_v0 (ix3 ⟨t.val / 32, hb⟩ cc ⟨(t.val / 8 % 4) * 1024 + j.val, hp⟩) := by
  obtain ⟨e00, e01, e02, e10, e11, e12, e20, e21, e22, e30, e31, e32, e40, e41, e42⟩ := idx_facts t
  show V m c main_v0 (((cfg0.win 0).blk t).view.emb (ix3 (0 : Fin 1) cc j)) = _
  congr 1
  funext a; apply Fin.ext
  match a with
  | ⟨0, _⟩ => show win0_0.index t (0 : Fin 3) * 1 + 1 * 0 = t.val / 32; omega
  | ⟨1, _⟩ => show win0_0.index t (1 : Fin 3) * 128 + 1 * cc.val = cc.val; omega
  | ⟨2, _⟩ => show win0_0.index t (2 : Fin 3) * 1024 + 1 * j.val = (t.val / 8 % 4) * 1024 + j.val; omega

/-- Window 1's block at point t, entry (channel cc, position j): the query tile of Q. -/
theorem iblk1_apply (c : Dev nD) (t : Fin cfg0.N) (cc : Fin 128) (j : Fin 1024)
    (hb : t.val / 32 < 4) (hp : (t.val / 8 % 4) * 1024 + j.val < 4096) :
    iblk m c 1 t (ix3 (0 : Fin 1) cc j) = V m c main_v1 (ix3 ⟨t.val / 32, hb⟩ cc ⟨(t.val / 8 % 4) * 1024 + j.val, hp⟩) := by
  obtain ⟨e00, e01, e02, e10, e11, e12, e20, e21, e22, e30, e31, e32, e40, e41, e42⟩ := idx_facts t
  show V m c main_v1 (((cfg0.win 1).blk t).view.emb (ix3 (0 : Fin 1) cc j)) = _
  congr 1
  funext a; apply Fin.ext
  match a with
  | ⟨0, _⟩ => show win0_1.index t (0 : Fin 3) * 1 + 1 * 0 = t.val / 32; omega
  | ⟨1, _⟩ => show win0_1.index t (1 : Fin 3) * 128 + 1 * cc.val = cc.val; omega
  | ⟨2, _⟩ => show win0_1.index t (2 : Fin 3) * 1024 + 1 * j.val = (t.val / 8 % 4) * 1024 + j.val; omega

/-- Window 2's block at point t, entry (channel cc, position j): the key tile of P. -/
theorem iblk2_apply (c : Dev nD) (t : Fin cfg0.N) (cc : Fin 128) (j : Fin 512)
    (hb : t.val / 32 < 4) (hp : (t.val % 8) * 512 + j.val < 4096) :
    iblk m c 2 t (ix3 (0 : Fin 1) cc j) = V m c main_v0 (ix3 ⟨t.val / 32, hb⟩ cc ⟨(t.val % 8) * 512 + j.val, hp⟩) := by
  obtain ⟨e00, e01, e02, e10, e11, e12, e20, e21, e22, e30, e31, e32, e40, e41, e42⟩ := idx_facts t
  show V m c main_v0 (((cfg0.win 2).blk t).view.emb (ix3 (0 : Fin 1) cc j)) = _
  congr 1
  funext a; apply Fin.ext
  match a with
  | ⟨0, _⟩ => show win0_2.index t (0 : Fin 3) * 1 + 1 * 0 = t.val / 32; omega
  | ⟨1, _⟩ => show win0_2.index t (1 : Fin 3) * 128 + 1 * cc.val = cc.val; omega
  | ⟨2, _⟩ => show win0_2.index t (2 : Fin 3) * 512 + 1 * j.val = (t.val % 8) * 512 + j.val; omega

/-- Window 3's block at point t, entry (channel cc, position j): the key tile of Q. -/
theorem iblk3_apply (c : Dev nD) (t : Fin cfg0.N) (cc : Fin 128) (j : Fin 512)
    (hb : t.val / 32 < 4) (hp : (t.val % 8) * 512 + j.val < 4096) :
    iblk m c 3 t (ix3 (0 : Fin 1) cc j) = V m c main_v1 (ix3 ⟨t.val / 32, hb⟩ cc ⟨(t.val % 8) * 512 + j.val, hp⟩) := by
  obtain ⟨e00, e01, e02, e10, e11, e12, e20, e21, e22, e30, e31, e32, e40, e41, e42⟩ := idx_facts t
  show V m c main_v1 (((cfg0.win 3).blk t).view.emb (ix3 (0 : Fin 1) cc j)) = _
  congr 1
  funext a; apply Fin.ext
  match a with
  | ⟨0, _⟩ => show win0_3.index t (0 : Fin 3) * 1 + 1 * 0 = t.val / 32; omega
  | ⟨1, _⟩ => show win0_3.index t (1 : Fin 3) * 128 + 1 * cc.val = cc.val; omega
  | ⟨2, _⟩ => show win0_3.index t (2 : Fin 3) * 512 + 1 * j.val = (t.val % 8) * 512 + j.val; omega

end Cert.KernelIdeal.Hand

end
-- ==== Proof.AttnSpec.lean ====
/-
  The attention this kernel and its reference both compute, as one function of two stacks of matrices.

  For a batch b, P b and Q b are 128 × 4096 matrices (a channel c, a position n).  The score of a query position n
  against a key position m is   S(n, m) = Σ_c Q(c,n)·(Q(c,m) + P(c,m)) + Σ_c P(c,n)·P(c,m),
  a row n of scores is turned into weights by a softmax taken with the row's maximum subtracted,
        w(n, m) = exp(S(n,m) − max_m' S(n,m')) / Σ_m' exp(S(n,m') − max_m'' S(n,m'')),
  and the result at channel c and position n is the weighted sum  Σ_m Q(c,m) · w(n,m)  of Q's row c.
  Everything is stated on the extended reals with the operations' meanings there (the exponential of −∞ is 0, a
  quotient is the product with the inverse off zero), so that both programs' terms can be read onto it literally.
-/
import Mathlib
import Idealize.ShloMosaic.PureOps.Ideal
import Idealize.ShloMosaic.Lib.ValueIdx

open scoped BigOperators
open Idealize.ShloMosaic

noncomputable section

namespace Cert.AttnSpec

/-- A stack of four 128 × 4096 matrices of extended reals. -/
abbrev Stack : Type := Fin 4 → Fin 128 → Fin 4096 → EReal

/-- The score of query position n against key position m in batch b. -/
def score (P Q : Stack) (b : Fin 4) (n m : Fin 4096) : EReal :=
  (∑ c : Fin 128, Q b c n * (Q b c m + P b c m)) + ∑ c : Fin 128, P b c n * P b c m

/-- The largest score of row n, taken from −∞. -/
def rowMax (P Q : Stack) (b : Fin 4) (n : Fin 4096) : EReal :=
  Finset.univ.fold max (⊥ : EReal) (fun m : Fin 4096 => score P Q b n m)

/-- The exponential of a score less its row's maximum. -/
def expo (P Q : Stack) (b : Fin 4) (n m : Fin 4096) : EReal :=
  Ideal.exp (score P Q b n m - rowMax P Q b n)

/-- The sum of a row's exponentials. -/
def rowSum (P Q : Stack) (b : Fin 4) (n : Fin 4096) : EReal :=
  ∑ m : Fin 4096, expo P Q b n m

/-- The attention: row c of Q b weighted by the softmax of row n of the scores. -/
def attn (P Q : Stack) (b : Fin 4) (c : Fin 128) (n : Fin 4096) : EReal :=
  ∑ m : Fin 4096, Q b c m * Ideal.div (expo P Q b n m) (rowSum P Q b n)

/-- A [4, 128, 4096] array of extended reals read as a stack of four 128 × 4096 matrices. -/
def stk (a : (⟨3, ![4, 128, 4096]⟩ : Shape).Idx → EReal) : Stack :=
  fun b c n => a (ValueIdx.ix3 b c n)

end Cert.AttnSpec

end
-- ==== Proof.LibTiles.lean ====
/-
  A maximum and a sum taken tile by tile.

  A long row is often walked in tiles of a fixed width while a running value is carried along: a running maximum
  that starts at the bottom element and at each tile becomes the larger of itself and the tile's own maximum, or a
  running sum that starts at zero and at each tile gains the tile's own sum. The lemmas below say, in any complete
  linear order, that the running maximum after the tiles covering the indices below `cnt` is the supremum of the row
  over those indices (`above`), that the empty prefix gives the bottom element, that one more tile extends the prefix
  by the tile's width (`above_add`), and that the full prefix is the supremum of the whole row (`above_of_le`). A fold
  of `max` from the bottom element over a finite type is the supremum of the family (`fold_max_bot_eq_iSup`). The
  same four statements hold for the running sum in any additive commutative monoid, with the prefix sum `psum` in
  place of the prefix supremum: `psum_zero`, `psum_add`, `psum_of_le`.
-/
import Mathlib.Order.CompleteLattice.Finset
import Mathlib.Data.Finset.Fold
import Mathlib.Data.Fintype.Basic
import Mathlib.Algebra.BigOperators.Fin

open scoped BigOperators

namespace Cert.Tiles

section Max

variable {α : Type*} [CompleteLinearOrder α]

/-- `max` of two elements is their supremum. -/
theorem max_eq_sup (x y : α) : max x y = x ⊔ y :=
  le_antisymm (max_le le_sup_left le_sup_right) (sup_le (le_max_left _ _) (le_max_right _ _))

/-- The fold of `max` from the bottom element over a finite set is the supremum of the family over the set. -/
theorem fold_max_bot_eq_biSup {ι : Type*} [DecidableEq ι] (g : ι → α) (s : Finset ι) :
    s.fold max ⊥ g = ⨆ k ∈ s, g k := by
  induction s using Finset.induction_on with
  | empty => simp
  | insert a s ha ih => rw [Finset.fold_insert ha, ih, Finset.iSup_insert, max_eq_sup]

/-- The fold of `max` from the bottom element over a whole finite type is the supremum of the family. -/
theorem fold_max_bot_eq_iSup {ι : Type*} [Fintype ι] (g : ι → α) :
    (Finset.univ : Finset ι).fold max ⊥ g = ⨆ k, g k := by
  classical
  rw [fold_max_bot_eq_biSup]
  simp

/-- The supremum of `f` over the indices below `cnt`. -/
def above {N : ℕ} (f : Fin N → α) (cnt : ℕ) : α := ⨆ m : Fin N, ⨆ (_ : m.val < cnt), f m

/-- No index is below zero: the supremum over the empty prefix is the bottom element. -/
theorem above_zero {N : ℕ} (f : Fin N → α) : above f 0 = ⊥ := by
  unfold above
  simp

/-- Every index is below a bound that is at least the length: the prefix is the whole row. -/
theorem above_of_le {N : ℕ} (f : Fin N → α) {cnt : ℕ} (h : N ≤ cnt) : above f cnt = ⨆ m, f m := by
  unfold above
  exact iSup_congr fun m => iSup_pos (lt_of_lt_of_le m.isLt h)

/-- One more tile: the larger of the prefix's supremum and the supremum of a tile of width `T` that holds the entries
    `cnt, cnt + 1, …, cnt + T - 1` is the supremum over the prefix extended by the tile. -/
theorem above_add {N T : ℕ} (f : Fin N → α) (cnt : ℕ) (hc : cnt + T ≤ N) (tile : Fin T → α)
    (ht : ∀ l : Fin T, tile l = f ⟨cnt + l.val, Nat.lt_of_lt_of_le (Nat.add_lt_add_left l.isLt cnt) hc⟩) :
    max (above f cnt) (⨆ l, tile l) = above f (cnt + T) := by
  unfold above
  have key : ∀ (m : Fin N) (c : ℕ), m.val < c → f m ≤ ⨆ m : Fin N, ⨆ (_ : m.val < c), f m := fun m c h =>
    le_trans (le_iSup (fun _ : m.val < c => f m) h) (le_iSup (fun m : Fin N => ⨆ (_ : m.val < c), f m) m)
  apply le_antisymm
  · refine max_le (iSup_le fun m => iSup_le fun hm => key m (cnt + T) (by omega)) (iSup_le fun l => ?_)
    rw [ht]
    have hl := l.isLt
    exact key _ (cnt + T) (by show cnt + l.val < cnt + T; omega)
  · refine iSup_le fun m => iSup_le fun hm => ?_
    by_cases h : m.val < cnt
    · exact (key m cnt h).trans (le_max_left _ _)
    · have hl : m.val - cnt < T := by omega
      refine le_trans ?_ ((le_iSup tile ⟨m.val - cnt, hl⟩).trans (le_max_right _ _))
      rw [ht]
      exact le_of_eq (congrArg f (Fin.ext (by show m.val = cnt + (m.val - cnt); omega)))

end Max

section Sum

variable {M : Type*} [AddCommMonoid M]

/-- The sum of `f` over the indices below `cnt`. -/
def psum {N : ℕ} (f : Fin N → M) (cnt : ℕ) : M := ∑ m : Fin N, if m.val < cnt then f m else 0

/-- No index is below zero: the sum over the empty prefix is zero. -/
theorem psum_zero {N : ℕ} (f : Fin N → M) : psum f 0 = 0 := by
  unfold psum
  simp

/-- Every index is below a bound that is at least the length: the prefix is the whole row. -/
theorem psum_of_le {N : ℕ} (f : Fin N → M) {cnt : ℕ} (h : N ≤ cnt) : psum f cnt = ∑ m, f m := by
  unfold psum
  exact Finset.sum_congr rfl fun m _ => if_pos (lt_of_lt_of_le m.isLt h)

/-- One more entry: the prefix sum up to `c + 1` is the prefix sum up to `c` plus the entry at `c`. -/
theorem psum_succ {N : ℕ} (f : Fin N → M) (c : ℕ) (h : c < N) : psum f (c + 1) = psum f c + f ⟨c, h⟩ := by
  unfold psum
  have split : ∀ m : Fin N, (if m.val < c + 1 then f m else 0)
      = (if m.val < c then f m else 0) + (if m = ⟨c, h⟩ then f m else 0) := by
    intro m
    by_cases h1 : m.val < c
    · have h2 : m ≠ ⟨c, h⟩ := fun e => absurd (congrArg Fin.val e) (Nat.ne_of_lt h1)
      have h3 : m.val < c + 1 := Nat.lt_succ_of_lt h1
      rw [if_pos h1, if_pos h3, if_neg h2, add_zero]
    · by_cases h2 : m = ⟨c, h⟩
      · have h3 : m.val < c + 1 := by rw [h2]; exact Nat.lt_succ_self c
        rw [if_neg h1, if_pos h3, if_pos h2, zero_add]
      · have h3 : ¬ m.val < c + 1 := by
          intro h4
          exact h2 (Fin.ext (by show m.val = c; omega))
        rw [if_neg h1, if_neg h3, if_neg h2, add_zero]
  rw [Finset.sum_congr rfl fun m _ => split m, Finset.sum_add_distrib, Finset.sum_ite_eq' Finset.univ (⟨c, h⟩ : Fin N) f,
    if_pos (Finset.mem_univ _)]

/-- One more tile: the prefix sum plus the sum of a tile of width `T` that holds the entries
    `cnt, cnt + 1, …, cnt + T - 1` is the sum over the prefix extended by the tile. -/
theorem psum_add {N T : ℕ} (f : Fin N → M) (cnt : ℕ) (hc : cnt + T ≤ N) (tile : Fin T → M)
    (ht : ∀ l : Fin T, tile l = f ⟨cnt + l.val, Nat.lt_of_lt_of_le (Nat.add_lt_add_left l.isLt cnt) hc⟩) :
    psum f cnt + ∑ l, tile l = psum f (cnt + T) := by
  induction T with
  | zero => simp
  | succ T ih =>
    have hc' : cnt + T ≤ N := by omega
    have hlast : cnt + T < N := by omega
    rw [Fin.sum_univ_castSucc, ← add_assoc, ih hc' (fun l => tile l.castSucc) (fun l => ht l.castSucc), ht (Fin.last T)]
    exact (psum_succ f (cnt + T) hlast).symm

end Sum

end Cert.Tiles
-- ==== Proof.LibCoeReal.lean ====
/-
  Moving finite sums and finite maxima between the reals and the extended reals.
-/
import Mathlib

namespace Cert.Attention

open Finset

/-- The coercion of a finite real sum is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Folding `max` from `⊥` over the coercions of a nonempty family of reals gives the coercion of its largest member. -/
theorem fold_max_bot_coe_of_nonempty {ι : Type*} (t : Finset ι) (ht : t.Nonempty) (f : ι → ℝ) :
    Finset.fold max (⊥ : EReal) (fun j => ((f j : ℝ) : EReal)) t = ((t.sup' ht f : ℝ) : EReal) := by
  have h : Finset.fold max (⊥ : EReal) (fun j => ((f j : ℝ) : EReal)) t
      = t.sup (fun j => ((f j : ℝ) : EReal)) := rfl
  rw [h, ← Finset.sup'_eq_sup ht]
  exact (Finset.comp_sup'_eq_sup'_comp ht (fun x : ℝ => (x : EReal)) (fun _ _ => EReal.coe_strictMono.monotone.map_max)).symm

/-- The same over all of `Fin (n+1)`. -/
theorem fold_max_bot_coe {n : ℕ} (f : Fin (n+1) → ℝ) :
    Finset.fold max (⊥ : EReal) (fun j => ((f j : ℝ) : EReal)) Finset.univ
      = ((Finset.univ.sup' ⟨0, Finset.mem_univ _⟩ f : ℝ) : EReal) :=
  fold_max_bot_coe_of_nonempty Finset.univ ⟨0, Finset.mem_univ _⟩ f

end Cert.Attention
-- ==== Proof.LibStreamLse.lean ====
/-
  A log-sum-exp taken tile by tile, on the extended reals.

  A row of N real numbers x is walked in K tiles of width T (N = T·K) while a running maximum m and a running
  rescaled sum l are carried along.  They start at m = -∞, l = 0; a tile with entries y_1 … y_T turns (m, l) into
      m' = max(m, max_j y_j),      l' = exp(m - m') · l + Σ_j exp(y_j - m')
  (with exp(-∞) = 0, so the very first step only takes the tile's own sum).  After k ≥ 1 tiles, m is the largest of
  the first T·k entries, a real number M_k, and l = Σ_{the first T·k entries} exp(x - M_k): the rescaling factor
  exp(M_k - M_{k+1}) turns every old term exp(x - M_k) into exp(x - M_{k+1}).  After the last tile, m is the row's
  maximum M and l = Σ_all exp(x - M) > 0, so m + log l is the row's log-sum-exp, a real number.  Subtracting one
  entry x_i gives the cross entropy M + log Σ exp(x - M) - x_i, which is also what the log-softmax road
  -((x_i - M) - log(0 + Σ exp(x - M))) gives; subtracting -∞ instead gives +∞ on both roads.
-/
import Mathlib
import Idealize.ShloMosaic.PureOps.Ideal
import proofs.«143733_j15865609191815_2_alg».proof.Proof.LibTiles
import proofs.«143733_j15865609191815_2_alg».proof.Proof.LibCoeReal

open scoped BigOperators
open Idealize.ShloMosaic

noncomputable section

namespace Cert.StreamLse

/-- One tile of the streaming log-sum-exp: from the running maximum ml.1 and the running rescaled sum ml.2 to
    m' = max(m, max of the tile) and l' = exp(m - m') · l + Σ_j exp(row_j - m'). -/
def step {n : ℕ} (ml : EReal × EReal) (row : Fin n → EReal) : EReal × EReal :=
  let m' := max ml.1 (Finset.univ.fold max ⊥ row)
  (m', Ideal.exp (ml.1 - m') * ml.2 + ∑ j, Ideal.exp (row j - m'))

/-- The state after the first k tiles x 0, …, x (k-1), from the start m = -∞, l = 0. -/
def run {n : ℕ} (x : ℕ → Fin n → EReal) : ℕ → EReal × EReal
  | 0 => (⊥, 0)
  | k+1 => step (run x k) (x k)

/-- The first tile: from (-∞, 0) a tile of real numbers with maximum R gives (R, Σ_j exp(row_j - R)). -/
theorem step_bot {n : ℕ} (row : Fin n → ℝ) (R : ℝ)
    (hR : Finset.univ.fold max (⊥ : EReal) (fun j => ((row j : ℝ) : EReal)) = (R : EReal)) :
    step ((⊥ : EReal), (0 : EReal)) (fun j => ((row j : ℝ) : EReal))
      = ((R : EReal), ((∑ j, Real.exp (row j - R) : ℝ) : EReal)) := by
  show (max (⊥ : EReal) (Finset.univ.fold max (⊥ : EReal) (fun j => ((row j : ℝ) : EReal))),
      Ideal.exp ((⊥ : EReal) - max (⊥ : EReal) (Finset.univ.fold max (⊥ : EReal) (fun j => ((row j : ℝ) : EReal)))) * (0 : EReal)
        + ∑ j, Ideal.exp (((row j : ℝ) : EReal) - max (⊥ : EReal) (Finset.univ.fold max (⊥ : EReal) (fun j => ((row j : ℝ) : EReal))))) = _
  rw [hR, max_eq_right (bot_le : (⊥ : EReal) ≤ (R : EReal)), mul_zero, zero_add, Attention.coe_sum]
  refine congrArg (Prod.mk (R : EReal)) (Finset.sum_congr rfl fun j _ => ?_)
  rw [← EReal.coe_sub, Ideal.exp_coe]

/-- A later tile: from real numbers (M, S) a tile of real numbers with maximum R gives
    (max M R, exp(M - max M R) · S + Σ_j exp(row_j - max M R)), again real numbers. -/
theorem step_real {n : ℕ} (M S : ℝ) (row : Fin n → ℝ) (R : ℝ)
    (hR : Finset.univ.fold max (⊥ : EReal) (fun j => ((row j : ℝ) : EReal)) = (R : EReal)) :
    step ((M : EReal), (S : EReal)) (fun j => ((row j : ℝ) : EReal))
      = (((max M R : ℝ) : EReal),
          ((Real.exp (M - max M R) * S + ∑ j, Real.exp (row j - max M R) : ℝ) : EReal)) := by
  show (max (M : EReal) (Finset.univ.fold max (⊥ : EReal) (fun j => ((row j : ℝ) : EReal))),
      Ideal.exp ((M : EReal) - max (M : EReal) (Finset.univ.fold max (⊥ : EReal) (fun j => ((row j : ℝ) : EReal)))) * (S : EReal)
        + ∑ j, Ideal.exp (((row j : ℝ) : EReal) - max (M : EReal) (Finset.univ.fold max (⊥ : EReal) (fun j => ((row j : ℝ) : EReal))))) = _
  have hmax : max (M : EReal) (R : EReal) = ((max M R : ℝ) : EReal) :=
    (EReal.coe_strictMono.monotone.map_max).symm
  rw [hR, hmax, EReal.coe_add, EReal.coe_mul, Attention.coe_sum, ← EReal.coe_sub, Ideal.exp_coe]
  refine congrArg (fun s => (((max M R : ℝ) : EReal), ((Real.exp (M - max M R) : ℝ) : EReal) * (S : EReal) + s))
    (Finset.sum_congr rfl fun j _ => ?_)
  rw [← EReal.coe_sub, Ideal.exp_coe]

/-- One tile in the row: if before the tile that holds the entries c, …, c + T - 1 the state is the start (c = 0) or
    is (M, Σ_{entries below c} exp(x - M)) with M the largest entry below c, then after it the state is
    (M', Σ_{entries below c + T} exp(x - M')) with M' the largest entry below c + T. -/
theorem step_tile {N T : ℕ} (hT : 0 < T) (f : Fin N → ℝ) (c : ℕ) (hc : c + T ≤ N) (ml : EReal × EReal)
    (h : (c = 0 ∧ ml = ((⊥ : EReal), (0 : EReal))) ∨
      ∃ M : ℝ, ml = ((M : EReal), ((Tiles.psum (fun m => Real.exp (f m - M)) c : ℝ) : EReal))
        ∧ (M : EReal) = Tiles.above (fun m => ((f m : ℝ) : EReal)) c)
    (tile : Fin T → EReal)
    (ht : ∀ l : Fin T, tile l
      = ((f ⟨c + l.val, Nat.lt_of_lt_of_le (Nat.add_lt_add_left l.isLt c) hc⟩ : ℝ) : EReal)) :
    ∃ M : ℝ, step ml tile = ((M : EReal), ((Tiles.psum (fun m => Real.exp (f m - M)) (c + T) : ℝ) : EReal))
      ∧ (M : EReal) = Tiles.above (fun m => ((f m : ℝ) : EReal)) (c + T) := by
  have hlt : ∀ l : Fin T, c + l.val < N := fun l => Nat.lt_of_lt_of_le (Nat.add_lt_add_left l.isLt c) hc
  have htile : tile = fun l : Fin T => ((f ⟨c + l.val, hlt l⟩ : ℝ) : EReal) := funext ht
  have hne : (Finset.univ : Finset (Fin T)).Nonempty := ⟨⟨0, hT⟩, Finset.mem_univ _⟩
  obtain ⟨R, hR⟩ : ∃ R : ℝ, Finset.univ.fold max (⊥ : EReal)
      (fun l : Fin T => ((f ⟨c + l.val, hlt l⟩ : ℝ) : EReal)) = (R : EReal) :=
    ⟨_, Attention.fold_max_bot_coe_of_nonempty Finset.univ hne (fun l : Fin T => f ⟨c + l.val, hlt l⟩)⟩
  have hsup : (⨆ l, tile l) = (R : EReal) := by
    rw [← Tiles.fold_max_bot_eq_iSup, htile, hR]
  have habove := Tiles.above_add (fun m => ((f m : ℝ) : EReal)) c hc tile ht
  have hpsum : ∀ M' : ℝ, Tiles.psum (fun m => Real.exp (f m - M')) c
      + ∑ l : Fin T, Real.exp (f ⟨c + l.val, hlt l⟩ - M') = Tiles.psum (fun m => Real.exp (f m - M')) (c + T) :=
    fun M' => Tiles.psum_add (fun m => Real.exp (f m - M')) c hc
      (fun l : Fin T => Real.exp (f ⟨c + l.val, hlt l⟩ - M')) (fun _ => rfl)
  rcases h with ⟨hc0, hml⟩ | ⟨M, hml, hM⟩
  · refine ⟨R, ?_, ?_⟩
    · rw [hml, htile, step_bot (fun l : Fin T => f ⟨c + l.val, hlt l⟩) R hR, ← hpsum R]
      have h0 : Tiles.psum (fun m => Real.exp (f m - R)) c = 0 := by rw [hc0]; exact Tiles.psum_zero _
      rw [h0, zero_add]
    · have h0 : Tiles.above (fun m => ((f m : ℝ) : EReal)) c = ⊥ := by rw [hc0]; exact Tiles.above_zero _
      rw [← habove, h0, hsup, max_eq_right (bot_le : (⊥ : EReal) ≤ (R : EReal))]
  · refine ⟨max M R, ?_, ?_⟩
    · rw [hml, htile, step_real M _ (fun l : Fin T => f ⟨c + l.val, hlt l⟩) R hR, ← hpsum (max M R)]
      have hres : Real.exp (M - max M R) * Tiles.psum (fun m => Real.exp (f m - M)) c
          = Tiles.psum (fun m => Real.exp (f m - max M R)) c := by
        unfold Tiles.psum
        rw [Finset.mul_sum]
        refine Finset.sum_congr rfl fun m _ => ?_
        by_cases hm : m.val < c
        · rw [if_pos hm, if_pos hm, ← Real.exp_add]
          congr 1
          ring
        · rw [if_neg hm, if_neg hm, mul_zero]
      rw [hres]
    · rw [← habove, ← hM, hsup]
      exact EReal.coe_strictMono.monotone.map_max

/-- After k ≥ 1 tiles of width T the state is (M, Σ_{entries below T·k} exp(x - M)), M the largest entry below T·k. -/
theorem run_tiles {N T K : ℕ} (hT : 0 < T) (hN : T * K ≤ N) (f : Fin N → ℝ) (x : ℕ → Fin T → EReal)
    (hx : ∀ k, k < K → ∀ (j : Fin T) (h : T * k + j.val < N), x k j = ((f ⟨T * k + j.val, h⟩ : ℝ) : EReal)) :
    ∀ k, k + 1 ≤ K → ∃ M : ℝ,
      run x (k + 1) = ((M : EReal), ((Tiles.psum (fun m => Real.exp (f m - M)) (T * (k + 1)) : ℝ) : EReal))
        ∧ (M : EReal) = Tiles.above (fun m => ((f m : ℝ) : EReal)) (T * (k + 1)) := by
  have hbound : ∀ k, k + 1 ≤ K → T * k + T ≤ N := fun k hk =>
    le_trans (le_of_eq (Nat.mul_succ T k).symm) (le_trans (Nat.mul_le_mul_left T hk) hN)
  intro k
  induction k with
  | zero =>
    intro hk
    exact step_tile hT f (T * 0) (hbound 0 hk) (run x 0) (Or.inl ⟨Nat.mul_zero T, rfl⟩) (x 0)
      (fun l => hx 0 hk l _)
  | succ k ih =>
    intro hk
    exact step_tile hT f (T * (k + 1)) (hbound (k + 1) hk) (run x (k + 1)) (Or.inr (ih (Nat.le_of_succ_le hk)))
      (x (k + 1)) (fun l => hx (k + 1) hk l _)

/-- After all K ≥ 1 tiles of a row of N = T·K real numbers the state is (M, S) with M the row's maximum and
    S = Σ exp(x - M) > 0. -/
theorem run_all {N T K : ℕ} (hT : 0 < T) (hK : 0 < K) (hN : T * K = N) (f : Fin N → ℝ) (x : ℕ → Fin T → EReal)
    (hx : ∀ k, k < K → ∀ (j : Fin T) (h : T * k + j.val < N), x k j = ((f ⟨T * k + j.val, h⟩ : ℝ) : EReal)) :
    ∃ M : ℝ, run x K = ((M : EReal), ((∑ m, Real.exp (f m - M) : ℝ) : EReal))
      ∧ (M : EReal) = Finset.univ.fold max (⊥ : EReal) (fun m => ((f m : ℝ) : EReal))
      ∧ 0 < ∑ m, Real.exp (f m - M) := by
  obtain ⟨k, rfl⟩ : ∃ k, K = k + 1 := ⟨K - 1, by omega⟩
  obtain ⟨M, hrun, hM⟩ := run_tiles hT (le_of_eq hN) f x hx k le_rfl
  refine ⟨M, ?_, ?_, ?_⟩
  · rw [hrun, Tiles.psum_of_le _ (le_of_eq hN.symm)]
  · rw [hM, Tiles.above_of_le _ (le_of_eq hN.symm), Tiles.fold_max_bot_eq_iSup]
  · have hpos : 0 < N := by rw [← hN]; exact Nat.mul_pos hT hK
    exact Finset.sum_pos (fun m _ => Real.exp_pos _) ⟨⟨0, hpos⟩, Finset.mem_univ _⟩

/-- The streamed log-sum-exp minus one entry is the negated log-softmax at that entry:
    (M + log S) - x_i = -((x_i - M) - log(0 + Σ exp(x - M))), M the row's maximum taken as max(-∞, fold of max). -/
theorem stream_ce_gen {N T K : ℕ} (hT : 0 < T) (hK : 0 < K) (hN : T * K = N) (f : Fin N → ℝ)
    (x : ℕ → Fin T → EReal)
    (hx : ∀ k, k < K → ∀ (j : Fin T) (h : T * k + j.val < N), x k j = ((f ⟨T * k + j.val, h⟩ : ℝ) : EReal))
    (i : Fin N) :
    ((run x K).1 + Ideal.log (run x K).2) - ((f i : ℝ) : EReal)
      = -((((f i : ℝ) : EReal) - max (⊥ : EReal) (Finset.univ.fold max (⊥ : EReal) (fun m => ((f m : ℝ) : EReal))))
          - Ideal.log (0 + ∑ m, Ideal.exp (((f m : ℝ) : EReal)
              - max (⊥ : EReal) (Finset.univ.fold max (⊥ : EReal) (fun m => ((f m : ℝ) : EReal)))))) := by
  obtain ⟨M, hrun, hM, hS⟩ := run_all hT hK hN f x hx
  rw [hrun, ← hM, max_eq_right (bot_le : (⊥ : EReal) ≤ (M : EReal))]
  have hsum : ∑ m, Ideal.exp (((f m : ℝ) : EReal) - (M : EReal)) = ((∑ m, Real.exp (f m - M) : ℝ) : EReal) := by
    rw [Attention.coe_sum]
    refine Finset.sum_congr rfl fun m _ => ?_
    rw [← EReal.coe_sub, Ideal.exp_coe]
  rw [hsum, zero_add]
  show ((M : EReal) + Ideal.log ((∑ m, Real.exp (f m - M) : ℝ) : EReal)) - ((f i : ℝ) : EReal) = _
  rw [Ideal.log_coe, if_neg (not_le.mpr hS), ← EReal.coe_add, ← EReal.coe_sub, ← EReal.coe_sub, ← EReal.coe_sub,
    ← EReal.coe_neg]
  congr 1
  ring

/-- The streamed log-sum-exp is a real number, so minus -∞ it is +∞, which is also -(-∞). -/
theorem stream_fill_gen {N T K : ℕ} (hT : 0 < T) (hK : 0 < K) (hN : T * K = N) (f : Fin N → ℝ)
    (x : ℕ → Fin T → EReal)
    (hx : ∀ k, k < K → ∀ (j : Fin T) (h : T * k + j.val < N), x k j = ((f ⟨T * k + j.val, h⟩ : ℝ) : EReal)) :
    ((run x K).1 + Ideal.log (run x K).2) - (⊥ : EReal) = -(⊥ : EReal) := by
  obtain ⟨M, hrun, _, hS⟩ := run_all hT hK hN f x hx
  rw [hrun]
  show ((M : EReal) + Ideal.log ((∑ m, Real.exp (f m - M) : ℝ) : EReal)) - (⊥ : EReal) = _
  rw [Ideal.log_coe, if_neg (not_le.mpr hS), ← EReal.coe_add, EReal.coe_sub_bot, EReal.neg_bot]

/-- A row of 32000 logits walked in 25 tiles of 1280: the streamed cross entropy at entry i is the negated
    log-softmax at i. -/
theorem stream_ce (xs : Fin 32000 → ℝ) (x : ℕ → Fin 1280 → EReal)
    (hx : ∀ k (hk : k < 25) (j : Fin 1280), x k j = ((xs ⟨1280 * k + j.val, by omega⟩ : ℝ) : EReal))
    (i : Fin 32000) :
    ((run x 25).1 + Ideal.log (run x 25).2) - ((xs i : ℝ) : EReal)
      = -((((xs i : ℝ) : EReal) - max (⊥ : EReal) (Finset.univ.fold max (⊥ : EReal) (fun k : Fin 32000 => ((xs k : ℝ) : EReal))))
          - Ideal.log (0 + ∑ k : Fin 32000, Ideal.exp (((xs k : ℝ) : EReal)
              - max (⊥ : EReal) (Finset.univ.fold max (⊥ : EReal) (fun k : Fin 32000 => ((xs k : ℝ) : EReal)))))) :=
  stream_ce_gen (by norm_num) (by norm_num) (by norm_num) xs x (fun k hk j _ => hx k hk j) i

/-- The same row with the fill value -∞ in place of the picked entry: both roads give +∞. -/
theorem stream_fill (xs : Fin 32000 → ℝ) (x : ℕ → Fin 1280 → EReal)
    (hx : ∀ k (hk : k < 25) (j : Fin 1280), x k j = ((xs ⟨1280 * k + j.val, by omega⟩ : ℝ) : EReal)) :
    ((run x 25).1 + Ideal.log (run x 25).2) - (⊥ : EReal) = -(⊥ : EReal) :=
  stream_fill_gen (by norm_num) (by norm_num) (by norm_num) xs x (fun k hk j _ => hx k hk j)

end Cert.StreamLse

end
-- ==== Proof.LibFlashAttention.lean ====
/-
  Softmax attention taken one key tile at a time, on the extended reals.

  For one query the scores against N keys are real numbers f_1 … f_N, and one channel of the values is g_1 … g_N.
  The softmax-weighted value
      Σ_i g_i · (exp(f_i - M) / Σ_i' exp(f_i' - M)),        M = max_i f_i,
  can be computed while the keys are walked in K tiles of width T (N = T·K), carrying a running maximum m, a running
  rescaled sum l and a running rescaled weighted sum a.  They start at m = -∞, l = 0, a = 0; a tile with scores
  y_1 … y_T and values w_1 … w_T turns (m, l, a) into
      m' = max(m, max_j y_j),    l' = exp(m - m') · l + Σ_j exp(y_j - m'),    a' = exp(m - m') · a + Σ_j w_j · exp(y_j - m')
  (with exp(-∞) = 0).  The pair (m, l) is the state of the streaming log-sum-exp: after k ≥ 1 tiles m is the largest of
  the first T·k scores, a real number M_k, and l = Σ_{first T·k} exp(f - M_k).  The third quantity follows the same
  induction: after k ≥ 1 tiles a = Σ_{first T·k} g · exp(f - M_k), because the rescaling factor turns every old term
  into the new one, exp(M_k - M_{k+1}) · (g · exp(f - M_k)) = g · exp(f - M_{k+1}).  After the last tile
  a = Σ g · exp(f - M) and l = Σ exp(f - M) > 0 with M the largest score, and
      a · (1 / l) = Σ_i g_i · (exp(f_i - M) / l),
  which is the softmax-weighted value.
-/
import Mathlib
import Idealize.ShloMosaic.PureOps.Ideal
import proofs.«143733_j15865609191815_2_alg».proof.Proof.LibStreamLse
import proofs.«143733_j15865609191815_2_alg».proof.Proof.LibTiles
import proofs.«143733_j15865609191815_2_alg».proof.Proof.LibCoeReal

open scoped BigOperators
open Idealize.ShloMosaic

noncomputable section

namespace Cert.FlashAttention

/-- One key tile of the streaming softmax attention: from the running maximum s.1, the running rescaled sum s.2.1 and
    the running rescaled weighted sum s.2.2 to m' = max(m, max of the tile's scores),
    l' = exp(m - m') · l + Σ_j exp(row_j - m') and a' = exp(m - m') · a + Σ_j val_j · exp(row_j - m'). -/
def step {n : ℕ} (s : EReal × EReal × EReal) (row val : Fin n → EReal) : EReal × EReal × EReal :=
  let m' := max s.1 (Finset.univ.fold max ⊥ row)
  (m', Ideal.exp (s.1 - m') * s.2.1 + ∑ j, Ideal.exp (row j - m'),
       Ideal.exp (s.1 - m') * s.2.2 + ∑ j, val j * Ideal.exp (row j - m'))

/-- The state after the first k tiles (scores x 0, …, x (k-1), values v 0, …, v (k-1)), from the start
    m = -∞, l = 0, a = 0. -/
def run {n : ℕ} (x v : ℕ → Fin n → EReal) : ℕ → EReal × EReal × EReal
  | 0 => (⊥, 0, 0)
  | k+1 => step (run x v k) (x k) (v k)

/-- The running maximum and the running rescaled sum do not look at the values: together they are the state of the
    streaming log-sum-exp of the scores. -/
theorem run_fst_snd {n : ℕ} (x v : ℕ → Fin n → EReal) (k : ℕ) :
    ((run x v k).1, (run x v k).2.1) = StreamLse.run x k := by
  induction k with
  | zero => rfl
  | succ k ih =>
    show StreamLse.step ((run x v k).1, (run x v k).2.1) (x k) = StreamLse.step (StreamLse.run x k) (x k)
    rw [ih]

/-- The running rescaled weighted sum after one more tile, written with the old and the new running maximum:
    a' = exp(m - m') · a + Σ_j val_j · exp(row_j - m'). -/
theorem run_acc {n : ℕ} (x v : ℕ → Fin n → EReal) (k : ℕ) :
    (run x v (k + 1)).2.2 = Ideal.exp ((run x v k).1 - (run x v (k + 1)).1) * (run x v k).2.2
        + ∑ j, v k j * Ideal.exp (x k j - (run x v (k + 1)).1) := rfl

/-- One tile of the weighted sum: if before the tile that holds the entries c, …, c + T - 1 the weighted sum is the
    start a = 0 (c = 0) or is Σ_{entries below c} g · exp(f - M) with the old maximum M a real number, then for any
    real new maximum M' the update exp(M - M') · a + Σ_j g_{c+j} · exp(f_{c+j} - M') is
    Σ_{entries below c + T} g · exp(f - M'): rescaling by exp(M - M') turns each g · exp(f - M) into g · exp(f - M'). -/
theorem acc_tile {N T : ℕ} (f g : Fin N → ℝ) (c : ℕ) (hc : c + T ≤ N) (e A : EReal) (M' : ℝ)
    (h : (c = 0 ∧ A = 0) ∨
      ∃ M : ℝ, e = (M : EReal) ∧ A = ((Tiles.psum (fun m => g m * Real.exp (f m - M)) c : ℝ) : EReal))
    (row val : Fin T → EReal)
    (hrow : ∀ l : Fin T, row l
      = ((f ⟨c + l.val, Nat.lt_of_lt_of_le (Nat.add_lt_add_left l.isLt c) hc⟩ : ℝ) : EReal))
    (hval : ∀ l : Fin T, val l
      = ((g ⟨c + l.val, Nat.lt_of_lt_of_le (Nat.add_lt_add_left l.isLt c) hc⟩ : ℝ) : EReal)) :
    Ideal.exp (e - (M' : EReal)) * A + ∑ l, val l * Ideal.exp (row l - (M' : EReal))
      = ((Tiles.psum (fun m => g m * Real.exp (f m - M')) (c + T) : ℝ) : EReal) := by
  have hlt : ∀ l : Fin T, c + l.val < N := fun l => Nat.lt_of_lt_of_le (Nat.add_lt_add_left l.isLt c) hc
  have htile : ∑ l, val l * Ideal.exp (row l - (M' : EReal))
      = ((∑ l : Fin T, g ⟨c + l.val, hlt l⟩ * Real.exp (f ⟨c + l.val, hlt l⟩ - M') : ℝ) : EReal) := by
    rw [Attention.coe_sum]
    refine Finset.sum_congr rfl fun l _ => ?_
    rw [hrow l, hval l, ← EReal.coe_sub, Ideal.exp_coe, ← EReal.coe_mul]
  have hpsum := Tiles.psum_add (fun m => g m * Real.exp (f m - M')) c hc
      (fun l : Fin T => g ⟨c + l.val, hlt l⟩ * Real.exp (f ⟨c + l.val, hlt l⟩ - M')) (fun _ => rfl)
  rw [htile, ← hpsum]
  rcases h with ⟨hc0, hA⟩ | ⟨M, he, hA⟩
  · have h0 : Tiles.psum (fun m => g m * Real.exp (f m - M')) c = 0 := by rw [hc0]; exact Tiles.psum_zero _
    rw [hA, mul_zero, h0, zero_add, zero_add]
  · have hres : Real.exp (M - M') * Tiles.psum (fun m => g m * Real.exp (f m - M)) c
        = Tiles.psum (fun m => g m * Real.exp (f m - M')) c := by
      unfold Tiles.psum
      rw [Finset.mul_sum]
      refine Finset.sum_congr rfl fun m _ => ?_
      by_cases hm : m.val < c
      · rw [if_pos hm, if_pos hm, mul_left_comm, ← Real.exp_add]
        congr 2
        ring
      · rw [if_neg hm, if_neg hm, mul_zero]
    rw [he, hA, ← EReal.coe_sub, Ideal.exp_coe, ← EReal.coe_mul, hres, ← EReal.coe_add]

/-- After k ≥ 1 tiles of width T the state is (M, Σ_{entries below T·k} exp(f - M), Σ_{entries below T·k} g · exp(f - M))
    with M the largest score below T·k. -/
theorem run_tiles {N T K : ℕ} (hT : 0 < T) (hN : T * K ≤ N) (f g : Fin N → ℝ) (x v : ℕ → Fin T → EReal)
    (hx : ∀ k, k < K → ∀ (j : Fin T) (h : T * k + j.val < N), x k j = ((f ⟨T * k + j.val, h⟩ : ℝ) : EReal))
    (hv : ∀ k, k < K → ∀ (j : Fin T) (h : T * k + j.val < N), v k j = ((g ⟨T * k + j.val, h⟩ : ℝ) : EReal)) :
    ∀ k, k + 1 ≤ K → ∃ M : ℝ,
      run x v (k + 1) = ((M : EReal), ((Tiles.psum (fun m => Real.exp (f m - M)) (T * (k + 1)) : ℝ) : EReal),
          ((Tiles.psum (fun m => g m * Real.exp (f m - M)) (T * (k + 1)) : ℝ) : EReal))
        ∧ (M : EReal) = Tiles.above (fun m => ((f m : ℝ) : EReal)) (T * (k + 1)) := by
  have hbound : ∀ k, k + 1 ≤ K → T * k + T ≤ N := fun k hk =>
    le_trans (le_of_eq (Nat.mul_succ T k).symm) (le_trans (Nat.mul_le_mul_left T hk) hN)
  have hpair : ∀ (k : ℕ) (M : ℝ) (L : EReal), StreamLse.run x (k + 1) = ((M : EReal), L) →
      (run x v (k + 1)).1 = (M : EReal) ∧ (run x v (k + 1)).2.1 = L := by
    intro k M L h
    have hp := run_fst_snd x v (k + 1)
    rw [h] at hp
    exact ⟨congrArg Prod.fst hp, congrArg Prod.snd hp⟩
  intro k
  induction k with
  | zero =>
    intro hk
    obtain ⟨M, hrun, hM⟩ := StreamLse.run_tiles hT hN f x hx 0 hk
    obtain ⟨h1, h2⟩ := hpair 0 M _ hrun
    refine ⟨M, ?_, hM⟩
    have h3 : (run x v (0 + 1)).2.2
        = ((Tiles.psum (fun m => g m * Real.exp (f m - M)) (T * (0 + 1)) : ℝ) : EReal) := by
      rw [run_acc, h1]
      exact acc_tile f g (T * 0) (hbound 0 hk) (run x v 0).1 (run x v 0).2.2 M
        (Or.inl ⟨Nat.mul_zero T, rfl⟩) (x 0) (v 0) (fun l => hx 0 hk l _) (fun l => hv 0 hk l _)
    exact Prod.ext h1 (Prod.ext h2 h3)
  | succ k ih =>
    intro hk
    obtain ⟨M0, hrun0, _⟩ := ih (Nat.le_of_succ_le hk)
    obtain ⟨M, hrun, hM⟩ := StreamLse.run_tiles hT hN f x hx (k + 1) hk
    obtain ⟨h1, h2⟩ := hpair (k + 1) M _ hrun
    refine ⟨M, ?_, hM⟩
    have h3 : (run x v (k + 1 + 1)).2.2
        = ((Tiles.psum (fun m => g m * Real.exp (f m - M)) (T * (k + 1 + 1)) : ℝ) : EReal) := by
      rw [run_acc, h1]
      exact acc_tile f g (T * (k + 1)) (hbound (k + 1) hk) (run x v (k + 1)).1 (run x v (k + 1)).2.2 M
        (Or.inr ⟨M0, by rw [hrun0], by rw [hrun0]⟩) (x (k + 1)) (v (k + 1))
        (fun l => hx (k + 1) hk l _) (fun l => hv (k + 1) hk l _)
    exact Prod.ext h1 (Prod.ext h2 h3)

/-- After all K ≥ 1 tiles of N = T·K keys the state is (M, S, A) with M the largest score, S = Σ exp(f - M) > 0 and
    A = Σ g · exp(f - M). -/
theorem run_all {N T K : ℕ} (hT : 0 < T) (hK : 0 < K) (hN : T * K = N) (f g : Fin N → ℝ) (x v : ℕ → Fin T → EReal)
    (hx : ∀ k, k < K → ∀ (j : Fin T) (h : T * k + j.val < N), x k j = ((f ⟨T * k + j.val, h⟩ : ℝ) : EReal))
    (hv : ∀ k, k < K → ∀ (j : Fin T) (h : T * k + j.val < N), v k j = ((g ⟨T * k + j.val, h⟩ : ℝ) : EReal)) :
    ∃ M : ℝ, run x v K = ((M : EReal), ((∑ i, Real.exp (f i - M) : ℝ) : EReal),
          ((∑ i, g i * Real.exp (f i - M) : ℝ) : EReal))
      ∧ (M : EReal) = Finset.univ.fold max (⊥ : EReal) (fun i => ((f i : ℝ) : EReal))
      ∧ 0 < ∑ i, Real.exp (f i - M) := by
  obtain ⟨k, rfl⟩ : ∃ k, K = k + 1 := ⟨K - 1, by omega⟩
  obtain ⟨M, hrun, hM⟩ := run_tiles hT (le_of_eq hN) f g x v hx hv k le_rfl
  refine ⟨M, ?_, ?_, ?_⟩
  · rw [hrun, Tiles.psum_of_le (fun m => Real.exp (f m - M)) (le_of_eq hN.symm),
      Tiles.psum_of_le (fun m => g m * Real.exp (f m - M)) (le_of_eq hN.symm)]
  · rw [hM, Tiles.above_of_le _ (le_of_eq hN.symm), Tiles.fold_max_bot_eq_iSup]
  · have hpos : 0 < N := by rw [← hN]; exact Nat.mul_pos hT hK
    exact Finset.sum_pos (fun m _ => Real.exp_pos _) ⟨⟨0, hpos⟩, Finset.mem_univ _⟩

/-- Streaming softmax attention is softmax attention: the weighted sum carried over all K tiles, times the reciprocal
    of the carried sum, is Σ_i g_i · (exp(f_i - M) / Σ_i' exp(f_i' - M)) with M the largest score (the fold of max
    from -∞ over the row). -/
theorem flash_eq_softmax {N T K : ℕ} (hT : 0 < T) (hK : 0 < K) (hN : T * K = N) (f g : Fin N → ℝ)
    (x v : ℕ → Fin T → EReal)
    (hx : ∀ k, k < K → ∀ (j : Fin T) (h : T * k + j.val < N), x k j = ((f ⟨T * k + j.val, h⟩ : ℝ) : EReal))
    (hv : ∀ k, k < K → ∀ (j : Fin T) (h : T * k + j.val < N), v k j = ((g ⟨T * k + j.val, h⟩ : ℝ) : EReal)) :
    (run x v K).2.2 * Ideal.div 1 (run x v K).2.1
      = ∑ i : Fin N, ((g i : ℝ) : EReal)
          * Ideal.div (Ideal.exp (((f i : ℝ) : EReal)
              - Finset.univ.fold max (⊥ : EReal) (fun i' => ((f i' : ℝ) : EReal))))
            (∑ i' : Fin N, Ideal.exp (((f i' : ℝ) : EReal)
              - Finset.univ.fold max (⊥ : EReal) (fun i'' => ((f i'' : ℝ) : EReal)))) := by
  obtain ⟨M, hrun, hM, hS⟩ := run_all hT hK hN f g x v hx hv
  have hsum : ∑ m, Ideal.exp (((f m : ℝ) : EReal) - (M : EReal)) = ((∑ m, Real.exp (f m - M) : ℝ) : EReal) := by
    rw [Attention.coe_sum]
    refine Finset.sum_congr rfl fun m _ => ?_
    rw [← EReal.coe_sub, Ideal.exp_coe]
  have hL : ((∑ i, g i * Real.exp (f i - M) : ℝ) : EReal) * Ideal.div 1 ((∑ i, Real.exp (f i - M) : ℝ) : EReal)
      = ∑ i, ((g i * (Real.exp (f i - M) * (1 / ∑ m, Real.exp (f m - M))) : ℝ) : EReal) := by
    rw [Ideal.div_coe hS.ne', one_mul, ← EReal.coe_mul, Finset.sum_mul, Attention.coe_sum]
    refine Finset.sum_congr rfl fun i _ => ?_
    rw [mul_assoc]
  rw [hrun, ← hM, hsum]
  show ((∑ i, g i * Real.exp (f i - M) : ℝ) : EReal) * Ideal.div 1 ((∑ i, Real.exp (f i - M) : ℝ) : EReal) = _
  rw [hL]
  refine Finset.sum_congr rfl fun i _ => ?_
  rw [Ideal.div_coe hS.ne', ← EReal.coe_sub, Ideal.exp_coe, ← EReal.coe_mul, ← EReal.coe_mul]

end Cert.FlashAttention

end
-- ==== Proof.AttnFlash.lean ====
/-
  The kernel's way of computing the attention, as mathematics: a row of 4096 scores is walked in 8 tiles of 512 while
  a running maximum, a rescaled sum and a rescaled weighted sum are carried, and the weighted sum is divided by the sum
  at the end.  For stacks of real numbers this is the attention of the specification.
-/
import Mathlib
import Idealize.ShloMosaic.PureOps.Ideal
import proofs.«143733_j15865609191815_2_alg».proof.Proof.AttnSpec
import proofs.«143733_j15865609191815_2_alg».proof.Proof.LibFlashAttention
import proofs.«143733_j15865609191815_2_alg».proof.Proof.LibCoeReal

open scoped BigOperators
open Idealize.ShloMosaic

noncomputable section

namespace Cert.AttnFlash

open Cert.AttnSpec

/-- Row n of the scores of batch b, cut in tiles of 512 (tile k, entry j; 0 past the row's end). -/
def xrow (P Q : Stack) (b : Fin 4) (n : Fin 4096) : ℕ → Fin 512 → EReal :=
  fun k j => if h : 512 * k + j.val < 4096 then score P Q b n ⟨512 * k + j.val, h⟩ else 0

/-- Row c of Q b, cut the same way. -/
def vrow (Q : Stack) (b : Fin 4) (c : Fin 128) : ℕ → Fin 512 → EReal :=
  fun k j => if h : 512 * k + j.val < 4096 then Q b c ⟨512 * k + j.val, h⟩ else 0

/-- What the tile-by-tile walk returns: the weighted sum times the reciprocal of the sum. -/
def flashOut (P Q : Stack) (b : Fin 4) (c : Fin 128) (n : Fin 4096) : EReal :=
  (FlashAttention.run (xrow P Q b n) (vrow Q b c) 8).2.2 * Ideal.div 1 (FlashAttention.run (xrow P Q b n) (vrow Q b c) 8).2.1

/-- For stacks of real numbers the walk computes the attention. -/
theorem flashOut_eq_attn (P Q : Stack) (hP : ∀ b c n, ∃ r : ℝ, P b c n = (r : EReal)) (hQ : ∀ b c n, ∃ r : ℝ, Q b c n = (r : EReal))
    (b : Fin 4) (c : Fin 128) (n : Fin 4096) : flashOut P Q b c n = attn P Q b c n := by
  choose p hp using hP
  choose q hq using hQ
  -- the scores of row n are real numbers
  let f : Fin 4096 → ℝ := fun i => (∑ d : Fin 128, q b d n * (q b d i + p b d i)) + ∑ d : Fin 128, p b d n * p b d i
  have hf : ∀ i, score P Q b n i = ((f i : ℝ) : EReal) := fun i => by
    unfold score
    simp only [hp, hq, f]
    rw [EReal.coe_add, Cert.Attention.coe_sum, Cert.Attention.coe_sum]
    simp only [EReal.coe_mul, EReal.coe_add]
  have hx : ∀ k, k < 8 → ∀ (j : Fin 512) (h : 512 * k + j.val < 4096), xrow P Q b n k j = ((f ⟨512 * k + j.val, h⟩ : ℝ) : EReal) :=
    fun k _ j h => by unfold xrow; rw [dif_pos h, hf]
  have hv : ∀ k, k < 8 → ∀ (j : Fin 512) (h : 512 * k + j.val < 4096), vrow Q b c k j = (((fun i => q b c i) ⟨512 * k + j.val, h⟩ : ℝ) : EReal) :=
    fun k _ j h => by unfold vrow; rw [dif_pos h, hq]
  have key := FlashAttention.flash_eq_softmax (N := 4096) (T := 512) (K := 8) (by norm_num) (by norm_num) (by norm_num) f (fun i => q b c i)
    (xrow P Q b n) (vrow Q b c) hx hv
  unfold flashOut
  rw [key]
  unfold attn rowSum expo rowMax
  simp only [hf, hq]

end Cert.AttnFlash

end
-- ==== Proof.Pay0Layout.lean ====
/-
  Layout operations of column shapes read at an index: a vector made a column ([a] to [a, 1]) and a column
  broadcast over its rows' lanes ([a, 1] to [a, b]); and the two float constants the kernel's arithmetic names,
  minus infinity and one, as extended reals.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p` at its one lane. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 pattern `0xFF800000` is minus infinity. -/
theorem ofBits_neg_inf_f32 : Ideal.ofBits .f32 0xFF800000#32 = (⊥ : EReal) := by
  simp [Ideal.ofBits, Ideal.ieee]

/-- The f32 pattern `0x3F800000` is one. -/
theorem ofBits_one_f32 : Ideal.ofBits .f32 0x3F800000#32 = (1 : EReal) := by
  simp [Ideal.ofBits, Ideal.ieee]
  rw [← EReal.coe_mul]
  norm_num

end Cert.KernelIdeal.Pay
-- ==== Proof.Pay4Reduce.lean ====
/-
  The kernel's running maximum, rescaling factor, exponentiated scores and running sum read at an index, at the
  extended reals: a row's maximum is the fold of the maximum from minus infinity over the row's 512 scores, a row's
  sum is the sum of its 512 exponentiated scores; the column forms put the row's value at lane 0.
-/
import proofs.«143733_j15865609191815_2_alg».proof.Proof.Gen.KernelIdeal.Skeleton
import proofs.«143733_j15865609191815_2_alg».proof.Proof.Pay0Layout

noncomputable section

namespace Cert.KernelIdeal.Pay

open Cert.KernelIdeal Cert.KernelIdeal.Gen
open Idealize.ShloMosaic Idealize.ShloMosaic.ValueIdx

open scoped BigOperators

/-- The index a reduction over the lanes of a `[1024, 512]` array inserts at row `n` and lane `k` is `(n, k)`. -/
theorem reduces_lift_row (n : Fin 1024) (k : Fin 512) :
    reduces_S1024x512_S1024.lift (ix1 n) k = ix2 n k := by
  funext a
  apply Fin.ext
  match a with
  | ⟨0, _⟩ => rfl
  | ⟨1, _⟩ => rfl

/-- The new running maximum of row `n`: the larger of the old one and the row's largest score. -/
theorem max_apply (v3 v5 : Vec Ideal S1x128x512 .f32) (v11 : Vec Ideal S256x1024 .bf16) (v13 : Vec Ideal S1024x1 .f32)
    (n : Fin 1024) :
    k0_pay10 v3 v5 v11 v13 (ix2 n (0 : Fin 1))
      = max (v13 (ix2 n (0 : Fin 1)))
          (Finset.univ.fold max (⊥ : EReal) (fun j : Fin 512 => k0_pay9 v3 v5 v11 (ix2 n j))) := by
  unfold k0_pay10
  refine (maximumf_apply _ _ _).trans ?_
  refine congrArg (max (v13 (ix2 n (0 : Fin 1)))) ?_
  refine (shapeCast_a_a1_apply _ shapeCasts_S1024_S1024x1 n (0 : Fin 1)).trans ?_
  refine (Ideal.multiReduction_maximumf_single (k0_pay9 v3 v5 v11) 0xFF800000#32 reduces_S1024x512_S1024
    (.inl rfl) rfl (ix1 n)).trans ?_
  show Finset.univ.fold max (Ideal.ofBits .f32 0xFF800000#32)
      (fun k : Fin 512 => k0_pay9 v3 v5 v11 (reduces_S1024x512_S1024.lift (ix1 n) k)) = _
  rw [ofBits_neg_inf_f32]
  refine congrArg (Finset.univ.fold max (⊥ : EReal)) (funext fun k => ?_)
  rw [reduces_lift_row]

/-- The rescaling factor of row `n`: the exponential of the old maximum less the new. -/
theorem alpha_apply (v3 v5 : Vec Ideal S1x128x512 .f32) (v11 : Vec Ideal S256x1024 .bf16) (v13 : Vec Ideal S1024x1 .f32)
    (n : Fin 1024) :
    k0_pay11 v3 v5 v11 v13 (ix2 n (0 : Fin 1))
      = Ideal.exp (v13 (ix2 n (0 : Fin 1)) - k0_pay10 v3 v5 v11 v13 (ix2 n (0 : Fin 1))) := rfl

/-- The exponentiated score at `(n, j)`: the exponential of the score less row `n`'s new maximum. -/
theorem p_apply (v3 v5 : Vec Ideal S1x128x512 .f32) (v11 : Vec Ideal S256x1024 .bf16) (v13 : Vec Ideal S1024x1 .f32)
    (n : Fin 1024) (j : Fin 512) :
    k0_pay12 v3 v5 v11 v13 (ix2 n j)
      = Ideal.exp (k0_pay9 v3 v5 v11 (ix2 n j) - k0_pay10 v3 v5 v11 v13 (ix2 n (0 : Fin 1))) := by
  unfold k0_pay12
  show Ideal.exp (k0_pay9 v3 v5 v11 (ix2 n j)
      - broadcastTo S1024x512 (k0_pay10 v3 v5 v11 v13) broadcasts_S1024x1_S1024x512 (ix2 n j)) = _
  rw [broadcastTo_a1_ab_apply]

/-- The new running sum of row `n`: the old one rescaled plus the row's 512 exponentiated scores. -/
theorem l_apply (v3 v5 : Vec Ideal S1x128x512 .f32) (v11 : Vec Ideal S256x1024 .bf16) (v13 v22 : Vec Ideal S1024x1 .f32)
    (n : Fin 1024) :
    k0_pay13 v3 v5 v11 v13 v22 (ix2 n (0 : Fin 1))
      = k0_pay11 v3 v5 v11 v13 (ix2 n (0 : Fin 1)) * v22 (ix2 n (0 : Fin 1))
        + ∑ j : Fin 512, k0_pay12 v3 v5 v11 v13 (ix2 n j) := by
  unfold k0_pay13
  rw [shapeCast_self]
  refine (addf_apply _ _ _).trans ?_
  refine congrArg (k0_pay11 v3 v5 v11 v13 (ix2 n (0 : Fin 1)) * v22 (ix2 n (0 : Fin 1)) + ·) ?_
  refine (shapeCast_a_a1_apply _ shapeCasts_S1024_S1024x1 n (0 : Fin 1)).trans ?_
  refine (Ideal.multiReduction_add_single (k0_pay12 v3 v5 v11 v13) 0x00000000#32 reduces_S1024x512_S1024
    (.inl rfl) rfl (ix1 n)).trans ?_
  exact Finset.sum_congr rfl fun k _ => congrArg (k0_pay12 v3 v5 v11 v13) (reduces_lift_row n k)

end Cert.KernelIdeal.Pay
-- ==== Proof.Pay1Pointwise.lean ====
/-
  The kernel's pointwise payloads read at an index, at the extended reals: the accumulator's rescaling, the running
  maximum handed on unchanged, the final division by the running sum, the three initial values, and the rescaling
  factor laid out as a row.
-/
import proofs.«143733_j15865609191815_2_alg».proof.Proof.Gen.KernelIdeal.Skeleton
import proofs.«143733_j15865609191815_2_alg».proof.Proof.Pay0Layout

noncomputable section

namespace Cert.KernelIdeal.Pay

open Cert.KernelIdeal Cert.KernelIdeal.Gen
open Idealize.ShloMosaic Idealize.ShloMosaic.ValueIdx

/-- The rescaled accumulator: at `(c, n)`, column `n`'s factor times the old accumulator plus the new product. -/
theorem acc_apply (v32 : FVec Ideal S128x1024 .f32) (v33 : FVec Ideal S1x1024 .f32) (v34 : Vec Ideal S128x1024 .f32)
    (c : Fin 128) (n : Fin 1024) :
    k0_pay1 v32 v33 v34 (ix2 c n) = v33 (ix2 (0 : Fin 1) n) * v34 (ix2 c n) + v32 (ix2 c n) := by
  unfold k0_pay1
  rw [shapeCast_self]
  show broadcastTo S128x1024 v33 broadcasts_S1x1024_S128x1024 (ix2 c n) * v34 (ix2 c n) + v32 (ix2 c n) = _
  rw [broadcastTo_1b_ab_apply]

/-- The running maximum is stored as it is. -/
theorem m_apply (v16 : FVec Ideal S1024x1 .f32) : k0_pay2 v16 = v16 := by
  unfold k0_pay2
  exact shapeCast_self _ _

/-- The output: at `(0, c, n)`, the accumulator at `(c, n)` times one over column `n`'s running sum. -/
theorem out_apply (v47 : Vec Ideal S1024x1 .f32) (v49 : Vec Ideal S128x1024 .f32) (c : Fin 128) (n : Fin 1024) :
    k0_pay3 v47 v49 (ix3 (0 : Fin 1) c n) = v49 (ix2 c n) * Ideal.div 1 (v47 (ix2 n (0 : Fin 1))) := by
  unfold k0_pay3
  refine (shapeCast_ab_1ab_apply _ _ (0 : Fin 1) c n).trans ?_
  show v49 (ix2 c n) * broadcastTo S128x1024 _ broadcasts_S1x1024_S128x1024 (ix2 c n) = _
  rw [broadcastTo_1b_ab_apply]
  show v49 (ix2 c n) * Ideal.div (Ideal.ofBits .f32 0x3F800000#32)
      (transpose S1x1024 [1, 0] v47 transposes_S1024x1_p1_0_S1x1024 (ix2 (0 : Fin 1) n)) = _
  rw [ofBits_one_f32, transpose_ix2_apply]

/-- The running maximum starts at minus infinity. -/
theorem init_m_apply (n : Fin 1024) : k0_pay4 (F := Ideal) (ix2 n (0 : Fin 1)) = (⊥ : EReal) := by
  unfold k0_pay4
  rw [shapeCast_self]
  exact ofBits_neg_inf_f32

/-- The running sum starts at zero. -/
theorem init_l_apply (n : Fin 1024) : k0_pay5 (F := Ideal) (ix2 n (0 : Fin 1)) = (0 : EReal) := by
  unfold k0_pay5
  rw [shapeCast_self]
  exact Ideal.ofBits_zero_f32

/-- The accumulator starts at zero. -/
theorem init_acc_apply (c : Fin 128) (n : Fin 1024) : k0_pay6 (F := Ideal) (ix2 c n) = (0 : EReal) := by
  unfold k0_pay6
  rw [shapeCast_self]
  exact Ideal.ofBits_zero_f32

/-- The rescaling factor as a row: at `(0, n)`, the column's entry `(n, 0)`. -/
theorem arow_apply (v3 v5 : Vec Ideal S1x128x512 .f32) (v11 : Vec Ideal S256x1024 .bf16) (v13 : Vec Ideal S1024x1 .f32)
    (n : Fin 1024) :
    k0_pay15 v3 v5 v11 v13 (ix2 (0 : Fin 1) n) = k0_pay11 v3 v5 v11 v13 (ix2 n (0 : Fin 1)) := by
  unfold k0_pay15
  exact transpose_ix2_apply _ _ (0 : Fin 1) n

end Cert.KernelIdeal.Pay
-- ==== Proof.Pay2Concat.lean ====
/-
  The kernel's two concatenations along the rows read at an index, at the extended reals: the assembled query
  operand (two [128, 1024] pieces, each a [1, 128, 1024] block with its unit axis dropped), and the key operand of
  the score product (the sum of the two key tiles over the first of them).
-/
import proofs.«143733_j15865609191815_2_alg».proof.Proof.Gen.KernelIdeal.Skeleton
import proofs.«143733_j15865609191815_2_alg».proof.Proof.Pay0Layout

noncomputable section

namespace Cert.KernelIdeal.Pay

open Cert.KernelIdeal Cert.KernelIdeal.Gen
open Idealize.ShloMosaic Idealize.ShloMosaic.ValueIdx

/-- The assembled query operand: row `d` below 128 is the first block's row `d`, row `d` from 128 on is the second
    block's row `d - 128`. -/
theorem qcat_apply (v59 v62 : Vec Ideal S1x128x1024 .f32) (d : Fin 256) (n : Fin 1024) :
    k0_pay7 v59 v62 (ix2 d n)
      = if h : d.val < 128 then v59 (ix3 (0 : Fin 1) ⟨d.val, h⟩ n)
        else v62 (ix3 (0 : Fin 1) ⟨d.val - 128, by omega⟩ n) := by
  unfold k0_pay7
  rw [shapeCast_self]
  split
  · next h =>
    refine (concatenate_pair_apply_left _ _ _ concatenates_S128x1024_S128x1024_S256x1024_d0 (ix2 d n) rfl
      (ix2 (⟨d.val, h⟩ : Fin 128) n) (fun b => ?_)).trans ?_
    · match b with
      | ⟨0, _⟩ => rfl
      | ⟨1, _⟩ => rfl
    · exact shapeCast_1ab_ab_apply v59 shapeCasts_S1x128x1024_S128x1024 _ _
  · next h =>
    refine (concatenate_pair_apply_right _ _ _ concatenates_S128x1024_S128x1024_S256x1024_d0 (ix2 d n) rfl rfl
      (ix2 (⟨d.val - 128, by omega⟩ : Fin 128) n) (fun b hb => ?_) ?_).trans ?_
    · match b with
      | ⟨0, _⟩ => exact absurd rfl hb
      | ⟨1, _⟩ => rfl
    · show d.val - 128 + 128 = d.val
      omega
    · exact shapeCast_1ab_ab_apply v62 shapeCasts_S1x128x1024_S128x1024 _ _

/-- The key operand of the score product, the sum of the two key tiles laid over the first of them, named. -/
def kcat (v3 v5 : Vec Ideal S1x128x512 .f32) : FVec Ideal S256x512 .bf16 :=
  concatenate S256x512 0
    [⟨S128x512, truncf .bf16 (addf (k0_pay8 v5) (shapeCast S128x512 v3 shapeCasts_S1x128x512_S128x512)) bitsLt_bf16_f32⟩,
     ⟨S128x512, truncf .bf16 (shapeCast S128x512 v3 shapeCasts_S1x128x512_S128x512) bitsLt_bf16_f32⟩]
    concatenates_S128x512_S128x512_S256x512_d0

/-- Its upper half: at row `c` below 128, the two key tiles' sum at `(0, c, j)`. -/
theorem kcat_apply_lo (v3 v5 : Vec Ideal S1x128x512 .f32) (c : Fin 128) (j : Fin 512) :
    kcat v3 v5 (ix2 (⟨c.val, by omega⟩ : Fin 256) j) = v5 (ix3 (0 : Fin 1) c j) + v3 (ix3 (0 : Fin 1) c j) := by
  unfold kcat
  refine (concatenate_pair_apply_left _ _ _ concatenates_S128x512_S128x512_S256x512_d0
    (ix2 (⟨c.val, by omega⟩ : Fin 256) j) rfl (ix2 c j) (fun b => ?_)).trans ?_
  · match b with
    | ⟨0, _⟩ => rfl
    | ⟨1, _⟩ => rfl
  · show k0_pay8 v5 (ix2 c j) + shapeCast S128x512 v3 shapeCasts_S1x128x512_S128x512 (ix2 c j) = _
    unfold k0_pay8
    rw [shapeCast_1ab_ab_apply, shapeCast_1ab_ab_apply]

/-- Its lower half: at row `c + 128`, the first key tile at `(0, c, j)`. -/
theorem kcat_apply_hi (v3 v5 : Vec Ideal S1x128x512 .f32) (c : Fin 128) (j : Fin 512) :
    kcat v3 v5 (ix2 (⟨c.val + 128, by omega⟩ : Fin 256) j) = v3 (ix3 (0 : Fin 1) c j) := by
  unfold kcat
  refine (concatenate_pair_apply_right _ _ _ concatenates_S128x512_S128x512_S256x512_d0
    (ix2 (⟨c.val + 128, by omega⟩ : Fin 256) j) rfl rfl (ix2 c j) (fun b hb => ?_) ?_).trans ?_
  · match b with
    | ⟨0, _⟩ => exact absurd rfl hb
    | ⟨1, _⟩ => rfl
  · rfl
  · exact shapeCast_1ab_ab_apply v3 shapeCasts_S1x128x512_S128x512 _ _

end Cert.KernelIdeal.Pay
-- ==== Proof.Pay3Score.lean ====
/-
  The score tile read at an index, at the extended reals: a product into the zero accumulator that contracts the
  ROWS of both operands, the assembled query operand [256, 1024] and the key operand [256, 512]; its 256 terms split
  into the 128 of the two key tiles' sum and the 128 of the first key tile alone.
-/
import proofs.«143733_j15865609191815_2_alg».proof.Proof.Gen.KernelIdeal.Skeleton
import proofs.«143733_j15865609191815_2_alg».proof.Proof.Pay0Layout
import proofs.«143733_j15865609191815_2_alg».proof.Proof.Pay2Concat

noncomputable section

namespace Cert.KernelIdeal.Pay

open Cert.KernelIdeal Cert.KernelIdeal.Gen
open Idealize.ShloMosaic Idealize.ShloMosaic.ValueIdx

open scoped BigOperators

/-- A sum over 256 terms is the sum of its first 128 and of its last 128. -/
theorem sum_fin256_split {M : Type*} [AddCommMonoid M] (f : Fin 256 → M) :
    ∑ i : Fin 256, f i
      = (∑ c : Fin 128, f (⟨c.val, by omega⟩ : Fin 256)) + ∑ c : Fin 128, f (⟨c.val + 128, by omega⟩ : Fin 256) := by
  refine (Fin.sum_univ_add (a := 128) (b := 128) f).trans ?_
  refine congrArg₂ (· + ·) rfl (Finset.sum_congr rfl fun c _ => congrArg f (Fin.ext ?_))
  show 128 + c.val = c.val + 128
  omega

/-- The score product's left operand index at output `(n, j)` and contraction coordinate `i` is `(i, n)`. -/
theorem score_lhsIdx (n : Fin 1024) (j : Fin 512) (i : Fin 256) :
    dot_S256x1024_S256x512_S1024x512_0_0_1_1_n_n.lhsIdx (ix2 n j) ((contrEquiv1 dot_S256x1024_S256x512_S1024x512_0_0_1_1_n_n 256 rfl rfl).symm i) = ix2 i n := by
  funext a
  apply Fin.ext
  match a with
  | ⟨0, _⟩ =>
    refine (DotDims.lhsIdx_val_of_single dot_S256x1024_S256x512_S1024x512_0_0_1_1_n_n (cl := (0 : Fin 2)) rfl _ _).trans ?_
    exact contrEquiv1_symm_val dot_S256x1024_S256x512_S1024x512_0_0_1_1_n_n 256 rfl rfl i
  | ⟨1, _⟩ => rfl

/-- The score product's right operand index at output `(n, j)` and contraction coordinate `i` is `(i, j)`. -/
theorem score_rhsIdx (n : Fin 1024) (j : Fin 512) (i : Fin 256) :
    dot_S256x1024_S256x512_S1024x512_0_0_1_1_n_n.rhsIdx (ix2 n j) ((contrEquiv1 dot_S256x1024_S256x512_S1024x512_0_0_1_1_n_n 256 rfl rfl).symm i) = ix2 i j := by
  funext a
  apply Fin.ext
  match a with
  | ⟨0, _⟩ =>
    refine (DotDims.rhsIdx_val_of_single dot_S256x1024_S256x512_S1024x512_0_0_1_1_n_n (cr := (0 : Fin 2)) rfl _ _).trans ?_
    exact contrEquiv1_symm_val dot_S256x1024_S256x512_S1024x512_0_0_1_1_n_n 256 rfl rfl i
  | ⟨1, _⟩ => rfl

/-- The score tile is the product of the assembled query operand and the key operand into zero. -/
theorem k0_pay9_eq (v3 v5 : Vec Ideal S1x128x512 .f32) (v11 : Vec Ideal S256x1024 .bf16) :
    k0_pay9 v3 v5 v11
      = FloatOps.matmul (φ₁ := .bf16) (φ₂ := .bf16) dot_S256x1024_S256x512_S1024x512_0_0_1_1_n_n none v11 (kcat v3 v5)
          (constant (F := Ideal) S1024x512 .f32 0x00000000#32) := rfl

/-- The score tile at `(n, j)`: over the 128 feature rows, the query operand's upper half against the two key tiles'
    sum, plus its lower half against the first key tile. -/
theorem score_apply (v3 v5 : Vec Ideal S1x128x512 .f32) (v11 : Vec Ideal S256x1024 .bf16) (n : Fin 1024) (j : Fin 512) :
    k0_pay9 v3 v5 v11 (ix2 n j)
      = (∑ c : Fin 128, v11 (ix2 (⟨c.val, by omega⟩ : Fin 256) n) * (v5 (ix3 (0 : Fin 1) c j) + v3 (ix3 (0 : Fin 1) c j)))
        + ∑ c : Fin 128, v11 (ix2 (⟨c.val + 128, by omega⟩ : Fin 256) n) * v3 (ix3 (0 : Fin 1) c j) := by
  rw [k0_pay9_eq]
  refine (Ideal.matmul_constant_zero_apply (φ₁ := .bf16) (φ₂ := .bf16) dot_S256x1024_S256x512_S1024x512_0_0_1_1_n_n none v11 (kcat v3 v5) (ix2 n j)).trans ?_
  refine (Equiv.sum_comp (contrEquiv1 dot_S256x1024_S256x512_S1024x512_0_0_1_1_n_n 256 rfl rfl).symm _).symm.trans ?_
  refine (Finset.sum_congr rfl fun i _ => by rw [score_lhsIdx, score_rhsIdx]).trans ?_
  refine (sum_fin256_split fun i : Fin 256 => v11 (ix2 i n) * kcat v3 v5 (ix2 i j)).trans ?_
  congr 1
  · exact Finset.sum_congr rfl fun c _ => by rw [kcat_apply_lo]
  · exact Finset.sum_congr rfl fun c _ => by rw [kcat_apply_hi]

end Cert.KernelIdeal.Pay
-- ==== Proof.Pay5PV.lean ====
/-
  The product of the second key tile with the exponentiated scores read at an index, at the extended reals: a
  product into the zero accumulator that contracts the LANES of both operands, [128, 512] and [1024, 512].
-/
import proofs.«143733_j15865609191815_2_alg».proof.Proof.Gen.KernelIdeal.Skeleton
import proofs.«143733_j15865609191815_2_alg».proof.Proof.Pay0Layout

noncomputable section

namespace Cert.KernelIdeal.Pay

open Cert.KernelIdeal Cert.KernelIdeal.Gen
open Idealize.ShloMosaic Idealize.ShloMosaic.ValueIdx

open scoped BigOperators

/-- The product's left operand index at output `(c, n)` and contraction coordinate `i` is `(c, i)`. -/
theorem pv_lhsIdx (c : Fin 128) (n : Fin 1024) (i : Fin 512) :
    dot_S128x512_S1024x512_S128x1024_1_1_0_0_n_n.lhsIdx (ix2 c n) ((contrEquiv1 dot_S128x512_S1024x512_S128x1024_1_1_0_0_n_n 512 rfl rfl).symm i) = ix2 c i := by
  funext a
  apply Fin.ext
  match a with
  | ⟨0, _⟩ => rfl
  | ⟨1, _⟩ =>
    refine (DotDims.lhsIdx_val_of_single dot_S128x512_S1024x512_S128x1024_1_1_0_0_n_n (cl := (1 : Fin 2)) rfl _ _).trans ?_
    exact contrEquiv1_symm_val dot_S128x512_S1024x512_S128x1024_1_1_0_0_n_n 512 rfl rfl i

/-- The product's right operand index at output `(c, n)` and contraction coordinate `i` is `(n, i)`. -/
theorem pv_rhsIdx (c : Fin 128) (n : Fin 1024) (i : Fin 512) :
    dot_S128x512_S1024x512_S128x1024_1_1_0_0_n_n.rhsIdx (ix2 c n) ((contrEquiv1 dot_S128x512_S1024x512_S128x1024_1_1_0_0_n_n 512 rfl rfl).symm i) = ix2 n i := by
  funext a
  apply Fin.ext
  match a with
  | ⟨0, _⟩ => rfl
  | ⟨1, _⟩ =>
    refine (DotDims.rhsIdx_val_of_single dot_S128x512_S1024x512_S128x1024_1_1_0_0_n_n (cr := (1 : Fin 2)) rfl _ _).trans ?_
    exact contrEquiv1_symm_val dot_S128x512_S1024x512_S128x1024_1_1_0_0_n_n 512 rfl rfl i

/-- The payload is the product of the second key tile and the exponentiated scores into zero. -/
theorem k0_pay14_eq (v3 v5 : Vec Ideal S1x128x512 .f32) (v11 : Vec Ideal S256x1024 .bf16) (v13 : Vec Ideal S1024x1 .f32) :
    k0_pay14 v3 v5 v11 v13
      = FloatOps.matmul (φ₁ := .bf16) (φ₂ := .bf16) dot_S128x512_S1024x512_S128x1024_1_1_0_0_n_n none
          (truncf .bf16 (k0_pay8 v5) bitsLt_bf16_f32) (truncf .bf16 (k0_pay12 v3 v5 v11 v13) bitsLt_bf16_f32)
          (constant (F := Ideal) S128x1024 .f32 0x00000000#32) := rfl

/-- The product at `(c, n)`: over the tile's 512 keys, the second key tile's feature `c` times query `n`'s
    exponentiated score. -/
theorem pv_apply (v3 v5 : Vec Ideal S1x128x512 .f32) (v11 : Vec Ideal S256x1024 .bf16) (v13 : Vec Ideal S1024x1 .f32)
    (c : Fin 128) (n : Fin 1024) :
    k0_pay14 v3 v5 v11 v13 (ix2 c n)
      = ∑ j : Fin 512, v5 (ix3 (0 : Fin 1) c j) * k0_pay12 v3 v5 v11 v13 (ix2 n j) := by
  rw [k0_pay14_eq]
  refine (Ideal.matmul_constant_zero_apply (φ₁ := .bf16) (φ₂ := .bf16) dot_S128x512_S1024x512_S128x1024_1_1_0_0_n_n none _ _ (ix2 c n)).trans ?_
  refine (Equiv.sum_comp (contrEquiv1 dot_S128x512_S1024x512_S128x1024_1_1_0_0_n_n 512 rfl rfl).symm _).symm.trans ?_
  refine Finset.sum_congr rfl fun i _ => ?_
  rw [pv_lhsIdx, pv_rhsIdx]
  exact congrArg (· * k0_pay12 v3 v5 v11 v13 (ix2 n i))
    (shapeCast_1ab_ab_apply v5 shapeCasts_S1x128x512_S128x512 c i)

end Cert.KernelIdeal.Pay
-- ==== Proof.KStep.lean ====
/-
  One key tile of the walk, as the body's arithmetic.  If the assembled query operand holds, in column nn, the entries
  of Q and of P at query position N (Q's channels first, then P's), and the two key tiles hold P and Q at key positions
  512·k + j, then the body's new running maximum, running sum and accumulator at (nn, cc) are one step of the walk of
  row N's scores against row cc of Q, from whatever triple the buffers held there.  The reset values are the walk's start.
-/
import proofs.«143733_j15865609191815_2_alg».proof.Proof.AttnFlash
import proofs.«143733_j15865609191815_2_alg».proof.Proof.Pay4Reduce
import proofs.«143733_j15865609191815_2_alg».proof.Proof.Pay1Pointwise
import proofs.«143733_j15865609191815_2_alg».proof.Proof.Pay3Score
import proofs.«143733_j15865609191815_2_alg».proof.Proof.Pay5PV

open scoped BigOperators
open Idealize.ShloMosaic Idealize.ShloMosaic.ValueIdx

noncomputable section

namespace Cert.KernelIdeal.Hand

open Cert.KernelIdeal Cert.KernelIdeal.Gen Cert.AttnSpec Cert.AttnFlash Cert.FlashAttention

/-- The assembled query operand's entry in row d for query position N: Q's channels, then P's. -/
def qcatAt (P Q : Stack) (b : Fin 4) (N : Fin 4096) (d : Fin 256) : EReal :=
  if h : d.val < 128 then Q b ⟨d.val, h⟩ N else P b ⟨d.val - 128, by omega⟩ N

/-- The body's score row is the specification's, tile k. -/
theorem score_row (P Q : Stack) (b : Fin 4) (N : Fin 4096) (k : ℕ) (hk : k < 8)
    (v3 v5 : Vec Ideal S1x128x512 .f32) (v11 : Vec Ideal S256x1024 .bf16) (nn : Fin 1024)
    (h11 : ∀ d, v11 (ix2 d nn) = qcatAt P Q b N d)
    (h3 : ∀ (c' : Fin 128) (j : Fin 512) (h : 512 * k + j.val < 4096), v3 (ix3 (0 : Fin 1) c' j) = P b c' ⟨512 * k + j.val, h⟩)
    (h5 : ∀ (c' : Fin 128) (j : Fin 512) (h : 512 * k + j.val < 4096), v5 (ix3 (0 : Fin 1) c' j) = Q b c' ⟨512 * k + j.val, h⟩)
    (j : Fin 512) : k0_pay9 v3 v5 v11 (ix2 nn j) = xrow P Q b N k j := by
  have hj : 512 * k + j.val < 4096 := by have := j.isLt; omega
  rw [Pay.score_apply]
  unfold xrow score
  rw [dif_pos hj]
  congr 1
  · refine Finset.sum_congr rfl fun c' _ => ?_
    rw [h11, h3 c' j hj, h5 c' j hj]
    unfold qcatAt
    rw [dif_pos c'.isLt]
  · refine Finset.sum_congr rfl fun c' _ => ?_
    rw [h11, h3 c' j hj]
    unfold qcatAt
    rw [dif_neg (by simp)]
    congr 2

/-- ONE TILE: the body's three stores at (nn, cc) are a step of the walk. -/
theorem tile_step (P Q : Stack) (b : Fin 4) (N : Fin 4096) (k : ℕ) (hk : k < 8)
    (v3 v5 : Vec Ideal S1x128x512 .f32) (v11 : Vec Ideal S256x1024 .bf16) (v13 v22 : Vec Ideal S1024x1 .f32)
    (v34 : Vec Ideal S128x1024 .f32) (nn : Fin 1024) (cc : Fin 128)
    (h11 : ∀ d, v11 (ix2 d nn) = qcatAt P Q b N d)
    (h3 : ∀ (c' : Fin 128) (j : Fin 512) (h : 512 * k + j.val < 4096), v3 (ix3 (0 : Fin 1) c' j) = P b c' ⟨512 * k + j.val, h⟩)
    (h5 : ∀ (c' : Fin 128) (j : Fin 512) (h : 512 * k + j.val < 4096), v5 (ix3 (0 : Fin 1) c' j) = Q b c' ⟨512 * k + j.val, h⟩)
    (s : EReal × EReal × EReal) (hM : v13 (ix2 nn (0 : Fin 1)) = s.1) (hL : v22 (ix2 nn (0 : Fin 1)) = s.2.1)
    (hA : v34 (ix2 cc nn) = s.2.2) :
    k0_pay2 (k0_pay10 v3 v5 v11 v13) (ix2 nn (0 : Fin 1)) = (step s (xrow P Q b N k) (vrow Q b cc k)).1
    ∧ k0_pay13 v3 v5 v11 v13 v22 (ix2 nn (0 : Fin 1)) = (step s (xrow P Q b N k) (vrow Q b cc k)).2.1
    ∧ k0_pay1 (k0_pay14 v3 v5 v11 v13) (k0_pay15 v3 v5 v11 v13) v34 (ix2 cc nn) = (step s (xrow P Q b N k) (vrow Q b cc k)).2.2 := by
  have hrow : (fun j : Fin 512 => k0_pay9 v3 v5 v11 (ix2 nn j)) = xrow P Q b N k :=
    funext fun j => score_row P Q b N k hk v3 v5 v11 nn h11 h3 h5 j
  have hval : ∀ j : Fin 512, v5 (ix3 (0 : Fin 1) cc j) = vrow Q b cc k j := fun j => by
    have hj : 512 * k + j.val < 4096 := by have := j.isLt; omega
    unfold vrow; rw [dif_pos hj, h5 cc j hj]
  have hmax : k0_pay10 v3 v5 v11 v13 (ix2 nn (0 : Fin 1)) = max s.1 (Finset.univ.fold max (⊥ : EReal) (xrow P Q b N k)) := by
    rw [Pay.max_apply, hM, hrow]
  have hp : ∀ j : Fin 512, k0_pay12 v3 v5 v11 v13 (ix2 nn j)
      = Ideal.exp (xrow P Q b N k j - max s.1 (Finset.univ.fold max (⊥ : EReal) (xrow P Q b N k))) := fun j => by
    rw [Pay.p_apply, hmax, congrFun hrow j]
  have halpha : k0_pay11 v3 v5 v11 v13 (ix2 nn (0 : Fin 1))
      = Ideal.exp (s.1 - max s.1 (Finset.univ.fold max (⊥ : EReal) (xrow P Q b N k))) := by
    rw [Pay.alpha_apply, hM, hmax]
  refine ⟨?_, ?_, ?_⟩
  · rw [Pay.m_apply]; exact hmax
  · rw [Pay.l_apply, halpha, hL]
    simp only [hp]
    rfl
  · rw [Pay.acc_apply, Pay.arow_apply, halpha, Pay.pv_apply, hA]
    simp only [hp, hval]
    rfl

end Cert.KernelIdeal.Hand

end
-- ==== Proof.KInv.lean ====
/-
  The invariant of the walk over the grid.  A grid point is (b, qi, ki) = (t / 32, t / 8 mod 4, t mod 8).  After the body at
  point t, at local query position nn (global position N = qi·1024 + nn) and channel cc, the running maximum, the running
  sum and the accumulator hold the walk of row N's scores against row cc of Q after ki + 1 tiles, the query operand's
  column nn holds Q's and P's entries at N, and at ki = 7 the output tile holds the walk's result.  By induction on the
  point: the first key tile of a row starts the walk, every other continues it from what the point before left.
-/
import proofs.«143733_j15865609191815_2_alg».proof.Proof.KRead
import proofs.«143733_j15865609191815_2_alg».proof.Proof.KBlocks
import proofs.«143733_j15865609191815_2_alg».proof.Proof.KStep

set_option maxRecDepth 16384

noncomputable section

namespace Cert.KernelIdeal.Hand

open Cert.KernelIdeal Cert.KernelIdeal.Gen Cert.AttnSpec Cert.AttnFlash Cert.FlashAttention
open Idealize.ShloMosaic Idealize.ShloMosaic.TcCoe Idealize.ShloMosaic.ValueIdx Idealize.SL.Sem

variable (m : (ℓ : Loc nD τ sig) → Buf (Elt Ideal) ℓ)

/-- The two stacks as the region finds them. -/
def Pk (c : Dev nD) : Stack := stk (V m c main_v0)
def Qk (c : Dev nD) : Stack := stk (V m c main_v1)

/-- The batch of a point, and the global query position of a local one. -/
def bOf (n : ℕ) : Fin 4 := ⟨n / 32 % 4, Nat.mod_lt _ (by norm_num)⟩
def NOf (n : ℕ) (nn : Fin 1024) : Fin 4096 :=
  ⟨n / 8 % 4 * 1024 + nn.val, by have := nn.isLt; have := Nat.mod_lt (n / 8) (by norm_num : 4 > 0); omega⟩

/-- What holds of the buffers after the body at point n. -/
def Inv (c : Dev nD) (n : ℕ) (hn : n < cfg0.N) : Prop :=
  ∀ (nn : Fin 1024) (cc : Fin 128),
    (outsAt0 (F := Ideal) m c n hn).2.1 (ix2 nn (0 : Fin 1)) = (run (xrow (Pk m c) (Qk m c) (bOf n) (NOf n nn)) (vrow (Qk m c) (bOf n) cc) (n % 8 + 1)).1
    ∧ (outsAt0 (F := Ideal) m c n hn).2.2.1 (ix2 nn (0 : Fin 1)) = (run (xrow (Pk m c) (Qk m c) (bOf n) (NOf n nn)) (vrow (Qk m c) (bOf n) cc) (n % 8 + 1)).2.1
    ∧ (outsAt0 (F := Ideal) m c n hn).2.2.2.1 (ix2 cc nn) = (run (xrow (Pk m c) (Qk m c) (bOf n) (NOf n nn)) (vrow (Qk m c) (bOf n) cc) (n % 8 + 1)).2.2
    ∧ (∀ d : Fin 256, (outsAt0 (F := Ideal) m c n hn).2.2.2.2 (ix2 d nn) = qcatAt (Pk m c) (Qk m c) (bOf n) (NOf n nn) d)
    ∧ (n % 8 = 7 → (outsAt0 (F := Ideal) m c n hn).1 (ix3 (0 : Fin 1) cc nn) = flashOut (Pk m c) (Qk m c) (bOf n) cc (NOf n nn))

/-- The key tiles at point t hold P and Q at key positions 512·(t mod 8) + j. -/
theorem key_P (c : Dev nD) (t : Fin cfg0.N) (c' : Fin 128) (j : Fin 512) (h : 512 * (t.val % 8) + j.val < 4096) :
    iblk m c 2 t (ix3 (0 : Fin 1) c' j) = Pk m c (bOf t.val) c' ⟨512 * (t.val % 8) + j.val, h⟩ := by
  have hN : t.val < 128 := lt_of_lt_of_eq t.isLt (show cfg0.N = 128 from N_0)
  rw [iblk2_apply m c t c' j (by omega) (by omega)]
  unfold Pk stk bOf
  congr 1
  funext a; apply Fin.ext
  match a with
  | ⟨0, _⟩ => show t.val / 32 = t.val / 32 % 4; omega
  | ⟨1, _⟩ => rfl
  | ⟨2, _⟩ => show t.val % 8 * 512 + j.val = 512 * (t.val % 8) + j.val; omega

theorem key_Q (c : Dev nD) (t : Fin cfg0.N) (c' : Fin 128) (j : Fin 512) (h : 512 * (t.val % 8) + j.val < 4096) :
    iblk m c 3 t (ix3 (0 : Fin 1) c' j) = Qk m c (bOf t.val) c' ⟨512 * (t.val % 8) + j.val, h⟩ := by
  have hN : t.val < 128 := lt_of_lt_of_eq t.isLt (show cfg0.N = 128 from N_0)
  rw [iblk3_apply m c t c' j (by omega) (by omega)]
  unfold Qk stk bOf
  congr 1
  funext a; apply Fin.ext
  match a with
  | ⟨0, _⟩ => show t.val / 32 = t.val / 32 % 4; omega
  | ⟨1, _⟩ => rfl
  | ⟨2, _⟩ => show t.val % 8 * 512 + j.val = 512 * (t.val % 8) + j.val; omega

/-- The query operand assembled at point t holds, in column nn, Q's and P's entries at the global query position. -/
theorem query_cat (c : Dev nD) (t : Fin cfg0.N) (nn : Fin 1024) (d : Fin 256) :
    k0_pay7 (iblk m c 1 t) (iblk m c 0 t) (ix2 d nn) = qcatAt (Pk m c) (Qk m c) (bOf t.val) (NOf t.val nn) d := by
  have hN : t.val < 128 := lt_of_lt_of_eq t.isLt (show cfg0.N = 128 from N_0)
  have hnn := nn.isLt
  rw [Pay.qcat_apply]
  unfold qcatAt
  by_cases h : d.val < 128
  · rw [dif_pos h, dif_pos h, iblk1_apply m c t ⟨d.val, h⟩ nn (by omega) (by omega)]
    unfold Qk stk bOf NOf
    congr 1
    funext a; apply Fin.ext
    match a with
    | ⟨0, _⟩ => show t.val / 32 = t.val / 32 % 4; omega
    | ⟨1, _⟩ => rfl
    | ⟨2, _⟩ => rfl
  · rw [dif_neg h, dif_neg h, iblk0_apply m c t ⟨d.val - 128, by have := d.isLt; omega⟩ nn (by omega) (by omega)]
    unfold Pk stk bOf NOf
    congr 1
    funext a; apply Fin.ext
    match a with
    | ⟨0, _⟩ => show t.val / 32 = t.val / 32 % 4; omega
    | ⟨1, _⟩ => rfl
    | ⟨2, _⟩ => rfl

/-- The first key tile of a row starts the walk. -/
theorem inv_A (c : Dev nD) (t : Fin cfg0.N) (h0 : t.val % 8 = 0) : Inv m c t.val t.isLt := by
  intro nn cc
  have h1 : ¬t.val % 8 = 7 := by omega
  rw [outsAt0_A m c t h0 h1]
  unfold stA
  dsimp only
  rw [sM_A_eq, sL_A_eq, sA_A_eq, sQ_A_eq]
  have hstep := tile_step (Pk m c) (Qk m c) (bOf t.val) (NOf t.val nn) (t.val % 8) (by omega) (iblk m c 2 t) (iblk m c 3 t)
    (k0_pay7 (iblk m c 1 t) (iblk m c 0 t)) (k0_pay4 (F := Ideal)) (k0_pay5 (F := Ideal)) (k0_pay6 (F := Ideal)) nn cc
    (fun d => query_cat m c t nn d) (fun c' j h => key_P m c t c' j h) (fun c' j h => key_Q m c t c' j h)
    ((⊥ : EReal), (0 : EReal), (0 : EReal)) (Pay.init_m_apply nn) (Pay.init_l_apply nn) (Pay.init_acc_apply cc nn)
  rw [h0] at hstep ⊢
  refine ⟨hstep.1, hstep.2.1, hstep.2.2, fun d => query_cat m c t nn d, fun h7 => absurd h7 (by omega)⟩

/-- Every other key tile continues the walk from what the point before left. -/
theorem inv_step (c : Dev nD) (t : Fin cfg0.N) (h0 : ¬t.val % 8 = 0)
    (ih : Inv m c (t.val - 1) (Nat.lt_of_le_of_lt (Nat.sub_le _ _) t.isLt)) : Inv m c t.val t.isLt := by
  intro nn cc
  have hN : t.val < 128 := lt_of_lt_of_eq t.isLt (show cfg0.N = 128 from N_0)
  obtain ⟨iM, iL, iA, iQ, -⟩ := ih nn cc
  have eb : bOf (t.val - 1) = bOf t.val := by unfold bOf; apply Fin.ext; show (t.val - 1) / 32 % 4 = t.val / 32 % 4; omega
  have eN : NOf (t.val - 1) nn = NOf t.val nn := by unfold NOf; apply Fin.ext; show (t.val - 1) / 8 % 4 * 1024 + nn.val = t.val / 8 % 4 * 1024 + nn.val; omega
  have ek : (t.val - 1) % 8 + 1 = t.val % 8 := by omega
  rw [eb, eN, ek] at iM iL iA
  rw [eb, eN] at iQ
  have hstep := fun (p : St Ideal) (hM : p.2.1 (ix2 nn (0 : Fin 1)) = _) (hL : p.2.2.1 (ix2 nn (0 : Fin 1)) = _) (hA : p.2.2.2.1 (ix2 cc nn) = _)
      (hQ : ∀ d, p.2.2.2.2 (ix2 d nn) = qcatAt (Pk m c) (Qk m c) (bOf t.val) (NOf t.val nn) d) =>
    tile_step (Pk m c) (Qk m c) (bOf t.val) (NOf t.val nn) (t.val % 8) (by omega) (iblk m c 2 t) (iblk m c 3 t)
      p.2.2.2.2 p.2.1 p.2.2.1 p.2.2.2.1 nn cc hQ (fun c' j h => key_P m c t c' j h) (fun c' j h => key_Q m c t c' j h)
      (run (xrow (Pk m c) (Qk m c) (bOf t.val) (NOf t.val nn)) (vrow (Qk m c) (bOf t.val) cc) (t.val % 8)) hM hL hA
  have hs := hstep _ iM iL iA iQ
  by_cases h1 : t.val % 8 = 7
  · rw [outsAt0_C m c t h0 h1]
    unfold stC
    dsimp only
    rw [sM_C_eq, sL_C_eq, sA_C_eq, o4_C_eq]
    refine ⟨hs.1, hs.2.1, hs.2.2, iQ, fun _ => ?_⟩
    rw [Pay.out_apply, hs.2.1, hs.2.2]
    have e : ∀ k : ℕ, k = 7 →
        (run (xrow (Pk m c) (Qk m c) (bOf t.val) (NOf t.val nn)) (vrow (Qk m c) (bOf t.val) cc) (k + 1)).2.2
          * Ideal.div 1 (run (xrow (Pk m c) (Qk m c) (bOf t.val) (NOf t.val nn)) (vrow (Qk m c) (bOf t.val) cc) (k + 1)).2.1
        = flashOut (Pk m c) (Qk m c) (bOf t.val) cc (NOf t.val nn) := fun k hk => by subst hk; rfl
    exact e (t.val % 8) h1
  · rw [outsAt0_B m c t h0 h1]
    unfold stB
    dsimp only
    rw [sM_B_eq, sL_B_eq, sA_B_eq]
    exact ⟨hs.1, hs.2.1, hs.2.2, iQ, fun h7 => absurd h7 h1⟩

/-- THE INVARIANT holds after every point. -/
theorem inv_all (c : Dev nD) : ∀ (n : ℕ) (hn : n < cfg0.N), Inv m c n hn
  | 0, hn => inv_A m c ⟨0, hn⟩ rfl
  | n + 1, hn => by
    by_cases h0 : (n + 1) % 8 = 0
    · exact inv_A m c ⟨n + 1, hn⟩ h0
    · exact inv_step m c ⟨n + 1, hn⟩ h0 (inv_all c n (Nat.lt_of_succ_lt hn))

end Cert.KernelIdeal.Hand

end
-- ==== Proof.KFinal.lean ====
/-
  From the output tiles to the output array.  The output window writes its tile back at the last key tile of each row,
  to batch b, all channels, positions qi·1024 + nn: the 16 tiles written tile the whole [4, 128, 4096] array, and each holds
  the walk's result at its entries.  So after the run the array is the walk's result everywhere; and for stacks of real
  numbers that is the attention of the specification.
-/
import proofs.«143733_j15865609191815_2_alg».proof.Proof.KInv
import Idealize.ShloMosaic.Lib.Pipeline.Value

set_option maxRecDepth 16384

noncomputable section

namespace Cert.KernelIdeal.Hand

open Cert.KernelIdeal Cert.KernelIdeal.Gen Cert.AttnSpec Cert.AttnFlash Cert.FlashAttention
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The output array after the run: the walk's result at every entry. -/
def G (c : Dev nD) : S4x128x4096.Idx → EReal :=
  fun i => flashOut (Pk m c) (Qk m c) (i 0) (i 1) (i 2)

set_option maxHeartbeats 1000000 in
/-- What a point at the last key tile of a row writes back is its block of that array. -/
theorem flushed4_eq (c : Dev nD) (t : Fin cfg0.N) (hf : (cfg0.win 4).flush t = true) :
    (dats (F := Ideal) m 0 c).flushed 4 t = ((cfg0.win 4).blk t).view.read (Elt Ideal) (G m c) := by
  have h7 : t.val % 8 = 7 := (flush0_4 t).mp hf
  have hN : t.val < 128 := lt_of_lt_of_eq t.isLt (show cfg0.N = 128 from N_0)
  obtain ⟨e00, e01, e02, e10, e11, e12, e20, e21, e22, e30, e31, e32, e40, e41, e42⟩ := idx_facts t
  show (cfg0.win 4).cut (grid0.coords t) ((dats (F := Ideal) m 0 c).after 4 t) = _
  rw [after0_4]
  funext y
  show (outsAt0 (F := Ideal) m c t.val t.isLt).1 ((cfg0.win 4).xinj (grid0.coords t) y) = G m c (((cfg0.win 4).blk t).view.emb y)
  have h0 : (y 0).val < 1 := (y 0).isLt
  have h1 : (y 1).val < 128 := (y 1).isLt
  have h2 : (y 2).val < 1024 := (y 2).isLt
  have hy : (cfg0.win 4).xinj (grid0.coords t) y = ix3 (0 : Fin 1) (⟨(y 1).val, h1⟩ : Fin 128) (⟨(y 2).val, h2⟩ : Fin 1024) := by
    funext a; apply Fin.ext
    match a with
    | ⟨0, _⟩ => show (y 0).val = 0; omega
    | ⟨1, _⟩ => rfl
    | ⟨2, _⟩ => rfl
  rw [hy, (inv_all m c t.val t.isLt ⟨(y 2).val, h2⟩ ⟨(y 1).val, h1⟩).2.2.2.2 h7]
  have e0 : bOf t.val = (((cfg0.win 4).blk t).view.emb y) 0 :=
    Fin.ext (by show t.val / 32 % 4 = win0_4.index t (0 : Fin 3) * 1 + 1 * (y 0).val; omega)
  have e1 : (⟨(y 1).val, h1⟩ : Fin 128) = (((cfg0.win 4).blk t).view.emb y) 1 :=
    Fin.ext (by show (y 1).val = win0_4.index t (1 : Fin 3) * 128 + 1 * (y 1).val; omega)
  have e2 : NOf t.val ⟨(y 2).val, h2⟩ = (((cfg0.win 4).blk t).view.emb y) 2 :=
    Fin.ext (by show t.val / 8 % 4 * 1024 + (y 2).val = win0_4.index t (2 : Fin 3) * 1024 + 1 * (y 2).val; omega)
  rw [e0, e1, e2]
  rfl

/-- An index of the array is in point t's block iff each coordinate is in the block's range. -/
theorem mem_blk4 (t : Fin cfg0.N) (i : S4x128x4096.Idx) :
    i ∈ ((cfg0.win 4).blk t).view.set ↔ ∀ a : Fin 3, win0_4.index t a * S1x128x1024.size a ≤ (i a).val ∧ (i a).val < win0_4.index t a * S1x128x1024.size a + S1x128x1024.size a := by
  show i ∈ ((View.whole main_v2).slice (win0_4.rect t)).set ↔ _
  rw [View.set_slice_whole, Rect.mem_set_unit]
  exact Iff.rfl

/-- Every entry is in the block of some point that writes back. -/
theorem cover4 (i : S4x128x4096.Idx) : ∃ t : Fin cfg0.N, (cfg0.win 4).flush t = true ∧ i ∈ ((cfg0.win 4).blk t).view.set := by
  have hi0 : (i 0).val < 4 := (i 0).isLt
  have hi1 : (i 1).val < 128 := (i 1).isLt
  have hi2 : (i 2).val < 4096 := (i 2).isLt
  have hN : cfg0.N = 128 := N_0
  refine ⟨⟨(i 0).val * 32 + (i 2).val / 1024 * 8 + 7, by rw [hN]; omega⟩, ?_, ?_⟩
  · exact (flush0_4 _).mpr (by show ((i 0).val * 32 + (i 2).val / 1024 * 8 + 7) % 8 = 7; omega)
  · rw [mem_blk4]
    obtain ⟨e00, e01, e02, e10, e11, e12, e20, e21, e22, e30, e31, e32, e40, e41, e42⟩ :=
      idx_facts ⟨(i 0).val * 32 + (i 2).val / 1024 * 8 + 7, by rw [hN]; omega⟩
    have f0 : ((i 0).val * 32 + (i 2).val / 1024 * 8 + 7) / 32 = (i 0).val := by omega
    have f2 : ((i 0).val * 32 + (i 2).val / 1024 * 8 + 7) / 8 % 4 = (i 2).val / 1024 := by omega
    intro a
    match a with
    | ⟨0, _⟩ => show win0_4.index _ (0 : Fin 3) * 1 ≤ (i 0).val ∧ (i 0).val < win0_4.index _ (0 : Fin 3) * 1 + 1; rw [e40]; dsimp only; omega
    | ⟨1, _⟩ => show win0_4.index _ (1 : Fin 3) * 128 ≤ (i 1).val ∧ (i 1).val < win0_4.index _ (1 : Fin 3) * 128 + 128; rw [e41]; omega
    | ⟨2, _⟩ => show win0_4.index _ (2 : Fin 3) * 1024 ≤ (i 2).val ∧ (i 2).val < win0_4.index _ (2 : Fin 3) * 1024 + 1024; rw [e42]; dsimp only; omega

/-- THE OUTPUT ARRAY after the run. -/
theorem final4 (c : Dev nD) : (dats (F := Ideal) m 0 c).arrAt 4 cfg0.N = G m c :=
  (dats (F := Ideal) m 0 c).arrAt_eq_of_cover 4 (G m c) (fun t hf => flushed4_eq m c t hf) (cover4)

end Cert.KernelIdeal.Hand

end
-- ==== Proof.RefTerms.lean ====
/-
  The reference program's result as a term of its arguments.

  The program reshapes its two image arguments [4, 128, 64, 64] to stacks [4, 128, 4096] (a channel, a position), computes
  an attention of the two stacks, and sends the result through a fixed tail: back to the image shape, a scale, a
  normalisation of every channel over batch and positions, an affine map, a rectifier, and the second argument added.
  The attention is named step by step — the scores (two batched products contracted over the channel, added), the row
  maximum taken from −∞, the exponentials of the scores less their row's maximum, the row sums, and the batched product of
  the second stack with the quotients, contracted over the key position; the tail is one term.  Every operation is the
  program's own, in its order and spelling, at the extended reals.
-/
import proofs.«143733_j15865609191815_2_alg».proof.Proof.Gen.ReferenceIdeal
import Idealize.ShloMosaic.PureOps.Ideal

noncomputable section

namespace Cert.ReferenceIdeal.Hand

open Cert.ReferenceIdeal Cert.ReferenceIdeal.Gen Idealize.ShloMosaic

/-- An image [4, 128, 64, 64] as a stack [4, 128, 4096]: the same elements in row-major order. -/
def toBCN (a : FVec Ideal S4x128x64x64 .f32) : FVec Ideal S4x128x4096 .f32 :=
  fun i => shapeCast S4x128x4096 a shapeCasts_S4x128x64x64_S4x128x4096 i

/-- The scores [4, 4096, 4096]: q against q + p, plus p against p, each contracted over the channel. -/
def scoreT (p q : FVec Ideal S4x128x4096 .f32) : FVec Ideal S4x4096x4096 .f32 :=
  addf (Host.dotGeneral dot_S4x128x4096_S4x128x4096_S4x4096x4096_1_1_2_2_0_0 none q (addf q p)) (Host.dotGeneral dot_S4x128x4096_S4x128x4096_S4x4096x4096_1_1_2_2_0_0 none p p)

/-- The row maxima [4, 4096]: −∞ against the reduction of the scores over the key position from −∞. -/
def maxT (p q : FVec Ideal S4x128x4096 .f32) : FVec Ideal S4x4096 .f32 :=
  maximumf (broadcastInDim S4x4096 ![] bcast_S_S4x4096 (constant (F := Ideal) S_ .f32 0xFF800000#32))
    (Host.reduce FloatOps.maximumf (scoreT p q) (constant (F := Ideal) S_ .f32 0xFF800000#32) reducesTo_S4x4096x4096_S4x4096_d2 h_S_)

/-- The exponentials [4, 4096, 4096] of the scores less their row's maximum. -/
def expT (p q : FVec Ideal S4x128x4096 .f32) : FVec Ideal S4x4096x4096 .f32 :=
  Host.exp (subf (scoreT p q)
    (broadcastInDim S4x4096x4096 ![0, 1, 2] bcast_S4x4096x1_S4x4096x4096_0_1_2
      (broadcastInDim S4x4096x1 ![0, 1] bcast_S4x4096_S4x4096x1_0_1 (maxT p q))))

/-- The row sums [4, 4096] of the exponentials, from zero. -/
def sumT (p q : FVec Ideal S4x128x4096 .f32) : FVec Ideal S4x4096 .f32 :=
  Host.reduceAdd (expT p q) (constant (F := Ideal) S_ .f32 0x00000000#32) reducesTo_S4x4096x4096_S4x4096_d2 h_S_

/-- The attention [4, 128, 4096]: q against the exponentials over their row sums, contracted over the key position. -/
def attnTerm (p q : FVec Ideal S4x128x4096 .f32) : FVec Ideal S4x128x4096 .f32 :=
  Host.dotGeneral dot_S4x128x4096_S4x4096x4096_S4x128x4096_2_2_1_1_0_0 none q
    (Host.divf (expT p q)
      (broadcastInDim S4x4096x4096 ![0, 1, 2] bcast_S4x4096x1_S4x4096x4096_0_1_2
        (broadcastInDim S4x4096x1 ![0, 1] bcast_S4x4096_S4x4096x1_0_1 (sumT p q))))

/-- The tail, from the attention `A`: the image shape, the scale by `a2`, the channel's mean and variance over batch and
    positions (the variance's divisor and its guard as the program computes them), the reciprocal root of the variance
    plus the small constant, the affine map by `a3` and `a4`, the maximum with zero, and `a1` added. -/
def tail (A : FVec Ideal S4x128x4096 .f32) (a1 : FVec Ideal S4x128x64x64 .f32) (a2 : FVec Ideal S1 .f32)
    (a3 a4 : FVec Ideal S128 .f32) : FVec Ideal S4x128x64x64 .f32 :=
  (addf
    (maximumf
      (addf
        (mulf
          (mulf
            (subf
              (mulf
                (broadcastInDim S4x128x64x64 ![0, 1, 2, 3] bcast_S1x1x1x1_S4x128x64x64_0_1_2_3 (broadcastInDim S1x1x1x1 ![3] bcast_S1_S1x1x1x1_3 a2))
                (shapeCast S4x128x64x64 A shapeCasts_S4x128x4096_S4x128x64x64))
              (broadcastInDim S4x128x64x64 ![0, 1, 2, 3] bcast_S1x128x1x1_S4x128x64x64_0_1_2_3
                (Host.divf
                  (broadcastInDim S1x128x1x1 ![1] bcast_S128_S1x128x1x1_1
                    (Host.reduceAdd
                      (mulf
                        (broadcastInDim S4x128x64x64 ![0, 1, 2, 3] bcast_S1x1x1x1_S4x128x64x64_0_1_2_3
                          (broadcastInDim S1x1x1x1 ![3] bcast_S1_S1x1x1x1_3 a2))
                        (shapeCast S4x128x64x64 A shapeCasts_S4x128x4096_S4x128x64x64))
                      (constant (F := Ideal) S_ .f32 0x00000000#32)
                      reducesTo_S4x128x64x64_S128_d0_2_3
                      h_S_))
                  (broadcastInDim S1x128x1x1 ![] bcast_S_S1x128x1x1 (constant (F := Ideal) S_ .f32 0x46800000#32)))))
            (broadcastInDim S4x128x64x64 ![0, 1, 2, 3] bcast_S1x128x1x1_S4x128x64x64_0_1_2_3
              (Host.rsqrt
                (addf
                  (select
                    (broadcastInDim S1x128x1x1 ![] bcast_S_S1x128x1x1
                      (cmpf
                        (F := Ideal)
                        .ogt
                        (subf (constant (F := Ideal) S_ .f32 0x46800000#32) (sitofp (F := Ideal) .f32 (constantI S_ 32 0#32)))
                        (constant (F := Ideal) S_ .f32 0x00000000#32)))
                    (Host.divf
                      (broadcastInDim S1x128x1x1 ![1] bcast_S128_S1x128x1x1_1
                        (Host.reduceAdd
                          (mulf
                            (subf
                              (mulf
                                (broadcastInDim S4x128x64x64 ![0, 1, 2, 3] bcast_S1x1x1x1_S4x128x64x64_0_1_2_3
                                  (broadcastInDim S1x1x1x1 ![3] bcast_S1_S1x1x1x1_3 a2))
                                (shapeCast S4x128x64x64 A shapeCasts_S4x128x4096_S4x128x64x64))
                              (broadcastInDim S4x128x64x64 ![0, 1, 2, 3] bcast_S1x128x1x1_S4x128x64x64_0_1_2_3
                                (Host.divf
                                  (broadcastInDim S1x128x1x1 ![1] bcast_S128_S1x128x1x1_1
                                    (Host.reduceAdd
                                      (mulf
                                        (broadcastInDim S4x128x64x64 ![0, 1, 2, 3] bcast_S1x1x1x1_S4x128x64x64_0_1_2_3
                                          (broadcastInDim S1x1x1x1 ![3] bcast_S1_S1x1x1x1_3 a2))
                                        (shapeCast S4x128x64x64 A shapeCasts_S4x128x4096_S4x128x64x64))
                                      (constant (F := Ideal) S_ .f32 0x00000000#32)
                                      reducesTo_S4x128x64x64_S128_d0_2_3
                                      h_S_))
                                  (broadcastInDim S1x128x1x1 ![] bcast_S_S1x128x1x1 (constant (F := Ideal) S_ .f32 0x46800000#32)))))
                            (subf
                              (mulf
                                (broadcastInDim S4x128x64x64 ![0, 1, 2, 3] bcast_S1x1x1x1_S4x128x64x64_0_1_2_3
                                  (broadcastInDim S1x1x1x1 ![3] bcast_S1_S1x1x1x1_3 a2))
                                (shapeCast S4x128x64x64 A shapeCasts_S4x128x4096_S4x128x64x64))
                              (broadcastInDim S4x128x64x64 ![0, 1, 2, 3] bcast_S1x128x1x1_S4x128x64x64_0_1_2_3
                                (Host.divf
                                  (broadcastInDim S1x128x1x1 ![1] bcast_S128_S1x128x1x1_1
                                    (Host.reduceAdd
                                      (mulf
                                        (broadcastInDim S4x128x64x64 ![0, 1, 2, 3] bcast_S1x1x1x1_S4x128x64x64_0_1_2_3
                                          (broadcastInDim S1x1x1x1 ![3] bcast_S1_S1x1x1x1_3 a2))
                                        (shapeCast S4x128x64x64 A shapeCasts_S4x128x4096_S4x128x64x64))
                                      (constant (F := Ideal) S_ .f32 0x00000000#32)
                                      reducesTo_S4x128x64x64_S128_d0_2_3
                                      h_S_))
                                  (broadcastInDim S1x128x1x1 ![] bcast_S_S1x128x1x1 (constant (F := Ideal) S_ .f32 0x46800000#32))))))
                          (constant (F := Ideal) S_ .f32 0x00000000#32)
                          reducesTo_S4x128x64x64_S128_d0_2_3
                          h_S_))
                      (broadcastInDim S1x128x1x1 ![] bcast_S_S1x128x1x1
                        (subf (constant (F := Ideal) S_ .f32 0x46800000#32) (sitofp (F := Ideal) .f32 (constantI S_ 32 0#32)))))
                    (broadcastInDim S1x128x1x1 ![] bcast_S_S1x128x1x1 (id (constant (F := Ideal) S_ .f32 0x7FC00000#32))))
                  (broadcastInDim S1x128x1x1 ![] bcast_S_S1x128x1x1 (constant (F := Ideal) S_ .f32 0x3727C5AC#32))))))
          (broadcastInDim S4x128x64x64 ![0, 1, 2, 3] bcast_S1x128x1x1_S4x128x64x64_0_1_2_3 (shapeCast S1x128x1x1 a3 shapeCasts_S128_S1x128x1x1)))
        (broadcastInDim S4x128x64x64 ![0, 1, 2, 3] bcast_S1x128x1x1_S4x128x64x64_0_1_2_3 (shapeCast S1x128x1x1 a4 shapeCasts_S128_S1x128x1x1)))
      (broadcastInDim S4x128x64x64 ![] bcast_S_S4x128x64x64 (constant (F := Ideal) S_ .f32 0x00000000#32)))
    a1)

end Cert.ReferenceIdeal.Hand

end
-- ==== Proof.KTailRead.lean ====
/-
  The kernel program's tail, read at its result.

  After the attention region the kernel's entry function runs the same fifty-two host operations as the reference does
  after its attention: the image shape, the scale, the normalisation of every channel over batch and positions (the
  variance and the selection inside it executed as called functions, over buffers of their own), the affine map, the
  rectifier, and the second argument added.  The line is in single-assignment form, so its fold over any contents is read
  at the result buffer operation by operation, down to the attention's buffer and the arguments; the term reached is the
  reference's tail of them — the two programs name their shapes separately, but the names unfold to the same literals.
-/
import proofs.«143733_j15865609191815_2_alg».proof.Proof.KRuns
import proofs.«143733_j15865609191815_2_alg».proof.Proof.RefTerms
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

set_option maxRecDepth 4096 in
set_option maxHeartbeats 3200000 in
/-- The five stretches after the region, as one line, at the kernel's result buffer: the reference's tail of what the
    line finds in the attention's buffer and in the last four arguments. -/
theorem tail_read (W : Valuation Cert.KernelIdeal.τ Cert.KernelIdeal.sig (Elt Ideal)) :
    StableHlo.after ((tailOps (F := Ideal)).flatten) W (Proc.devRef .tc main_v26)
      = Cert.ReferenceIdeal.Hand.tail (W (Proc.devRef .tc main_v2)) (W (Proc.devRef .tc main_arg1))
          (W (Proc.devRef .tc main_arg2)) (W (Proc.devRef .tc main_arg3)) (W (Proc.devRef .tc main_arg4)) := by
  simp only [tailOps, List.flatten_cons, List.flatten_nil, List.cons_append, List.nil_append, List.append_nil,
    hostOps1, hostOps1_1, hostOps1_2, hostOps1_3, hostOps1_4]
  after_results_simp
  rfl

end Cert.KernelIdeal.Hand

end
-- ==== Proof.LibRealEntries.lean ====
/-
  Extended reals that are real numbers: a small library.

  `IsReal x` says the extended real `x` is a real number (neither infinity). Real entries are closed under
  sums, products and finite sums; an entry below +∞ in absolute value is real; a scatter-add of real updates
  onto a real operand is real everywhere. The coercion ℝ → EReal commutes with finite sums. Last, one algebraic
  law that needs real entries (distributivity fails at the infinities): a row `a` through two affine maps in a
  row, `(a · W₁ + b₁) · W₂ + b₂`, is the row through the collapsed map, `a · (W₁ W₂) + (b₁ · W₂ + b₂)`.
-/
import Idealize.ShloMosaic.PureOps.Ideal

namespace Cert.Hand

open scoped BigOperators

/-- An extended real that is a real number (neither infinity). -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- An extended real strictly between the infinities in absolute value is a real number. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for a row `a`, weights `w₁`, `w₂` (the second at one output column) and biases `b₁`, `b₂`,
    all real, the collapsed affine map `a · (w₁ w₂) + (b₁ · w₂ + b₂)` is the two maps in a row,
    `(a · w₁ + b₁) · w₂ + b₂`. -/
theorem affine_collapse {K L : Type} [Fintype K] [Fintype L]
    (a : K → EReal) (w₁ : K → L → EReal) (b₁ : L → EReal) (w₂ : L → EReal) (b₂ : EReal)
    (ha : ∀ k, IsReal (a k)) (hw₁ : ∀ k l, IsReal (w₁ k l)) (hb₁ : ∀ l, IsReal (b₁ l))
    (hw₂ : ∀ l, IsReal (w₂ l)) (hb₂ : IsReal b₂) :
    (∑ k, a k * ∑ l, w₁ k l * w₂ l) + ((∑ l, b₁ l * w₂ l) + b₂)
      = (∑ l, ((∑ k, a k * w₁ k l) + b₁ l) * w₂ l) + b₂ := by
  choose a' ha' using ha
  choose w₁' hw₁' using hw₁
  choose b₁' hb₁' using hb₁
  choose w₂' hw₂' using hw₂
  obtain ⟨b₂', rfl⟩ := hb₂
  obtain rfl : a = fun k => (a' k : EReal) := funext ha'
  obtain rfl : w₁ = fun k l => (w₁' k l : EReal) := funext fun k => funext (hw₁' k)
  obtain rfl : b₁ = fun l => (b₁' l : EReal) := funext hb₁'
  obtain rfl : w₂ = fun l => (w₂' l : EReal) := funext hw₂'
  simp only [← EReal.coe_mul, ← coe_sum, ← EReal.coe_add]
  congr 1
  simp only [Finset.mul_sum, add_mul, Finset.sum_mul, Finset.sum_add_distrib]
  rw [Finset.sum_comm]
  simp only [mul_assoc, add_assoc]

/-- A scatter-add of real updates onto a real operand is real everywhere: each entry is the operand's entry
    plus a finite sum of updates (the ones that land on it). -/
theorem hostScatterAdd_isReal {s si su : Idealize.ShloMosaic.Shape} (d : Idealize.ShloMosaic.ScatterDims s si su) {w : Nat}
    (x : s.Idx → EReal) (idx : Idealize.ShloMosaic.IVec si w) (upd : su.Idx → EReal)
    (hx : ∀ i, IsReal (x i)) (hu : ∀ j, IsReal (upd j)) (i : s.Idx) :
    IsReal (Idealize.ShloMosaic.Ideal.hostScatterAdd d x idx upd i) :=
  IsReal.add (hx i) (IsReal.sum _ _ fun j _ => hu j)

end Cert.Hand
-- ==== Proof.FinitePre.lean ====
/-
  Finiteness of the inputs, read off the precondition.

  The precondition says of each of the five argument arrays x that the conjunction over all its entries of
  |x i| < +∞ is true, and that the five conjunctions are all true.  Over the extended reals |x| is max x (-x) and the
  constant the entries are compared with, the single-precision pattern 0x7F800000, is +∞.  An extended real whose
  absolute value is below +∞ is neither infinity, so it is a real number.  Hence under the precondition every entry of
  every argument array is a real number.
-/
import proofs.«143733_j15865609191815_2_alg».proof.Defs
import proofs.«143733_j15865609191815_2_alg».proof.Proof.Gen.Pre_finite_inputs
import proofs.«143733_j15865609191815_2_alg».proof.Proof.LibRealEntries
import Idealize.ShloMosaic.Lib.ReduceAll

noncomputable section

namespace Cert.KernelIdeal.FinitePre

open Idealize.ShloMosaic Idealize.SL.Sem

/-- The rank-0 shape has one index. -/
instance : Subsingleton Cert.Pre_finite_inputs.S_.Idx := ⟨fun a b => funext fun d => d.elim0⟩

/-- The single-precision pattern 0x7F800000 (sign 0, exponent all ones, significand 0) denotes +∞. -/
theorem top_bits : Ideal.ofBits .f32 0x7F800000#32 = (⊤ : EReal) := by
  simp [Ideal.ofBits, Ideal.ieee]

/-- One entry: if the comparison |x| < +∞ came out true then x is a real number. -/
theorem real_of_cmp (x : EReal)
    (h : Ideal.cmp .olt (max x (-x)) (Ideal.ofBits .f32 0x7F800000#32) = 1#1) : ∃ r : ℝ, x = (r : EReal) := by
  rw [top_bits] at h
  have h2 : BitVec.ofBool (decide (max x (-x) < ⊤)) = 1#1 := h
  by_cases hlt : max x (-x) < ⊤
  · exact Cert.Hand.isReal_of_abs_lt_top hlt
  · rw [decide_eq_false hlt] at h2
    exact absurd h2 (by decide)

/-- The predicate decoded: if it is true of five arrays then every entry of each is a real number.  The predicate's
    value at its one index is a five-fold conjunction; each conjunct is a conjunction over all entries of one array,
    which is true only if every entry's comparison is. -/
theorem decode (a0 a1 : FVec Ideal Cert.Pre_finite_inputs.S4x128x64x64 .f32) (a2 : FVec Ideal Cert.Pre_finite_inputs.S1 .f32)
    (a3 a4 : FVec Ideal Cert.Pre_finite_inputs.S128 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h (fun d => d.elim0)
  dsimp only [Cert.Pre_finite_inputs.fn, Cert.Pre_finite_inputs.fn_part1] at e
  obtain ⟨e1, r4⟩ := IntOp.andi_eq_one.1 e
  obtain ⟨e2, r3⟩ := IntOp.andi_eq_one.1 e1
  obtain ⟨e3, r2⟩ := IntOp.andi_eq_one.1 e2
  obtain ⟨r0, r1⟩ := IntOp.andi_eq_one.1 e3
  exact ⟨fun i => real_of_cmp (a0 i) (Host.reduce_andi_all _ _ _ _ _ r0 i),
         fun i => real_of_cmp (a1 i) (Host.reduce_andi_all _ _ _ _ _ r1 i),
         fun i => real_of_cmp (a2 i) (Host.reduce_andi_all _ _ _ _ _ r2 i),
         fun i => real_of_cmp (a3 i) (Host.reduce_andi_all _ _ _ _ _ r3 i),
         fun i => real_of_cmp (a4 i) (Host.reduce_andi_all _ _ _ _ _ r4 i)⟩

/-- Under the precondition every entry of argument 0 is a real number, on every device. -/
theorem arg0_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S4x128x64x64.Idx) :
    ∃ r : ℝ, m ((c.tc : Thread Cert.KernelIdeal.nD Cert.KernelIdeal.τ).loc Cert.KernelIdeal.main_arg0) i = (r : EReal) :=
  (decode _ _ _ _ _ (h c)).1 i

/-- Under the precondition every entry of argument 1 is a real number, on every device. -/
theorem arg1_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S4x128x64x64.Idx) :
    ∃ r : ℝ, m ((c.tc : Thread Cert.KernelIdeal.nD Cert.KernelIdeal.τ).loc Cert.KernelIdeal.main_arg1) i = (r : EReal) :=
  (decode _ _ _ _ _ (h c)).2.1 i

/-- Under the precondition every entry of argument 2 is a real number, on every device. -/
theorem arg2_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S1.Idx) :
    ∃ r : ℝ, m ((c.tc : Thread Cert.KernelIdeal.nD Cert.KernelIdeal.τ).loc Cert.KernelIdeal.main_arg2) i = (r : EReal) :=
  (decode _ _ _ _ _ (h c)).2.2.1 i

/-- Under the precondition every entry of argument 3 is a real number, on every device. -/
theorem arg3_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S128.Idx) :
    ∃ r : ℝ, m ((c.tc : Thread Cert.KernelIdeal.nD Cert.KernelIdeal.τ).loc Cert.KernelIdeal.main_arg3) i = (r : EReal) :=
  (decode _ _ _ _ _ (h c)).2.2.2.1 i

/-- Under the precondition every entry of argument 4 is a real number, on every device. -/
theorem arg4_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S128.Idx) :
    ∃ r : ℝ, m ((c.tc : Thread Cert.KernelIdeal.nD Cert.KernelIdeal.τ).loc Cert.KernelIdeal.main_arg4) i = (r : EReal) :=
  (decode _ _ _ _ _ (h c)).2.2.2.2 i

end Cert.KernelIdeal.FinitePre

end
-- ==== Proof.RefAttnIdx.lean ====
/-
  Indices of the attention's operations by their coordinates.

  The two batched products each contract one axis, so a contraction index is one coordinate: the channel (128 values) for
  the scores, the key position (4096 values) for the result.  At output index (b, n, m) and channel c the scores' product
  reads its left operand at (b, c, n) and its right operand at (b, c, m); at output index (b, c, n) and key position m the
  result's product reads its left operand at (b, c, m) and its right operand at (b, n, m).  The reductions over the key
  position put the coordinate m back after (b, n); a row value broadcast along the key position reads (b, n) at (b, n, m).
-/
import proofs.«143733_j15865609191815_2_alg».proof.Proof.RefTerms
import Idealize.ShloMosaic.PureOps.Reduce
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx

/-- The scores' product: batch axis 0, contracting the channel axis 1 of both operands. -/
abbrev D1 : DotDims S4x128x4096 S4x128x4096 S4x4096x4096 := dot_S4x128x4096_S4x128x4096_S4x4096x4096_1_1_2_2_0_0
/-- The result's product: batch axis 0, contracting the key-position axis 2 of both operands. -/
abbrev D2 : DotDims S4x128x4096 S4x4096x4096 S4x128x4096 := dot_S4x128x4096_S4x4096x4096_S4x128x4096_2_2_1_1_0_0

/-- The scores [4, 4096, 4096] reduce over their last axis to rows [4, 4096]. -/
theorem red_d2 : S4x4096x4096.Reduces [2] S4x4096 := by decide

/-- The row index (b, n) with the key position m put back is (b, n, m). -/
theorem lift_d2 (b : Fin 4) (n m : Fin 4096) : red_d2.lift (ix2 b n) (m : Fin (S4x4096x4096.size 2)) = ix3 b n m := by
  funext a
  match a with
  | ⟨0, _⟩ => rfl
  | ⟨1, _⟩ => rfl
  | ⟨2, _⟩ => rfl

/-- A contraction index of the scores' product is a channel. -/
abbrev e1 : D1.contr.Idx ≃ Fin 128 := contrEquiv1 D1 128 rfl rfl
/-- A contraction index of the result's product is a key position. -/
abbrev e2 : D2.contr.Idx ≃ Fin 4096 := contrEquiv1 D2 4096 rfl rfl

theorem lhs1 (b : Fin 4) (n m : Fin 4096) (c : Fin 128) : D1.lhsIdx (ix3 b n m) (e1.symm c) = ix3 b c n := by
  funext a
  match a with
  | ⟨0, _⟩ => exact Fin.ext rfl
  | ⟨1, _⟩ =>
    refine Fin.ext ?_
    have h := D1.lhsIdx_val_of_single (cl := 1) rfl (ix3 b n m) (e1.symm c)
    exact h.trans (contrEquiv1_symm_val D1 128 rfl rfl c)
  | ⟨2, _⟩ => exact Fin.ext rfl

theorem rhs1 (b : Fin 4) (n m : Fin 4096) (c : Fin 128) : D1.rhsIdx (ix3 b n m) (e1.symm c) = ix3 b c m := by
  funext a
  match a with
  | ⟨0, _⟩ => exact Fin.ext rfl
  | ⟨1, _⟩ =>
    refine Fin.ext ?_
    have h := D1.rhsIdx_val_of_single (cr := 1) rfl (ix3 b n m) (e1.symm c)
    exact h.trans (contrEquiv1_symm_val D1 128 rfl rfl c)
  | ⟨2, _⟩ => exact Fin.ext rfl

theorem lhs2 (b : Fin 4) (c : Fin 128) (n m : Fin 4096) : D2.lhsIdx (ix3 b c n) (e2.symm m) = ix3 b c m := by
  funext a
  match a with
  | ⟨0, _⟩ => exact Fin.ext rfl
  | ⟨1, _⟩ => exact Fin.ext rfl
  | ⟨2, _⟩ =>
    refine Fin.ext ?_
    have h := D2.lhsIdx_val_of_single (cl := 2) rfl (ix3 b c n) (e2.symm m)
    exact h.trans (contrEquiv1_symm_val D2 4096 rfl rfl m)

theorem rhs2 (b : Fin 4) (c : Fin 128) (n m : Fin 4096) : D2.rhsIdx (ix3 b c n) (e2.symm m) = ix3 b n m := by
  funext a
  match a with
  | ⟨0, _⟩ => exact Fin.ext rfl
  | ⟨1, _⟩ => exact Fin.ext rfl
  | ⟨2, _⟩ =>
    refine Fin.ext ?_
    have h := D2.rhsIdx_val_of_single (cr := 2) rfl (ix3 b c n) (e2.symm m)
    exact h.trans (contrEquiv1_symm_val D2 4096 rfl rfl m)

/-- A row value [4, 4096] broadcast to [4, 4096, 1] and then along the key position reads (b, n) at (b, n, m). -/
theorem bc2 {α : Type} (x : S4x4096.Idx → α) (b : Fin 4) (n m : Fin 4096) :
    broadcastInDim S4x4096x4096 ![0, 1, 2] bcast_S4x4096x1_S4x4096x4096_0_1_2
      (broadcastInDim S4x4096x1 ![0, 1] bcast_S4x4096_S4x4096x1_0_1 x) (ix3 b n m) = x (ix2 b n) := by
  rw [broadcastInDim_apply _ _ _ (ix3 b n m) (ix3 b n (0 : Fin 1)) (by
    intro a
    match a with
    | ⟨0, _⟩ => rfl
    | ⟨1, _⟩ => rfl
    | ⟨2, _⟩ => rfl)]
  rw [broadcastInDim_apply _ _ _ (ix3 b n (0 : Fin 1)) (ix2 b n) (by
    intro a
    match a with
    | ⟨0, _⟩ => rfl
    | ⟨1, _⟩ => rfl)]

end Cert.ReferenceIdeal.Hand

end
-- ==== Proof.RefAttn.lean ====
/-
  The attention term read at an index.

  Each operation of the attention is read at one element: a batched product is the sum over its one contracted coordinate
  of the operands' products, the reduction with a maximum from −∞ is the fold of the maximum over the key positions (and
  the maximum of −∞ with it is itself), the reduction with a sum from zero is the sum over the key positions, a row value
  broadcast along the key position is read at its row, and the exponential, the difference and the quotient are taken
  element by element.  Put together, element (b, c, n) of the term is the attention of the two stacks there.  Nothing is
  assumed of the inputs: every equation holds on the extended reals as the operations are defined there.
-/
import proofs.«143733_j15865609191815_2_alg».proof.Proof.RefAttnIdx
import proofs.«143733_j15865609191815_2_alg».proof.Proof.AttnSpec
import Idealize.ShloMosaic.Lib.IdealHost
import Idealize.ShloMosaic.PureOps.Ideal.Laws

open scoped BigOperators

noncomputable section

namespace Cert.ReferenceIdeal.Hand

open Cert.ReferenceIdeal Cert.ReferenceIdeal.Gen Idealize.ShloMosaic Idealize.ShloMosaic.ValueIdx Cert.AttnSpec

/-- The scores' product at (b, n, m): the sum over the channel of left (b, c, n) times right (b, c, m). -/
theorem dot1_apply (l r : FVec Ideal S4x128x4096 .f32) (b : Fin 4) (n m : Fin 4096) :
    Host.dotGeneral D1 none l r (ix3 b n m) = ∑ c : Fin 128, l (ix3 b c n) * r (ix3 b c m) := by
  show FloatOps.dotGeneral D1 none .single l r (ix3 b n m) = _
  rw [Ideal.dotGeneral_apply, ← Equiv.sum_comp e1.symm]
  refine Finset.sum_congr rfl fun c _ => ?_
  rw [lhs1, rhs1]

/-- The result's product at (b, c, n): the sum over the key position of left (b, c, m) times right (b, n, m). -/
theorem dot2_apply (l : FVec Ideal S4x128x4096 .f32) (r : FVec Ideal S4x4096x4096 .f32) (b : Fin 4) (c : Fin 128)
    (n : Fin 4096) :
    Host.dotGeneral D2 none l r (ix3 b c n) = ∑ m : Fin 4096, l (ix3 b c m) * r (ix3 b n m) := by
  show FloatOps.dotGeneral D2 none .single l r (ix3 b c n) = _
  rw [Ideal.dotGeneral_apply, ← Equiv.sum_comp e2.symm]
  refine Finset.sum_congr rfl fun m _ => ?_
  rw [lhs2, rhs2]

/-- The host's exponential at an index is the extended reals' exponential of the element. -/
theorem hostExp_apply {s : Shape} {φ : FTy} (x : FVec Ideal s φ) (i : s.Idx) : Host.exp x i = Ideal.exp (x i) := rfl

/-- The pattern of the reductions' initial value is −∞. -/
theorem ofBits_negInf : Ideal.ofBits .f32 0xFF800000#32 = (⊥ : EReal) := by simp [Ideal.ofBits, Ideal.ieee]

theorem scoreT_apply (p q : FVec Ideal S4x128x4096 .f32) (b : Fin 4) (n m : Fin 4096) :
    scoreT p q (ix3 b n m) = score (stk p) (stk q) b n m := by
  unfold scoreT score
  rw [addf_apply, dot1_apply, dot1_apply]
  rfl

theorem maxT_apply (p q : FVec Ideal S4x128x4096 .f32) (b : Fin 4) (n : Fin 4096) :
    maxT p q (ix2 b n) = rowMax (stk p) (stk q) b n := by
  unfold maxT rowMax
  rw [maximumf_apply, broadcastInDim_scalar_apply, constant_apply, ofBits_negInf, max_bot_left,
    Host.reduce_eq_fold_single FloatOps.maximumf _ _ _ red_d2 _ (ix2 b n), constant_apply, ofBits_negInf]
  have hf : (scoreT p q ∘ red_d2.lift (ix2 b n)) = fun m : Fin 4096 => score (stk p) (stk q) b n m :=
    funext fun m => (congrArg (scoreT p q) (lift_d2 b n m)).trans (scoreT_apply p q b n m)
  exact congrArg (fun f => Finset.fold max (⊥ : EReal) f (Finset.univ : Finset (Fin 4096))) hf

theorem expT_apply (p q : FVec Ideal S4x128x4096 .f32) (b : Fin 4) (n m : Fin 4096) :
    expT p q (ix3 b n m) = expo (stk p) (stk q) b n m := by
  unfold expT expo
  rw [hostExp_apply, subf_apply, bc2, scoreT_apply, maxT_apply]

theorem sumT_apply (p q : FVec Ideal S4x128x4096 .f32) (b : Fin 4) (n : Fin 4096) :
    sumT p q (ix2 b n) = rowSum (stk p) (stk q) b n := by
  unfold sumT rowSum
  rw [hostReduceAdd_apply, Ideal.hostReduceAdd_single _ red_d2, constant_apply, Ideal.ofBits_zero_f32, zero_add]
  exact Finset.sum_congr rfl fun m _ => (congrArg (expT p q) (lift_d2 b n m)).trans (expT_apply p q b n m)

/-- Element (b, c, n) of the attention term is the attention of the two stacks there. -/
theorem attnTerm_apply (p q : FVec Ideal S4x128x4096 .f32) (b : Fin 4) (c : Fin 128) (n : Fin 4096) :
    attnTerm p q (ValueIdx.ix3 b c n) = Cert.AttnSpec.attn (Cert.AttnSpec.stk p) (Cert.AttnSpec.stk q) b c n := by
  unfold attnTerm attn
  rw [dot2_apply]
  refine Finset.sum_congr rfl fun m _ => ?_
  rw [hostDivf_apply, bc2, expT_apply, sumT_apply]
  rfl

end Cert.ReferenceIdeal.Hand

end
-- ==== Proof.KValue.lean ====
/-
  The kernel's result, named.  The two stacks the region reads are the two image arguments reshaped; under the
  precondition their entries are real numbers, so the output array — the walk's result everywhere — is the attention
  of the specification, which is also what the reference's attention term is; and the result buffer is the common tail
  applied to it.
-/
import proofs.«143733_j15865609191815_2_alg».proof.Proof.KFinal
import proofs.«143733_j15865609191815_2_alg».proof.Proof.KFrame
import proofs.«143733_j15865609191815_2_alg».proof.Proof.KTailRead
import proofs.«143733_j15865609191815_2_alg».proof.Proof.FinitePre
import proofs.«143733_j15865609191815_2_alg».proof.Proof.RefAttn
import Idealize.ShloMosaic.Lib.StableHlo.Run

set_option maxRecDepth 16384

noncomputable section

namespace Cert.KernelIdeal.Hand

open Cert.KernelIdeal Cert.KernelIdeal.Gen Cert.AttnSpec Cert.AttnFlash
open Idealize.ShloMosaic Idealize.ShloMosaic.TcCoe Idealize.ShloMosaic.ValueIdx Idealize.SL.Sem Idealize.ShloMosaic.StableHlo
open Idealize.ShloMosaic.StableHlo.StraightLine (WritesAre after_kept)

variable (m : (ℓ : Loc nD τ sig) → Buf (Elt Ideal) ℓ)

/-- The stack P the region reads is the first image argument reshaped. -/
theorem V_v0 (c : Dev nD) : (V m c main_v0 : S4x128x4096.Idx → EReal)
    = shapeCast S4x128x4096 (m ((c.tc : Thread nD τ).loc main_arg0)) shapeCasts_S4x128x64x64_S4x128x4096 := by
  dsimp only [V, V0, hostOps0]
  simp only [List.flatten_cons, List.flatten_nil, List.append_nil]
  after_results
  rfl

/-- The stack Q is the second image argument reshaped. -/
theorem V_v1 (c : Dev nD) : (V m c main_v1 : S4x128x4096.Idx → EReal)
    = shapeCast S4x128x4096 (m ((c.tc : Thread nD τ).loc main_arg1)) shapeCasts_S4x128x64x64_S4x128x4096 := by
  dsimp only [V, V0, hostOps0]
  simp only [List.flatten_cons, List.flatten_nil, List.append_nil]
  after_results
  rfl

/-- Under the precondition the stacks' entries are real numbers. -/
theorem Pk_real (h : Cert.Pre_KernelIdeal (hPre_finite_inputs := Cert.Pre_finite_inputs.Gen.facts) m) (c : Dev nD)
    (b : Fin 4) (cc : Fin 128) (n : Fin 4096) : ∃ r : ℝ, Pk m c b cc n = (r : EReal) := by
  unfold Pk stk; rw [V_v0]
  exact Cert.KernelIdeal.FinitePre.arg0_real m h c _

theorem Qk_real (h : Cert.Pre_KernelIdeal (hPre_finite_inputs := Cert.Pre_finite_inputs.Gen.facts) m) (c : Dev nD)
    (b : Fin 4) (cc : Fin 128) (n : Fin 4096) : ∃ r : ℝ, Qk m c b cc n = (r : EReal) := by
  unfold Qk stk; rw [V_v1]
  exact Cert.KernelIdeal.FinitePre.arg1_real m h c _

/-- The output array is the reference's attention term of the two reshaped arguments. -/
theorem G_eq (h : Cert.Pre_KernelIdeal (hPre_finite_inputs := Cert.Pre_finite_inputs.Gen.facts) m) (c : Dev nD) :
    G m c = Cert.ReferenceIdeal.Hand.attnTerm (Cert.ReferenceIdeal.Hand.toBCN (m ((c.tc : Thread nD τ).loc main_arg0)))
      (Cert.ReferenceIdeal.Hand.toBCN (m ((c.tc : Thread nD τ).loc main_arg1))) := by
  funext i
  obtain ⟨b, cc, n, rfl⟩ : ∃ (b : Fin 4) (cc : Fin 128) (n : Fin 4096), i = ix3 b cc n := ⟨i 0, i 1, i 2, eq_ix3 i⟩
  rw [Cert.ReferenceIdeal.Hand.attnTerm_apply]
  show flashOut (Pk m c) (Qk m c) b cc n = _
  rw [flashOut_eq_attn _ _ (Pk_real m h c) (Qk_real m h c)]
  unfold Pk Qk
  rw [V_v0, V_v1]
  rfl

/-- THE RESULT: the result buffer after the run is the tail applied to the reference's attention term. -/
theorem result_eq (h : Cert.Pre_KernelIdeal (hPre_finite_inputs := Cert.Pre_finite_inputs.Gen.facts) m) (c : Dev nD) :
    Wfin m c main_v26 = Cert.ReferenceIdeal.Hand.tail
      (Cert.ReferenceIdeal.Hand.attnTerm (Cert.ReferenceIdeal.Hand.toBCN (m ((c.tc : Thread nD τ).loc main_arg0)))
        (Cert.ReferenceIdeal.Hand.toBCN (m ((c.tc : Thread nD τ).loc main_arg1))))
      (m ((c.tc : Thread nD τ).loc main_arg1)) (m ((c.tc : Thread nD τ).loc main_arg2))
      (m ((c.tc : Thread nD τ).loc main_arg3)) (m ((c.tc : Thread nD τ).loc main_arg4)) := by
  have hne : ∀ b : Ref sig .tc, b ≠ main_v2 → b ∉ [main_v0, main_v1] →
      Wexit m c (Proc.devRef .tc b) = m ((c.tc : Thread nD τ).loc b) := fun b h2 h3 => by
    unfold Wexit
    rw [Function.update_of_ne (fun e => h2 (Proc.devRef_injective _ e))]
    exact after_kept head_writes h3 _
  have e2 : Wexit m c (Proc.devRef .tc main_v2) = (dats (F := Ideal) m 0 c).arrAt 4 cfg0.N := by
    unfold Wexit; exact Function.update_self _ _ _
  unfold Wfin
  rw [tail_read, e2, hne main_arg1 (by decide) (by decide), hne main_arg2 (by decide) (by decide),
    hne main_arg3 (by decide) (by decide), hne main_arg4 (by decide) (by decide), final4, G_eq m h c]

end Cert.KernelIdeal.Hand

end
-- ==== Proof.RefRun.lean ====
/-
  The reference program as one straight line of host operations.

  The program's entry function calls three helper functions (a variance, the selection inside it, a rectifier); a call
  executes the callee's body on the caller's operands, each value of the body in a buffer of its own.  With the three
  bodies written out at their call sites the entry function is a list of 73 operations in single-assignment form: every
  operation writes one buffer, no two the same, and none writes an argument.  This module states that list, proves the
  entry function equal to it, lists the buffers written in order, and gives the run: every execution terminates, each
  buffer ending at the fold of the operations' results over the initial contents.
-/
import proofs.«143733_j15865609191815_2_alg».proof.Proof.Gen.ReferenceIdeal
import proofs.«143733_j15865609191815_2_alg».proof.Proof.LibStraightLine
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.StableHlo.StraightLine

variable {F : FTy → Type} [FloatOps F]

/-- The entry function's operations in order, the three calls written out: the variance's twenty operations and the
    selection's three after the constant zero they are called with, the rectifier's three before the final sum. -/
abbrev ops : List (HloOp τ sig (Elt F)) :=
  [
    reshape main_arg0 main_v0 rfl shapeCasts_S4x128x64x64_S4x128x4096,
    reshape main_arg1 main_v1 rfl shapeCasts_S4x128x64x64_S4x128x4096,
    binary main_v1 main_v0 main_v2 (addf : (⟨S4x128x4096, .f32⟩ : BufTy).Contents (Elt F) → (⟨S4x128x4096, .f32⟩ : BufTy).Contents (Elt F) → (⟨S4x128x4096, .f32⟩ : BufTy).Contents (Elt F)),
    binary main_v1 main_v2 main_v3 ((fun l r => Host.dotGeneral dot_S4x128x4096_S4x128x4096_S4x4096x4096_1_1_2_2_0_0 none l r) : (⟨S4x128x4096, .f32⟩ : BufTy).Contents (Elt F) → (⟨S4x128x4096, .f32⟩ : BufTy).Contents (Elt F) → (⟨S4x4096x4096, .f32⟩ : BufTy).Contents (Elt F)),
    binary main_v0 main_v0 main_v4 ((fun l r => Host.dotGeneral dot_S4x128x4096_S4x128x4096_S4x4096x4096_1_1_2_2_0_0 none l r) : (⟨S4x128x4096, .f32⟩ : BufTy).Contents (Elt F) → (⟨S4x128x4096, .f32⟩ : BufTy).Contents (Elt F) → (⟨S4x4096x4096, .f32⟩ : BufTy).Contents (Elt F)),
    binary main_v3 main_v4 main_v5 (addf : (⟨S4x4096x4096, .f32⟩ : BufTy).Contents (Elt F) → (⟨S4x4096x4096, .f32⟩ : BufTy).Contents (Elt F) → (⟨S4x4096x4096, .f32⟩ : BufTy).Contents (Elt F)),
    nullary main_cst (constant S_ .f32 0xFF800000#32),
    binary main_v5 main_cst main_v6 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    nullary main_cst_0 (constant S_ .f32 0xFF800000#32),
    unary main_cst_0 main_v7 (broadcastInDim S4x4096 ![] bcast_S_S4x4096 : (⟨S_, .f32⟩ : BufTy).Contents (Elt F) → (⟨S4x4096, .f32⟩ : BufTy).Contents (Elt F)),
    binary main_v7 main_v6 main_v8 (maximumf : (⟨S4x4096, .f32⟩ : BufTy).Contents (Elt F) → (⟨S4x4096, .f32⟩ : BufTy).Contents (Elt F) → (⟨S4x4096, .f32⟩ : BufTy).Contents (Elt F)),
    unary main_v8 main_v9 (broadcastInDim S4x4096x1 ![0, 1] bcast_S4x4096_S4x4096x1_0_1 : (⟨S4x4096, .f32⟩ : BufTy).Contents (Elt F) → (⟨S4x4096x1, .f32⟩ : BufTy).Contents (Elt F)),
    unary main_v9 main_v10 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v5 main_v10 main_v11 (subf : (⟨S4x4096x4096, .f32⟩ : BufTy).Contents (Elt F) → (⟨S4x4096x4096, .f32⟩ : BufTy).Contents (Elt F) → (⟨S4x4096x4096, .f32⟩ : BufTy).Contents (Elt F)),
    unary main_v11 main_v12 (Host.exp : (⟨S4x4096x4096, .f32⟩ : BufTy).Contents (Elt F) → (⟨S4x4096x4096, .f32⟩ : BufTy).Contents (Elt F)),
    nullary main_cst_1 (constant S_ .f32 0x00000000#32),
    binary main_v12 main_cst_1 main_v13 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v13 main_v14 (broadcastInDim S4x4096x1 ![0, 1] bcast_S4x4096_S4x4096x1_0_1 : (⟨S4x4096, .f32⟩ : BufTy).Contents (Elt F) → (⟨S4x4096x1, .f32⟩ : BufTy).Contents (Elt F)),
    unary main_v14 main_v15 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v12 main_v15 main_v16 (Host.divf : (⟨S4x4096x4096, .f32⟩ : BufTy).Contents (Elt F) → (⟨S4x4096x4096, .f32⟩ : BufTy).Contents (Elt F) → (⟨S4x4096x4096, .f32⟩ : BufTy).Contents (Elt F)),
    binary main_v1 main_v16 main_v17 ((fun l r => Host.dotGeneral dot_S4x128x4096_S4x4096x4096_S4x128x4096_2_2_1_1_0_0 none l r) : (⟨S4x128x4096, .f32⟩ : BufTy).Contents (Elt F) → (⟨S4x4096x4096, .f32⟩ : BufTy).Contents (Elt F) → (⟨S4x128x4096, .f32⟩ : BufTy).Contents (Elt F)),
    reshape main_v17 main_v18 rfl shapeCasts_S4x128x4096_S4x128x64x64,
    unary main_arg2 main_v19 (broadcastInDim S1x1x1x1 ![3] bcast_S1_S1x1x1x1_3 : (⟨S1, .f32⟩ : BufTy).Contents (Elt F) → (⟨S1x1x1x1, .f32⟩ : BufTy).Contents (Elt F)),
    unary main_v19 main_v20 (broadcastInDim S4x128x64x64 ![0, 1, 2, 3] bcast_S1x1x1x1_S4x128x64x64_0_1_2_3 : (⟨S1x1x1x1, .f32⟩ : BufTy).Contents (Elt F) → (⟨S4x128x64x64, .f32⟩ : BufTy).Contents (Elt F)),
    binary main_v20 main_v18 main_v21 (mulf : (⟨S4x128x64x64, .f32⟩ : BufTy).Contents (Elt F) → (⟨S4x128x64x64, .f32⟩ : BufTy).Contents (Elt F) → (⟨S4x128x64x64, .f32⟩ : BufTy).Contents (Elt F)),
    nullary main_cst_2 (constant S_ .f32 0x00000000#32),
    binary main_v21 main_cst_2 main_v22 ((fun x v => Host.reduceAdd x v reducesTo_S4x128x64x64_S128_d0_2_3 h_S_) : (⟨S4x128x64x64, .f32⟩ : BufTy).Contents (Elt F) → (⟨S_, .f32⟩ : BufTy).Contents (Elt F) → (⟨S128, .f32⟩ : BufTy).Contents (Elt F)),
    unary main_v22 main_v23 (broadcastInDim S1x128x1x1 ![1] bcast_S128_S1x128x1x1_1 : (⟨S128, .f32⟩ : BufTy).Contents (Elt F) → (⟨S1x128x1x1, .f32⟩ : BufTy).Contents (Elt F)),
    nullary main_cst_3 (constant S_ .f32 0x46800000#32),
    unary main_cst_3 main_v24 (broadcastInDim S1x128x1x1 ![] bcast_S_S1x128x1x1 : (⟨S_, .f32⟩ : BufTy).Contents (Elt F) → (⟨S1x128x1x1, .f32⟩ : BufTy).Contents (Elt F)),
    binary main_v23 main_v24 main_v25 (Host.divf : (⟨S1x128x1x1, .f32⟩ : BufTy).Contents (Elt F) → (⟨S1x128x1x1, .f32⟩ : BufTy).Contents (Elt F) → (⟨S1x128x1x1, .f32⟩ : BufTy).Contents (Elt F)),
    nullary main_c (constantI S_ 32 0#32),
    nullary main_call0_cst (constant S_ .f32 0x00000000#32),
    binary main_v21 main_call0_cst main_call0_v0 ((fun x v => Host.reduceAdd x v reducesTo_S4x128x64x64_S128_d0_2_3 h_S_) : (⟨S4x128x64x64, .f32⟩ : BufTy).Contents (Elt F) → (⟨S_, .f32⟩ : BufTy).Contents (Elt F) → (⟨S128, .f32⟩ : BufTy).Contents (Elt F)),
    unary main_call0_v0 main_call0_v1 ((broadcastInDim S1x128x1x1 ![1] bcast_S128_S1x128x1x1_1) : (⟨S128, .f32⟩ : BufTy).Contents (Elt F) → (⟨S1x128x1x1, .f32⟩ : BufTy).Contents (Elt F)),
    nullary main_call0_cst_0 (constant S_ .f32 0x46800000#32),
    unary main_call0_cst_0 main_call0_v2 ((broadcastInDim S1x128x1x1 ![] bcast_S_S1x128x1x1) : (⟨S_, .f32⟩ : BufTy).Contents (Elt F) → (⟨S1x128x1x1, .f32⟩ : BufTy).Contents (Elt F)),
    binary main_call0_v1 main_call0_v2 main_call0_v3 (Host.divf : (⟨S1x128x1x1, .f32⟩ : BufTy).Contents (Elt F) → (⟨S1x128x1x1, .f32⟩ : BufTy).Contents (Elt F) → (⟨S1x128x1x1, .f32⟩ : BufTy).Contents (Elt F)),
    unary main_call0_v3 main_call0_v4 ((broadcastInDim S4x128x64x64 ![0, 1, 2, 3] bcast_S1x128x1x1_S4x128x64x64_0_1_2_3) : (⟨S1x128x1x1, .f32⟩ : BufTy).Contents (Elt F) → (⟨S4x128x64x64, .f32⟩ : BufTy).Contents (Elt F)),
    binary main_v21 main_call0_v4 main_call0_v5 (subf : (⟨S4x128x64x64, .f32⟩ : BufTy).Contents (Elt F) → (⟨S4x128x64x64, .f32⟩ : BufTy).Contents (Elt F) → (⟨S4x128x64x64, .f32⟩ : BufTy).Contents (Elt F)),
    binary main_call0_v5 main_call0_v5 main_call0_v6 (mulf : (⟨S4x128x64x64, .f32⟩ : BufTy).Contents (Elt F) → (⟨S4x128x64x64, .f32⟩ : BufTy).Contents (Elt F) → (⟨S4x128x64x64, .f32⟩ : BufTy).Contents (Elt F)),
    unary main_c main_call0_v7 ((sitofp .f32) : (⟨S_, .i32⟩ : BufTy).Contents (Elt F) → (⟨S_, .f32⟩ : BufTy).Contents (Elt F)),
    nullary main_call0_cst_1 (constant S_ .f32 0x46800000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S4x128x64x64_S128_d0_2_3 h_S_) : (⟨S4x128x64x64, .f32⟩ : BufTy).Contents (Elt F) → (⟨S_, .f32⟩ : BufTy).Contents (Elt F) → (⟨S128, .f32⟩ : BufTy).Contents (Elt F)),
    unary main_call0_v9 main_call0_v10 ((broadcastInDim S1x128x1x1 ![1] bcast_S128_S1x128x1x1_1) : (⟨S128, .f32⟩ : BufTy).Contents (Elt F) → (⟨S1x128x1x1, .f32⟩ : BufTy).Contents (Elt F)),
    unary main_call0_v8 main_call0_v11 ((broadcastInDim S1x128x1x1 ![] bcast_S_S1x128x1x1) : (⟨S_, .f32⟩ : BufTy).Contents (Elt F) → (⟨S1x128x1x1, .f32⟩ : BufTy).Contents (Elt F)),
    binary main_call0_v10 main_call0_v11 main_call0_v12 (Host.divf : (⟨S1x128x1x1, .f32⟩ : BufTy).Contents (Elt F) → (⟨S1x128x1x1, .f32⟩ : BufTy).Contents (Elt F) → (⟨S1x128x1x1, .f32⟩ : BufTy).Contents (Elt F)),
    nullary main_call0_cst_3 (constant S_ .f32 0x00000000#32),
    binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 ((broadcastInDim S1x128x1x1 ![] bcast_S_S1x128x1x1) : (⟨S_, .f32⟩ : BufTy).Contents (Elt F) → (⟨S1x128x1x1, .f32⟩ : BufTy).Contents (Elt F)),
    ternary main_call0_v13 main_call0_v12 main_call0_call0_v1 main_v26 ((fun p a b => select (broadcastInDim S1x128x1x1 ![] bcast_S_S1x128x1x1 p) a b) : (⟨S_, .i1⟩ : BufTy).Contents (Elt F) → (⟨S1x128x1x1, .f32⟩ : BufTy).Contents (Elt F) → (⟨S1x128x1x1, .f32⟩ : BufTy).Contents (Elt F) → (⟨S1x128x1x1, .f32⟩ : BufTy).Contents (Elt F)),
    unary main_v25 main_v27 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v21 main_v27 main_v28 (subf : (⟨S4x128x64x64, .f32⟩ : BufTy).Contents (Elt F) → (⟨S4x128x64x64, .f32⟩ : BufTy).Contents (Elt F) → (⟨S4x128x64x64, .f32⟩ : BufTy).Contents (Elt F)),
    nullary main_cst_4 (constant S_ .f32 0x3727C5AC#32),
    unary main_cst_4 main_v29 (broadcastInDim S1x128x1x1 ![] bcast_S_S1x128x1x1 : (⟨S_, .f32⟩ : BufTy).Contents (Elt F) → (⟨S1x128x1x1, .f32⟩ : BufTy).Contents (Elt F)),
    binary main_v26 main_v29 main_v30 (addf : (⟨S1x128x1x1, .f32⟩ : BufTy).Contents (Elt F) → (⟨S1x128x1x1, .f32⟩ : BufTy).Contents (Elt F) → (⟨S1x128x1x1, .f32⟩ : BufTy).Contents (Elt F)),
    unary main_v30 main_v31 (Host.rsqrt : (⟨S1x128x1x1, .f32⟩ : BufTy).Contents (Elt F) → (⟨S1x128x1x1, .f32⟩ : BufTy).Contents (Elt F)),
    unary main_v31 main_v32 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v28 main_v32 main_v33 (mulf : (⟨S4x128x64x64, .f32⟩ : BufTy).Contents (Elt F) → (⟨S4x128x64x64, .f32⟩ : BufTy).Contents (Elt F) → (⟨S4x128x64x64, .f32⟩ : BufTy).Contents (Elt F)),
    reshape main_arg3 main_v34 rfl shapeCasts_S128_S1x128x1x1,
    unary main_v34 main_v35 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v33 main_v35 main_v36 (mulf : (⟨S4x128x64x64, .f32⟩ : BufTy).Contents (Elt F) → (⟨S4x128x64x64, .f32⟩ : BufTy).Contents (Elt F) → (⟨S4x128x64x64, .f32⟩ : BufTy).Contents (Elt F)),
    reshape main_arg4 main_v37 rfl shapeCasts_S128_S1x128x1x1,
    unary main_v37 main_v38 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v36 main_v38 main_v39 (addf : (⟨S4x128x64x64, .f32⟩ : BufTy).Contents (Elt F) → (⟨S4x128x64x64, .f32⟩ : BufTy).Contents (Elt F) → (⟨S4x128x64x64, .f32⟩ : BufTy).Contents (Elt F)),
    nullary main_call1_cst (constant S_ .f32 0x00000000#32),
    unary main_call1_cst main_call1_v0 ((broadcastInDim S4x128x64x64 ![] bcast_S_S4x128x64x64) : (⟨S_, .f32⟩ : BufTy).Contents (Elt F) → (⟨S4x128x64x64, .f32⟩ : BufTy).Contents (Elt F)),
    binary main_v39 main_call1_v0 main_v40 (maximumf : (⟨S4x128x64x64, .f32⟩ : BufTy).Contents (Elt F) → (⟨S4x128x64x64, .f32⟩ : BufTy).Contents (Elt F) → (⟨S4x128x64x64, .f32⟩ : BufTy).Contents (Elt F)),
    binary main_v40 main_arg1 main_v41 (addf : (⟨S4x128x64x64, .f32⟩ : BufTy).Contents (Elt F) → (⟨S4x128x64x64, .f32⟩ : BufTy).Contents (Elt F) → (⟨S4x128x64x64, .f32⟩ : BufTy).Contents (Elt F)) ]

set_option maxRecDepth 2048 in
set_option maxHeartbeats 3200000 in
/-- The entry function is that straight line: the helper functions' bodies unfolded at their calls, both sides are one
    chain of steps once sequencing is re-associated. -/
theorem main_eq (c : Dev nD) : main (F := F) c = seq ops := by
  simp only [main, fn_var.body, fn_where.body, fn_relu.body, seq, bind_assoc, pure_bind]
  rfl

/-- The buffers the operations write, in order. -/
abbrev outs : List (Ref sig .tc) :=
  [
    main_v0, main_v1, main_v2, main_v3, main_v4, main_v5,
    main_cst, main_v6, main_cst_0, main_v7, main_v8, main_v9,
    main_v10, main_v11, main_v12, main_cst_1, main_v13, main_v14,
    main_v15, main_v16, main_v17, main_v18, main_v19, main_v20,
    main_v21, main_cst_2, main_v22, main_v23, main_cst_3, main_v24,
    main_v25, main_c, main_call0_cst, main_call0_v0, main_call0_v1, main_call0_cst_0,
    main_call0_v2, main_call0_v3, main_call0_v4, main_call0_v5, main_call0_v6, main_call0_v7,
    main_call0_cst_1, main_call0_v8, main_call0_cst_2, main_call0_v9, main_call0_v10, main_call0_v11,
    main_call0_v12, main_call0_cst_3, main_call0_v13, main_call0_cst_4, main_call0_call0_v0, main_call0_call0_v1,
    main_v26, main_v27, main_v28, main_cst_4, main_v29, main_v30,
    main_v31, main_v32, main_v33, main_v34, main_v35, main_v36,
    main_v37, main_v38, main_v39, main_call1_cst, main_call1_v0, main_v40,
    main_v41 ]

/-- Operation by operation the line writes exactly those buffers. -/
theorem writesAre : WritesAre (ops : List (HloOp τ sig (Elt F))) outs := by
  unfold WritesAre
  repeat' constructor

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own memory only. -/
theorem ops_sub : (ops : List (HloOp τ sig (Elt F))).Forall fun op => op.bufs ⊆ tcRefs τ sig :=
  ⟨
    reshape_bufs_sub .., reshape_bufs_sub .., binary_bufs_sub .., binary_bufs_sub .., binary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., reshape_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., reshape_bufs_sub .., unary_bufs_sub .., binary_bufs_sub ..,
    reshape_bufs_sub .., unary_bufs_sub .., binary_bufs_sub .., nullary_bufs_sub .., unary_bufs_sub .., binary_bufs_sub ..,
    binary_bufs_sub ..⟩

/-- From any memory with zero counters every execution of the entry function terminates, and every buffer ends at the
    fold of the operations' results over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The line in two stretches

The first stretch ends at the attention's result (the second batched product); the second is everything after it: the
scaling, the normalisation over batch and positions, the rectifier, the final sum. -/

/-- The operations up to the attention's result. -/
abbrev opsA : List (HloOp τ sig (Elt F)) :=
  [
    reshape main_arg0 main_v0 rfl shapeCasts_S4x128x64x64_S4x128x4096,
    reshape main_arg1 main_v1 rfl shapeCasts_S4x128x64x64_S4x128x4096,
    binary main_v1 main_v0 main_v2 (addf : (⟨S4x128x4096, .f32⟩ : BufTy).Contents (Elt F) → (⟨S4x128x4096, .f32⟩ : BufTy).Contents (Elt F) → (⟨S4x128x4096, .f32⟩ : BufTy).Contents (Elt F)),
    binary main_v1 main_v2 main_v3 ((fun l r => Host.dotGeneral dot_S4x128x4096_S4x128x4096_S4x4096x4096_1_1_2_2_0_0 none l r) : (⟨S4x128x4096, .f32⟩ : BufTy).Contents (Elt F) → (⟨S4x128x4096, .f32⟩ : BufTy).Contents (Elt F) → (⟨S4x4096x4096, .f32⟩ : BufTy).Contents (Elt F)),
    binary main_v0 main_v0 main_v4 ((fun l r => Host.dotGeneral dot_S4x128x4096_S4x128x4096_S4x4096x4096_1_1_2_2_0_0 none l r) : (⟨S4x128x4096, .f32⟩ : BufTy).Contents (Elt F) → (⟨S4x128x4096, .f32⟩ : BufTy).Contents (Elt F) → (⟨S4x4096x4096, .f32⟩ : BufTy).Contents (Elt F)),
    binary main_v3 main_v4 main_v5 (addf : (⟨S4x4096x4096, .f32⟩ : BufTy).Contents (Elt F) → (⟨S4x4096x4096, .f32⟩ : BufTy).Contents (Elt F) → (⟨S4x4096x4096, .f32⟩ : BufTy).Contents (Elt F)),
    nullary main_cst (constant S_ .f32 0xFF800000#32),
    binary main_v5 main_cst main_v6 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    nullary main_cst_0 (constant S_ .f32 0xFF800000#32),
    unary main_cst_0 main_v7 (broadcastInDim S4x4096 ![] bcast_S_S4x4096 : (⟨S_, .f32⟩ : BufTy).Contents (Elt F) → (⟨S4x4096, .f32⟩ : BufTy).Contents (Elt F)),
    binary main_v7 main_v6 main_v8 (maximumf : (⟨S4x4096, .f32⟩ : BufTy).Contents (Elt F) → (⟨S4x4096, .f32⟩ : BufTy).Contents (Elt F) → (⟨S4x4096, .f32⟩ : BufTy).Contents (Elt F)),
    unary main_v8 main_v9 (broadcastInDim S4x4096x1 ![0, 1] bcast_S4x4096_S4x4096x1_0_1 : (⟨S4x4096, .f32⟩ : BufTy).Contents (Elt F) → (⟨S4x4096x1, .f32⟩ : BufTy).Contents (Elt F)),
    unary main_v9 main_v10 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v5 main_v10 main_v11 (subf : (⟨S4x4096x4096, .f32⟩ : BufTy).Contents (Elt F) → (⟨S4x4096x4096, .f32⟩ : BufTy).Contents (Elt F) → (⟨S4x4096x4096, .f32⟩ : BufTy).Contents (Elt F)),
    unary main_v11 main_v12 (Host.exp : (⟨S4x4096x4096, .f32⟩ : BufTy).Contents (Elt F) → (⟨S4x4096x4096, .f32⟩ : BufTy).Contents (Elt F)),
    nullary main_cst_1 (constant S_ .f32 0x00000000#32),
    binary main_v12 main_cst_1 main_v13 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v13 main_v14 (broadcastInDim S4x4096x1 ![0, 1] bcast_S4x4096_S4x4096x1_0_1 : (⟨S4x4096, .f32⟩ : BufTy).Contents (Elt F) → (⟨S4x4096x1, .f32⟩ : BufTy).Contents (Elt F)),
    unary main_v14 main_v15 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v12 main_v15 main_v16 (Host.divf : (⟨S4x4096x4096, .f32⟩ : BufTy).Contents (Elt F) → (⟨S4x4096x4096, .f32⟩ : BufTy).Contents (Elt F) → (⟨S4x4096x4096, .f32⟩ : BufTy).Contents (Elt F)),
    binary main_v1 main_v16 main_v17 ((fun l r => Host.dotGeneral dot_S4x128x4096_S4x4096x4096_S4x128x4096_2_2_1_1_0_0 none l r) : (⟨S4x128x4096, .f32⟩ : BufTy).Contents (Elt F) → (⟨S4x4096x4096, .f32⟩ : BufTy).Contents (Elt F) → (⟨S4x128x4096, .f32⟩ : BufTy).Contents (Elt F)) ]

/-- The operations after it. -/
abbrev opsB : List (HloOp τ sig (Elt F)) :=
  [
    reshape main_v17 main_v18 rfl shapeCasts_S4x128x4096_S4x128x64x64,
    unary main_arg2 main_v19 (broadcastInDim S1x1x1x1 ![3] bcast_S1_S1x1x1x1_3 : (⟨S1, .f32⟩ : BufTy).Contents (Elt F) → (⟨S1x1x1x1, .f32⟩ : BufTy).Contents (Elt F)),
    unary main_v19 main_v20 (broadcastInDim S4x128x64x64 ![0, 1, 2, 3] bcast_S1x1x1x1_S4x128x64x64_0_1_2_3 : (⟨S1x1x1x1, .f32⟩ : BufTy).Contents (Elt F) → (⟨S4x128x64x64, .f32⟩ : BufTy).Contents (Elt F)),
    binary main_v20 main_v18 main_v21 (mulf : (⟨S4x128x64x64, .f32⟩ : BufTy).Contents (Elt F) → (⟨S4x128x64x64, .f32⟩ : BufTy).Contents (Elt F) → (⟨S4x128x64x64, .f32⟩ : BufTy).Contents (Elt F)),
    nullary main_cst_2 (constant S_ .f32 0x00000000#32),
    binary main_v21 main_cst_2 main_v22 ((fun x v => Host.reduceAdd x v reducesTo_S4x128x64x64_S128_d0_2_3 h_S_) : (⟨S4x128x64x64, .f32⟩ : BufTy).Contents (Elt F) → (⟨S_, .f32⟩ : BufTy).Contents (Elt F) → (⟨S128, .f32⟩ : BufTy).Contents (Elt F)),
    unary main_v22 main_v23 (broadcastInDim S1x128x1x1 ![1] bcast_S128_S1x128x1x1_1 : (⟨S128, .f32⟩ : BufTy).Contents (Elt F) → (⟨S1x128x1x1, .f32⟩ : BufTy).Contents (Elt F)),
    nullary main_cst_3 (constant S_ .f32 0x46800000#32),
    unary main_cst_3 main_v24 (broadcastInDim S1x128x1x1 ![] bcast_S_S1x128x1x1 : (⟨S_, .f32⟩ : BufTy).Contents (Elt F) → (⟨S1x128x1x1, .f32⟩ : BufTy).Contents (Elt F)),
    binary main_v23 main_v24 main_v25 (Host.divf : (⟨S1x128x1x1, .f32⟩ : BufTy).Contents (Elt F) → (⟨S1x128x1x1, .f32⟩ : BufTy).Contents (Elt F) → (⟨S1x128x1x1, .f32⟩ : BufTy).Contents (Elt F)),
    nullary main_c (constantI S_ 32 0#32),
    nullary main_call0_cst (constant S_ .f32 0x00000000#32),
    binary main_v21 main_call0_cst main_call0_v0 ((fun x v => Host.reduceAdd x v reducesTo_S4x128x64x64_S128_d0_2_3 h_S_) : (⟨S4x128x64x64, .f32⟩ : BufTy).Contents (Elt F) → (⟨S_, .f32⟩ : BufTy).Contents (Elt F) → (⟨S128, .f32⟩ : BufTy).Contents (Elt F)),
    unary main_call0_v0 main_call0_v1 ((broadcastInDim S1x128x1x1 ![1] bcast_S128_S1x128x1x1_1) : (⟨S128, .f32⟩ : BufTy).Contents (Elt F) → (⟨S1x128x1x1, .f32⟩ : BufTy).Contents (Elt F)),
    nullary main_call0_cst_0 (constant S_ .f32 0x46800000#32),
    unary main_call0_cst_0 main_call0_v2 ((broadcastInDim S1x128x1x1 ![] bcast_S_S1x128x1x1) : (⟨S_, .f32⟩ : BufTy).Contents (Elt F) → (⟨S1x128x1x1, .f32⟩ : BufTy).Contents (Elt F)),
    binary main_call0_v1 main_call0_v2 main_call0_v3 (Host.divf : (⟨S1x128x1x1, .f32⟩ : BufTy).Contents (Elt F) → (⟨S1x128x1x1, .f32⟩ : BufTy).Contents (Elt F) → (⟨S1x128x1x1, .f32⟩ : BufTy).Contents (Elt F)),
    unary main_call0_v3 main_call0_v4 ((broadcastInDim S4x128x64x64 ![0, 1, 2, 3] bcast_S1x128x1x1_S4x128x64x64_0_1_2_3) : (⟨S1x128x1x1, .f32⟩ : BufTy).Contents (Elt F) → (⟨S4x128x64x64, .f32⟩ : BufTy).Contents (Elt F)),
    binary main_v21 main_call0_v4 main_call0_v5 (subf : (⟨S4x128x64x64, .f32⟩ : BufTy).Contents (Elt F) → (⟨S4x128x64x64, .f32⟩ : BufTy).Contents (Elt F) → (⟨S4x128x64x64, .f32⟩ : BufTy).Contents (Elt F)),
    binary main_call0_v5 main_call0_v5 main_call0_v6 (mulf : (⟨S4x128x64x64, .f32⟩ : BufTy).Contents (Elt F) → (⟨S4x128x64x64, .f32⟩ : BufTy).Contents (Elt F) → (⟨S4x128x64x64, .f32⟩ : BufTy).Contents (Elt F)),
    unary main_c main_call0_v7 ((sitofp .f32) : (⟨S_, .i32⟩ : BufTy).Contents (Elt F) → (⟨S_, .f32⟩ : BufTy).Contents (Elt F)),
    nullary main_call0_cst_1 (constant S_ .f32 0x46800000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S4x128x64x64_S128_d0_2_3 h_S_) : (⟨S4x128x64x64, .f32⟩ : BufTy).Contents (Elt F) → (⟨S_, .f32⟩ : BufTy).Contents (Elt F) → (⟨S128, .f32⟩ : BufTy).Contents (Elt F)),
    unary main_call0_v9 main_call0_v10 ((broadcastInDim S1x128x1x1 ![1] bcast_S128_S1x128x1x1_1) : (⟨S128, .f32⟩ : BufTy).Contents (Elt F) → (⟨S1x128x1x1, .f32⟩ : BufTy).Contents (Elt F)),
    unary main_call0_v8 main_call0_v11 ((broadcastInDim S1x128x1x1 ![] bcast_S_S1x128x1x1) : (⟨S_, .f32⟩ : BufTy).Contents (Elt F) → (⟨S1x128x1x1, .f32⟩ : BufTy).Contents (Elt F)),
    binary main_call0_v10 main_call0_v11 main_call0_v12 (Host.divf : (⟨S1x128x1x1, .f32⟩ : BufTy).Contents (Elt F) → (⟨S1x128x1x1, .f32⟩ : BufTy).Contents (Elt F) → (⟨S1x128x1x1, .f32⟩ : BufTy).Contents (Elt F)),
    nullary main_call0_cst_3 (constant S_ .f32 0x00000000#32),
    binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 ((broadcastInDim S1x128x1x1 ![] bcast_S_S1x128x1x1) : (⟨S_, .f32⟩ : BufTy).Contents (Elt F) → (⟨S1x128x1x1, .f32⟩ : BufTy).Contents (Elt F)),
    ternary main_call0_v13 main_call0_v12 main_call0_call0_v1 main_v26 ((fun p a b => select (broadcastInDim S1x128x1x1 ![] bcast_S_S1x128x1x1 p) a b) : (⟨S_, .i1⟩ : BufTy).Contents (Elt F) → (⟨S1x128x1x1, .f32⟩ : BufTy).Contents (Elt F) → (⟨S1x128x1x1, .f32⟩ : BufTy).Contents (Elt F) → (⟨S1x128x1x1, .f32⟩ : BufTy).Contents (Elt F)),
    unary main_v25 main_v27 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v21 main_v27 main_v28 (subf : (⟨S4x128x64x64, .f32⟩ : BufTy).Contents (Elt F) → (⟨S4x128x64x64, .f32⟩ : BufTy).Contents (Elt F) → (⟨S4x128x64x64, .f32⟩ : BufTy).Contents (Elt F)),
    nullary main_cst_4 (constant S_ .f32 0x3727C5AC#32),
    unary main_cst_4 main_v29 (broadcastInDim S1x128x1x1 ![] bcast_S_S1x128x1x1 : (⟨S_, .f32⟩ : BufTy).Contents (Elt F) → (⟨S1x128x1x1, .f32⟩ : BufTy).Contents (Elt F)),
    binary main_v26 main_v29 main_v30 (addf : (⟨S1x128x1x1, .f32⟩ : BufTy).Contents (Elt F) → (⟨S1x128x1x1, .f32⟩ : BufTy).Contents (Elt F) → (⟨S1x128x1x1, .f32⟩ : BufTy).Contents (Elt F)),
    unary main_v30 main_v31 (Host.rsqrt : (⟨S1x128x1x1, .f32⟩ : BufTy).Contents (Elt F) → (⟨S1x128x1x1, .f32⟩ : BufTy).Contents (Elt F)),
    unary main_v31 main_v32 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v28 main_v32 main_v33 (mulf : (⟨S4x128x64x64, .f32⟩ : BufTy).Contents (Elt F) → (⟨S4x128x64x64, .f32⟩ : BufTy).Contents (Elt F) → (⟨S4x128x64x64, .f32⟩ : BufTy).Contents (Elt F)),
    reshape main_arg3 main_v34 rfl shapeCasts_S128_S1x128x1x1,
    unary main_v34 main_v35 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v33 main_v35 main_v36 (mulf : (⟨S4x128x64x64, .f32⟩ : BufTy).Contents (Elt F) → (⟨S4x128x64x64, .f32⟩ : BufTy).Contents (Elt F) → (⟨S4x128x64x64, .f32⟩ : BufTy).Contents (Elt F)),
    reshape main_arg4 main_v37 rfl shapeCasts_S128_S1x128x1x1,
    unary main_v37 main_v38 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v36 main_v38 main_v39 (addf : (⟨S4x128x64x64, .f32⟩ : BufTy).Contents (Elt F) → (⟨S4x128x64x64, .f32⟩ : BufTy).Contents (Elt F) → (⟨S4x128x64x64, .f32⟩ : BufTy).Contents (Elt F)),
    nullary main_call1_cst (constant S_ .f32 0x00000000#32),
    unary main_call1_cst main_call1_v0 ((broadcastInDim S4x128x64x64 ![] bcast_S_S4x128x64x64) : (⟨S_, .f32⟩ : BufTy).Contents (Elt F) → (⟨S4x128x64x64, .f32⟩ : BufTy).Contents (Elt F)),
    binary main_v39 main_call1_v0 main_v40 (maximumf : (⟨S4x128x64x64, .f32⟩ : BufTy).Contents (Elt F) → (⟨S4x128x64x64, .f32⟩ : BufTy).Contents (Elt F) → (⟨S4x128x64x64, .f32⟩ : BufTy).Contents (Elt F)),
    binary main_v40 main_arg1 main_v41 (addf : (⟨S4x128x64x64, .f32⟩ : BufTy).Contents (Elt F) → (⟨S4x128x64x64, .f32⟩ : BufTy).Contents (Elt F) → (⟨S4x128x64x64, .f32⟩ : BufTy).Contents (Elt F)) ]

theorem ops_split : (ops : List (HloOp τ sig (Elt F))) = opsA ++ opsB := rfl

/-- The buffers the second stretch writes, in order. -/
abbrev outsB : List (Ref sig .tc) :=
  [
    main_v18, main_v19, main_v20, main_v21, main_cst_2, main_v22,
    main_v23, main_cst_3, main_v24, main_v25, main_c, main_call0_cst,
    main_call0_v0, main_call0_v1, main_call0_cst_0, main_call0_v2, main_call0_v3, main_call0_v4,
    main_call0_v5, main_call0_v6, main_call0_v7, main_call0_cst_1, main_call0_v8, main_call0_cst_2,
    main_call0_v9, main_call0_v10, main_call0_v11, main_call0_v12, main_call0_cst_3, main_call0_v13,
    main_call0_cst_4, main_call0_call0_v0, main_call0_call0_v1, main_v26, main_v27, main_v28,
    main_cst_4, main_v29, main_v30, main_v31, main_v32, main_v33,
    main_v34, main_v35, main_v36, main_v37, main_v38, main_v39,
    main_call1_cst, main_call1_v0, main_v40, main_v41 ]

/-- The buffers the first stretch writes, in order. -/
abbrev outsA : List (Ref sig .tc) :=
  [
    main_v0, main_v1, main_v2, main_v3, main_v4, main_v5,
    main_cst, main_v6, main_cst_0, main_v7, main_v8, main_v9,
    main_v10, main_v11, main_v12, main_cst_1, main_v13, main_v14,
    main_v15, main_v16, main_v17 ]

theorem writesAreA : WritesAre (opsA : List (HloOp τ sig (Elt F))) outsA := by
  unfold WritesAre
  repeat' constructor

theorem writesAreB : WritesAre (opsB : List (HloOp τ sig (Elt F))) outsB := by
  unfold WritesAre
  repeat' constructor

end Cert.ReferenceIdeal.Hand

end
-- ==== Proof.RefRead.lean ====
/-
  The reference program's run, read at its result.

  The line of operations is in single-assignment form, so its fold over the initial contents can be read buffer by
  buffer: the first stretch leaves the attention of the two reshaped image arguments in its last buffer and writes no
  argument; the second stretch leaves in the program's result buffer the tail of what it found in the attention's buffer
  and in the arguments.  Composed: every execution of the program terminates with the result buffer at
  `tail (attnTerm (toBCN a0) (toBCN a1)) a1 a2 a3 a4` of the initial arguments, and the arguments unchanged.
-/
import proofs.«143733_j15865609191815_2_alg».proof.Proof.RefRun
import proofs.«143733_j15865609191815_2_alg».proof.Proof.RefTerms

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.StableHlo.StraightLine

set_option maxHeartbeats 1600000 in
/-- The first stretch at its last buffer: each operation's result is its function of its operands' results, down to the
    two image arguments. -/
theorem readA (V : Valuation τ sig (Elt Ideal)) :
    after (opsA (F := Ideal)) V (main_v17 : DevRef τ sig)
      = attnTerm (toBCN (V (main_arg0 : DevRef τ sig))) (toBCN (V (main_arg1 : DevRef τ sig))) := by
  after_results_simp
  rfl

set_option maxHeartbeats 3200000 in
/-- The second stretch at the program's result buffer, down to the attention's buffer and the arguments. -/
theorem readB (W : Valuation τ sig (Elt Ideal)) :
    after (opsB (F := Ideal)) W (main_v41 : DevRef τ sig)
      = tail (W (main_v17 : DevRef τ sig)) (W (main_arg1 : DevRef τ sig)) (W (main_arg2 : DevRef τ sig))
          (W (main_arg3 : DevRef τ sig)) (W (main_arg4 : DevRef τ sig)) := by
  after_results_simp
  rfl

/-- The whole line at the result buffer: the second stretch reads the attention where the first left it, and the
    arguments where they were, the first stretch writing none of them. -/
theorem read (V : Valuation τ sig (Elt Ideal)) :
    after (ops (F := Ideal)) V (main_v41 : DevRef τ sig)
      = tail (attnTerm (toBCN (V (main_arg0 : DevRef τ sig))) (toBCN (V (main_arg1 : DevRef τ sig))))
          (V (main_arg1 : DevRef τ sig)) (V (main_arg2 : DevRef τ sig)) (V (main_arg3 : DevRef τ sig))
          (V (main_arg4 : DevRef τ sig)) := by
  rw [ops_split, after_append, readB, readA,
    argument_kept writesAreA (b := main_arg1) (by decide), argument_kept writesAreA (b := main_arg2) (by decide),
    argument_kept writesAreA (b := main_arg3) (by decide), argument_kept writesAreA (b := main_arg4) (by decide)]

/-- From any memory with zero counters every execution of the reference program terminates, with the result buffer at the
    tail of the attention of the two reshaped image arguments, and the five arguments as they were. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v41)
          = tail (attnTerm (toBCN (m ((c.tc : Thread Cert.ReferenceIdeal.nD Cert.ReferenceIdeal.τ).loc Cert.ReferenceIdeal.main_arg0))) (toBCN (m ((c.tc : Thread Cert.ReferenceIdeal.nD Cert.ReferenceIdeal.τ).loc Cert.ReferenceIdeal.main_arg1))))
              (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run defs _ _).mono (fun _ h c => ⟨(h c main_v41).trans (read _),
      (h c main_arg0).trans (argument_kept writesAre (by decide) _),
      (h c main_arg1).trans (argument_kept writesAre (by decide) _),
      (h c main_arg2).trans (argument_kept writesAre (by decide) _),
      (h c main_arg3).trans (argument_kept writesAre (by decide) _),
      (h c main_arg4).trans (argument_kept writesAre (by decide) _)⟩)
    (run_main (F := Ideal) m ρ)

end Cert.ReferenceIdeal.Hand

end
-- ==== Proof.RefFrame.lean ====
/-
  The reference program's frame claim: it runs, and its five argument arrays end as they began.  This is the run read at
  its result with the result's conjunct dropped; the precondition on the inputs is not used.
-/
import proofs.«143733_j15865609191815_2_alg».proof.Defs
import proofs.«143733_j15865609191815_2_alg».proof.Proof.Gen.ReferenceIdeal
import proofs.«143733_j15865609191815_2_alg».proof.Proof.Gen.Pre_finite_inputs
import proofs.«143733_j15865609191815_2_alg».proof.Proof.RefRead

noncomputable section

namespace Cert.ReferenceIdeal.Hand

open Idealize.ShloMosaic Idealize.SL.Sem

theorem frame : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Hand.run m ρ)

end Cert.ReferenceIdeal.Hand

end
-- ==== Proof.lean ====
/-
  A flash-attention kernel against its reference, on the extended reals.

  Both programs reshape two [4, 128, 64, 64] images to stacks P and Q of four 128 × 4096 matrices, compute
      out(b, c, n) = Σ_m Q(b,c,m) · softmax_m (Σ_c' Q(b,c',n)·(Q(b,c',m) + P(b,c',m)) + Σ_c' P(b,c',n)·P(b,c',m)),
  and send the result through the same tail (a scale, a per-channel normalisation, an affine map, a rectifier, the
  second image added).  The reference takes the softmax of a whole row of 4096 scores at once.  The kernel walks the row
  in 8 tiles of 512 on a grid of 4·4·8 points, carrying a running maximum, a rescaled sum and a rescaled accumulator in
  scratch buffers from point to point, and divides at the last tile; its score is one contraction over 256 rows (Q's
  channels stacked on P's) where the reference adds two over 128.  For real inputs the two agree.

  The frames (the three programs run, fault nowhere and leave their arguments alone) are proved for the kernel by running
  its body, case by case, at every grid point, under an invariant that carries the scratch buffers; two windows of the
  kernel read the same array, so the array is held in two halves while the region runs.  The value is an induction over
  the grid points (the walk), a cover of the output array by the tiles written back, and the algebra of the walk.
-/
import proofs.«143733_j15865609191815_2_alg».proof.Defs
import proofs.«143733_j15865609191815_2_alg».proof.Proof.Gen.Kernel
import proofs.«143733_j15865609191815_2_alg».proof.Proof.Gen.KernelIdeal
import proofs.«143733_j15865609191815_2_alg».proof.Proof.Gen.ReferenceIdeal
import proofs.«143733_j15865609191815_2_alg».proof.Proof.Gen.Pre_finite_inputs
import proofs.«143733_j15865609191815_2_alg».proof.Proof.WFrame
import proofs.«143733_j15865609191815_2_alg».proof.Proof.KFrame
import proofs.«143733_j15865609191815_2_alg».proof.Proof.KValue
import proofs.«143733_j15865609191815_2_alg».proof.Proof.RefFrame
import proofs.«143733_j15865609191815_2_alg».proof.Proof.RefRead
import Idealize.ShloMosaic.Adequacy
import Idealize.ShloMosaic.Init

noncomputable section

namespace Cert.Proof

open Idealize.ShloMosaic Idealize.SL.Sem

/-- The two idealized programs, run from memories that agree on the arguments, end with the same result: the kernel's
    result buffer is the tail applied to the walk's output array, which for real inputs is the reference's attention. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Wfin m c Cert.KernelIdeal.main_v26, Cert.KernelIdeal.Hand.run_result (F := Ideal) m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2]
  exact (Cert.KernelIdeal.Hand.result_eq m hpre c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.ReferenceIdeal.Hand.frame, trivial, algebraic⟩

end Cert.Proof

end
